-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v67_0)) (v2 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v67_0) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S4096x4096 : Shape := ⟨2, ![4096, 4096]⟩
abbrev S1x4096 : Shape := ⟨2, ![1, 4096]⟩
abbrev S1 : Shape := ⟨1, ![1]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg25 : FVec F S4096x4096 .f32) (main_arg26 : FVec F S4096x1 .f32) (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  let main_v124 : FVec F S4096x4096 .f32 := Host.absf main_arg25
  let main_cst_48 : FVec F S_ .f32 := constant S_ .f32 0x7F800000#32
  let main_v125 : FVec F S4096x4096 .f32 := broadcastInDim S4096x4096 ![] bcast_S_S4096x4096 main_cst_48
  let main_v126 : IVec S4096x4096 1 := cmpf .olt main_v124 main_v125
  let main_c_49 : IVec S_ 1 := constantI S_ 1 1#1
  let main_v127 : IVec S_ 1 := (fun x v => Host.reduce IntOp.andi x v reducesTo_S4096x4096_S_d0_1 h_S_) main_v126 main_c_49
  let main_v128 : IVec S_ 1 := andi main_v123 main_v127
  let main_v129 : FVec F S4096x1 .f32 := Host.absf main_arg26
  let main_cst_50 : FVec F S_ .f32 := constant S_ .f32 0x7F800000#32
  let main_v130 : FVec F S4096x1 .f32 := broadcastInDim S4096x1 ![] bcast_S_S4096x1 main_cst_50
  let main_v131 : IVec S4096x1 1 := cmpf .olt main_v129 main_v130
  let main_c_51 : IVec S_ 1 := constantI S_ 1 1#1
  let main_v132 : IVec S_ 1 := (fun x v => Host.reduce IntOp.andi x v reducesTo_S4096x1_S_d0_1 h_S_) main_v131 main_c_51
  let main_v133 : IVec S_ 1 := andi main_v128 main_v132
  main_v133

def fn_part6 {F : FTy → Type} [FloatOps F] (main_arg21 : FVec F S1x4096 .f32) (main_arg22 : FVec F S1 .f32) (main_arg23 : FVec F S1x4096 .f32) (main_arg24 : FVec F S1 .f32) (main_arg25 : FVec F S4096x4096 .f32) (main_arg26 : FVec F S4096x1 .f32) (main_v98 : IVec S_ 1) (main_v101 : IVec S4096x1 1) (main_c_39 : IVec S_ 1) : IVec S_ 1 :=
  let main_v102 : IVec S_ 1 := (fun x v => Host.reduce IntOp.andi x v reducesTo_S4096x1_S_d0_1 h_S_) main_v101 main_c_39
  let main_v103 : IVec S_ 1 := andi main_v98 main_v102
  let main_v104 : FVec F S1x4096 .f32 := Host.absf main_arg21
  let main_cst_40 : FVec F S_ .f32 := constant S_ .f32 0x7F800000#32
  let main_v105 : FVec F S1x4096 .f32 := broadcastInDim S1x4096 ![] bcast_S_S1x4096 main_cst_40
  let main_v106 : IVec S1x4096 1 := cmpf .olt main_v104 main_v105
  let main_c_41 : IVec S_ 1 := constantI S_ 1 1#1
  let main_v107 : IVec S_ 1 := (fun x v => Host.reduce IntOp.andi x v reducesTo_S1x4096_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_v114 : FVec F S1x4096 .f32 := Host.absf main_arg23
  let main_cst_44 : FVec F S_ .f32 := constant S_ .f32 0x7F800000#32
  let main_v115 : FVec F S1x4096 .f32 := broadcastInDim S1x4096 ![] bcast_S_S1x4096 main_cst_44
  let main_v116 : IVec S1x4096 1 := cmpf .olt main_v114 main_v115
  let main_c_45 : IVec S_ 1 := constantI S_ 1 1#1
  let main_v117 : IVec S_ 1 := (fun x v => Host.reduce IntOp.andi x v reducesTo_S1x4096_S_d0_1 h_S_) main_v116 main_c_45
  let main_v118 : IVec S_ 1 := andi main_v113 main_v117
  let main_v119 : FVec F S1 .f32 := Host.absf main_arg24
  fn_part7 (F := F) main_arg25 main_arg26 main_v118 main_v119

def fn_part5 {F : FTy → Type} [FloatOps F] (main_arg18 : FVec F S4096x1 .f32) (main_arg19 : FVec F S4096x4096 .f32) (main_arg20 : FVec F S4096x1 .f32) (main_arg21 : FVec F S1x4096 .f32) (main_arg22 : FVec F S1 .f32) (main_arg23 : FVec F S1x4096 .f32) (main_arg24 : FVec F S1 .f32) (main_arg25 : FVec F S4096x4096 .f32) (main_arg26 : FVec F S4096x1 .f32) (main_v83 : IVec S_ 1) (main_v84 : FVec F S4096x4096 .f32) (main_cst_32 : FVec F S_ .f32) : IVec S_ 1 :=
  let main_v85 : FVec F S4096x4096 .f32 := broadcastInDim S4096x4096 ![] bcast_S_S4096x4096 main_cst_32
  let main_v86 : IVec S4096x4096 1 := cmpf .olt main_v84 main_v85
  let main_c_33 : IVec S_ 1 := constantI S_ 1 1#1
  let main_v87 : IVec S_ 1 := (fun x v => Host.reduce IntOp.andi x v reducesTo_S4096x4096_S_d0_1 h_S_) main_v86 main_c_33
  let main_v88 : IVec S_ 1 := andi main_v83 main_v87
  let main_v89 : FVec F S4096x1 .f32 := Host.absf main_arg18
  let main_cst_34 : FVec F S_ .f32 := constant S_ .f32 0x7F800000#32
  let main_v90 : FVec F S4096x1 .f32 := broadcastInDim S4096x1 ![] bcast_S_S4096x1 main_cst_34
  let main_v91 : IVec S4096x1 1 := cmpf .olt main_v89 main_v90
  let main_c_35 : IVec S_ 1 := constantI S_ 1 1#1
  let main_v92 : IVec S_ 1 := (fun x v => Host.reduce IntOp.andi x v reducesTo_S4096x1_S_d0_1 h_S_) main_v91 main_c_35
  let main_v93 : IVec S_ 1 := andi main_v88 main_v92
  let main_v94 : FVec F S4096x4096 .f32 := Host.absf main_arg19
  let main_cst_36 : FVec F S_ .f32 := constant S_ .f32 0x7F800000#32
  let main_v95 : FVec F S4096x4096 .f32 := broadcastInDim S4096x4096 ![] bcast_S_S4096x4096 main_cst_36
  let main_v96 : IVec S4096x4096 1 := cmpf .olt main_v94 main_v95
  let main_c_37 : IVec S_ 1 := constantI S_ 1 1#1
  let main_v97 : IVec S_ 1 := (fun x v => Host.reduce IntOp.andi x v reducesTo_S4096x4096_S_d0_1 h_S_) main_v96 main_c_37
  let main_v98 : IVec S_ 1 := andi main_v93 main_v97
  let main_v99 : FVec F S4096x1 .f32 := Host.absf main_arg20
  let main_cst_38 : FVec F S_ .f32 := constant S_ .f32 0x7F800000#32
  let main_v100 : FVec F S4096x1 .f32 := broadcastInDim S4096x1 ![] bcast_S_S4096x1 main_cst_38
  let main_v101 : IVec S4096x1 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S4096x1 .f32) (main_arg15 : FVec F S4096x4096 .f32) (main_arg16 : FVec F S4096x1 .f32) (main_arg17 : FVec F S4096x4096 .f32) (main_arg18 : FVec F S4096x1 .f32) (main_arg19 : FVec F S4096x4096 .f32) (main_arg20 : FVec F S4096x1 .f32) (main_arg21 : FVec F S1x4096 .f32) (main_arg22 : FVec F S1 .f32) (main_arg23 : FVec F S1x4096 .f32) (main_arg24 : FVec F S1 .f32) (main_arg25 : FVec F S4096x4096 .f32) (main_arg26 : FVec F S4096x1 .f32) (main_v63 : IVec S_ 1) (main_v67 : IVec S_ 1) : IVec S_ 1 :=
  let main_v68 : IVec S_ 1 := andi main_v63 main_v67
  let main_v69 : FVec F S4096x1 .f32 := Host.absf main_arg14
  let main_cst_26 : FVec F S_ .f32 := constant S_ .f32 0x7F800000#32
  let main_v70 : FVec F S4096x1 .f32 := broadcastInDim S4096x1 ![] bcast_S_S4096x1 main_cst_26
  let main_v71 : IVec S4096x1 1 := cmpf .olt main_v69 main_v70
  let main_c_27 : IVec S_ 1 := constantI S_ 1 1#1
  let main_v72 : IVec S_ 1 := (fun x v => Host.reduce IntOp.andi x v reducesTo_S4096x1_S_d0_1 h_S_) main_v71 main_c_27
  let main_v73 : IVec S_ 1 := andi main_v68 main_v72
  let main_v74 : FVec F S4096x4096 .f32 := Host.absf main_arg15
  let main_cst_28 : FVec F S_ .f32 := constant S_ .f32 0x7F800000#32
  let main_v75 : FVec F S4096x4096 .f32 := broadcastInDim S4096x4096 ![] bcast_S_S4096x4096 main_cst_28
  let main_v76 : IVec S4096x4096 1 := cmpf .olt main_v74 main_v75
  let main_c_29 : IVec S_ 1 := constantI S_ 1 1#1
  let main_v77 : IVec S_ 1 := (fun x v => Host.reduce IntOp.andi x v reducesTo_S4096x4096_S_d0_1 h_S_) main_v76 main_c_29
  let main_v78 : IVec S_ 1 := andi main_v73 main_v77
  let main_v79 : FVec F S4096x1 .f32 := Host.absf main_arg16
  let main_cst_30 : FVec F S_ .f32 := constant S_ .f32 0x7F800000#32
  let main_v80 : FVec F S4096x1 .f32 := broadcastInDim S4096x1 ![] bcast_S_S4096x1 main_cst_30
  let main_v81 : IVec S4096x1 1 := cmpf .olt main_v79 main_v80
  let main_c_31 : IVec S_ 1 := constantI S_ 1 1#1
  let main_v82 : IVec S_ 1 := (fun x v => Host.reduce IntOp.andi x v reducesTo_S4096x1_S_d0_1 h_S_) main_v81 main_c_31
  let main_v83 : IVec S_ 1 := andi main_v78 main_v82
  let main_v84 : FVec F S4096x4096 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S1x4096 .f32) (main_arg12 : FVec F S1 .f32) (main_arg13 : FVec F S4096x4096 .f32) (main_arg14 : FVec F S4096x1 .f32) (main_arg15 : FVec F S4096x4096 .f32) (main_arg16 : FVec F S4096x1 .f32) (main_arg17 : FVec F S4096x4096 .f32) (main_arg18 : FVec F S4096x1 .f32) (main_arg19 : FVec F S4096x4096 .f32) (main_arg20 : FVec F S4096x1 .f32) (main_arg21 : FVec F S1x4096 .f32) (main_arg22 : FVec F S1 .f32) (main_arg23 : FVec F S1x4096 .f32) (main_arg24 : FVec F S1 .f32) (main_arg25 : FVec F S4096x4096 .f32) (main_arg26 : FVec F S4096x1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x4096 .f32 := Host.absf main_arg11
  let main_cst_20 : FVec F S_ .f32 := constant S_ .f32 0x7F800000#32
  let main_v55 : FVec F S1x4096 .f32 := broadcastInDim S1x4096 ![] bcast_S_S1x4096 main_cst_20
  let main_v56 : IVec S1x4096 1 := cmpf .olt main_v54 main_v55
  let main_c_21 : IVec S_ 1 := constantI S_ 1 1#1
  let main_v57 : IVec S_ 1 := (fun x v => Host.reduce IntOp.andi x v reducesTo_S1x4096_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S4096x4096 .f32) (main_arg8 : FVec F S4096x1 .f32) (main_arg9 : FVec F S1x4096 .f32) (main_arg10 : FVec F S1 .f32) (main_arg11 : FVec F S1x4096 .f32) (main_arg12 : FVec F S1 .f32) (main_arg13 : FVec F S4096x4096 .f32) (main_arg14 : FVec F S4096x1 .f32) (main_arg15 : FVec F S4096x4096 .f32) (main_arg16 : FVec F S4096x1 .f32) (main_arg17 : FVec F S4096x4096 .f32) (main_arg18 : FVec F S4096x1 .f32) (main_arg19 : FVec F S4096x4096 .f32) (main_arg20 : FVec F S4096x1 .f32) (main_arg21 : FVec F S1x4096 .f32) (main_arg22 : FVec F S1 .f32) (main_arg23 : FVec F S1x4096 .f32) (main_arg24 : FVec F S1 .f32) (main_arg25 : FVec F S4096x4096 .f32) (main_arg26 : FVec F S4096x1 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x1 .f32 := Host.absf main_arg8
  let main_cst_14 : FVec F S_ .f32 := constant S_ .f32 0x7F800000#32
  let main_v40 : FVec F S4096x1 .f32 := broadcastInDim S4096x1 ![] bcast_S_S4096x1 main_cst_14
  let main_v41 : IVec S4096x1 1 := cmpf .olt main_v39 main_v40
  let main_c_15 : IVec S_ 1 := constantI S_ 1 1#1
  let main_v42 : IVec S_ 1 := (fun x v => Host.reduce IntOp.andi x v reducesTo_S4096x1_S_d0_1 h_S_) main_v41 main_c_15
  let main_v43 : IVec S_ 1 := andi main_v38 main_v42
  let main_v44 : FVec F S1x4096 .f32 := Host.absf main_arg9
  let main_cst_16 : FVec F S_ .f32 := constant S_ .f32 0x7F800000#32
  let main_v45 : FVec F S1x4096 .f32 := broadcastInDim S1x4096 ![] bcast_S_S1x4096 main_cst_16
  let main_v46 : IVec S1x4096 1 := cmpf .olt main_v44 main_v45
  let main_c_17 : IVec S_ 1 := constantI S_ 1 1#1
  let main_v47 : IVec S_ 1 := (fun x v => Host.reduce IntOp.andi x v reducesTo_S1x4096_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S4096x1 .f32) (main_arg5 : FVec F S4096x4096 .f32) (main_arg6 : FVec F S4096x1 .f32) (main_arg7 : FVec F S4096x4096 .f32) (main_arg8 : FVec F S4096x1 .f32) (main_arg9 : FVec F S1x4096 .f32) (main_arg10 : FVec F S1 .f32) (main_arg11 : FVec F S1x4096 .f32) (main_arg12 : FVec F S1 .f32) (main_arg13 : FVec F S4096x4096 .f32) (main_arg14 : FVec F S4096x1 .f32) (main_arg15 : FVec F S4096x4096 .f32) (main_arg16 : FVec F S4096x1 .f32) (main_arg17 : FVec F S4096x4096 .f32) (main_arg18 : FVec F S4096x1 .f32) (main_arg19 : FVec F S4096x4096 .f32) (main_arg20 : FVec F S4096x1 .f32) (main_arg21 : FVec F S1x4096 .f32) (main_arg22 : FVec F S1 .f32) (main_arg23 : FVec F S1x4096 .f32) (main_arg24 : FVec F S1 .f32) (main_arg25 : FVec F S4096x4096 .f32) (main_arg26 : FVec F S4096x1 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x1 .f32 := Host.absf main_arg6
  let main_cst_10 : FVec F S_ .f32 := constant S_ .f32 0x7F800000#32
  let main_v30 : FVec F S4096x1 .f32 := broadcastInDim S4096x1 ![] bcast_S_S4096x1 main_cst_10
  let main_v31 : IVec S4096x1 1 := cmpf .olt main_v29 main_v30
  let main_c_11 : IVec S_ 1 := constantI S_ 1 1#1
  let main_v32 : IVec S_ 1 := (fun x v => Host.reduce IntOp.andi x v reducesTo_S4096x1_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S4096x1 .f32) (main_arg1 : FVec F S4096x4096 .f32) (main_arg2 : FVec F S4096x1 .f32) (main_arg3 : FVec F S4096x4096 .f32) (main_arg4 : FVec F S4096x1 .f32) (main_arg5 : FVec F S4096x4096 .f32) (main_arg6 : FVec F S4096x1 .f32) (main_arg7 : FVec F S4096x4096 .f32) (main_arg8 : FVec F S4096x1 .f32) (main_arg9 : FVec F S1x4096 .f32) (main_arg10 : FVec F S1 .f32) (main_arg11 : FVec F S1x4096 .f32) (main_arg12 : FVec F S1 .f32) (main_arg13 : FVec F S4096x4096 .f32) (main_arg14 : FVec F S4096x1 .f32) (main_arg15 : FVec F S4096x4096 .f32) (main_arg16 : FVec F S4096x1 .f32) (main_arg17 : FVec F S4096x4096 .f32) (main_arg18 : FVec F S4096x1 .f32) (main_arg19 : FVec F S4096x4096 .f32) (main_arg20 : FVec F S4096x1 .f32) (main_arg21 : FVec F S1x4096 .f32) (main_arg22 : FVec F S1 .f32) (main_arg23 : FVec F S1x4096 .f32) (main_arg24 : FVec F S1 .f32) (main_arg25 : FVec F S4096x4096 .f32) (main_arg26 : FVec F S4096x1 .f32) : IVec S_ 1 :=
  let main_v0 : FVec F S4096x1 .f32 := Host.absf main_arg0
  let main_cst : FVec F S_ .f32 := constant S_ .f32 0x7F800000#32
  let main_v1 : FVec F S4096x1 .f32 := broadcastInDim S4096x1 ![] bcast_S_S4096x1 main_cst
  let main_v2 : IVec S4096x1 1 := cmpf .olt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S4096x1 : Shape := ⟨2, ![4096, 1]⟩
abbrev S4096x4096 : Shape := ⟨2, ![4096, 4096]⟩
abbrev S1x4096 : Shape := ⟨2, ![1, 4096]⟩
abbrev S1 : Shape := ⟨1, ![1]⟩
abbrev S256x4096 : Shape := ⟨2, ![256, 4096]⟩
abbrev S256x1 : Shape := ⟨2, ![256, 1]⟩
abbrev S256 : Shape := ⟨1, ![256]⟩
abbrev S_ : Shape := ⟨0, ![]⟩
abbrev S1x1 : Shape := ⟨2, ![1, 1]⟩

abbrev nBuf : Space → Nat
  | .hbm => 114
  | .vmem => 74
  | .smem => 0
  | _ => 0

abbrev bufTy : (tb : Table) → Fin (tcTables nBuf tb) → BufTy
  | .hbm, ⟨0, _⟩ => ⟨S4096x1, .f32⟩
  | .hbm, ⟨1, _⟩ => ⟨S4096x4096, .f32⟩
  | .hbm, ⟨2, _⟩ => ⟨S4096x1, .f32⟩
  | .hbm, ⟨3, _⟩ => ⟨S4096x4096, .f32⟩
  | .hbm, ⟨4, _⟩ => ⟨S4096x1, .f32⟩
  | .hbm, ⟨5, _⟩ => ⟨S4096x4096, .f32⟩
  | .hbm, ⟨6, _⟩ => ⟨S4096x1, .f32⟩
  | .hbm, ⟨7, _⟩ => ⟨S4096x4096, .f32⟩
  | .hbm, ⟨8, _⟩ => ⟨S4096x1, .f32⟩
  | .hbm, ⟨9, _⟩ => ⟨S1x4096, .f32⟩
  | .hbm, ⟨10, _⟩ => ⟨S1, .f32⟩
  | .hbm, ⟨11, _⟩ => ⟨S1x4096, .f32⟩
  | .hbm, ⟨12, _⟩ => ⟨S1, .f32⟩
  | .hbm, ⟨13, _⟩ => ⟨S4096x4096, .f32⟩
  | .hbm, ⟨14, _⟩ => ⟨S4096x1, .f32⟩
  | .hbm, ⟨15, _⟩ => ⟨S4096x4096, .f32⟩
  | .hbm, ⟨16, _⟩ => ⟨S4096x1, .f32⟩
  | .hbm, ⟨17, _⟩ => ⟨S4096x4096, .f32⟩
  | .hbm, ⟨18, _⟩ => ⟨S4096x1, .f32⟩
  | .hbm, ⟨19, _⟩ => ⟨S4096x4096, .f32⟩
  | .hbm, ⟨20, _⟩ => ⟨S4096x1, .f32⟩
  | .hbm, ⟨21, _⟩ => ⟨S1x4096, .f32⟩
  | .hbm, ⟨22, _⟩ => ⟨S1, .f32⟩
  | .hbm, ⟨23, _⟩ => ⟨S1x4096, .f32⟩
  | .hbm, ⟨24, _⟩ => ⟨S1, .f32⟩
  | .hbm, ⟨25, _⟩ => ⟨S4096x4096, .f32⟩
  | .hbm, ⟨26, _⟩ => ⟨S4096x1, .f32⟩
  | .hbm, ⟨27, _⟩ => ⟨S1x4096, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S1x4096, .f32⟩
  | .hbm, ⟨32, _⟩ => ⟨S_, .f32⟩
  | .hbm, ⟨33, _⟩ => ⟨S1, .f32⟩
  | .hbm, ⟨34, _⟩ => ⟨S1x1, .f32⟩
  | .hbm, ⟨35, _⟩ => ⟨S1x1, .f32⟩
  | .hbm, ⟨36, _⟩ => ⟨S1x1, .f32⟩
  | .hbm, ⟨37, _⟩ => ⟨S1x1, .f32⟩
  | .hbm, ⟨38, _⟩ => ⟨S1x4096, .f32⟩
  | .hbm, ⟨39, _⟩ => ⟨S_, .f32⟩
  | .hbm, ⟨40, _⟩ => ⟨S1, .f32⟩
  | .hbm, ⟨41, _⟩ => ⟨S1x1, .f32⟩
  | .hbm, ⟨42, _⟩ => ⟨S1x1, .f32⟩
  | .hbm, ⟨43, _⟩ => ⟨S1x1, .f32⟩
  | .hbm, ⟨44, _⟩ => ⟨S1x1, .f32⟩
  | .hbm, ⟨45, _⟩ => ⟨S1x1, .f32⟩
  | .hbm, ⟨46, _⟩ => ⟨S_, .f32⟩
  | .hbm, ⟨47, _⟩ => ⟨S1x1, .f32⟩
  | .hbm, ⟨48, _⟩ => ⟨S1x1, .f32⟩
  | .hbm, ⟨49, _⟩ => ⟨S_, .f32⟩
  | .hbm, ⟨50, _⟩ => ⟨S1x1, .f32⟩
  | .hbm, ⟨51, _⟩ => ⟨S1x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1x1, .f32⟩
  | .hbm, ⟨66, _⟩ => ⟨S1x4096, .f32⟩
  | .hbm, ⟨67, _⟩ => ⟨S1x4096, .f32⟩
  | .hbm, ⟨68, _⟩ => ⟨S4096x4096, .f32⟩
  | .hbm, ⟨69, _⟩ => ⟨S4096x1, .f32⟩
  | .hbm, ⟨70, _⟩ => ⟨S1x4096, .f32⟩
  | .hbm, ⟨71, _⟩ => ⟨S4096x1, .f32⟩
  | .hbm, ⟨72, _⟩ => ⟨S4096x1, .f32⟩
  | .hbm, ⟨73, _⟩ => ⟨S4096x1, .f32⟩
  | .hbm, ⟨74, _⟩ => ⟨S1x4096, .f32⟩
  | .hbm, ⟨75, _⟩ => ⟨S_, .f32⟩
  | .hbm, ⟨76, _⟩ => ⟨S1, .f32⟩
  | .hbm, ⟨77, _⟩ => ⟨S1x1, .f32⟩
  | .hbm, ⟨78, _⟩ => ⟨S1x1, .f32⟩
  | .hbm, ⟨79, _⟩ => ⟨S1x1, .f32⟩
  | .hbm, ⟨80, _⟩ => ⟨S1x1, .f32⟩
  | .hbm, ⟨81, _⟩ => ⟨S1x4096, .f32⟩
  | .hbm, ⟨82, _⟩ => ⟨S_, .f32⟩
  | .hbm, ⟨83, _⟩ => ⟨S1, .f32⟩
  | .hbm, ⟨84, _⟩ => ⟨S1x1, .f32⟩
  | .hbm, ⟨85, _⟩ => ⟨S1x1, .f32⟩
  | .hbm, ⟨86, _⟩ => ⟨S1x1, .f32⟩
  | .hbm, ⟨87, _⟩ => ⟨S1x1, .f32⟩
  | .hbm, ⟨88, _⟩ => ⟨S1x1, .f32⟩
  | .hbm, ⟨89, _⟩ => ⟨S_, .f32⟩
  | .hbm, ⟨90, _⟩ => ⟨S1x1, .f32⟩
  | .hbm, ⟨91, _⟩ => ⟨S1x1, .f32⟩
  | .hbm, ⟨92, _⟩ => ⟨S_, .f32⟩
  | .hbm, ⟨93, _⟩ => ⟨S1x1, .f32⟩
  | .hbm, ⟨94, _⟩ => ⟨S1x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S4096x1, .f32⟩
  | .hbm, ⟨102, _⟩ => ⟨S4096x1, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S1x1, .f32⟩
  | .hbm, ⟨109, _⟩ => ⟨S1x4096, .f32⟩
  | .hbm, ⟨110, _⟩ => ⟨S1x4096, .f32⟩
  | .hbm, ⟨111, _⟩ => ⟨S4096x4096, .f32⟩
  | .hbm, ⟨112, _⟩ => ⟨S4096x1, .f32⟩
  | .hbm, ⟨113, _⟩ => ⟨S1x4096, .f32⟩
  | .local _ .vmem, ⟨0, _⟩ => ⟨S1x4096, .f32⟩
  | .local _ .vmem, ⟨1, _⟩ => ⟨S256x4096, .f32⟩
  | .local _ .vmem, ⟨2, _⟩ => ⟨S256x4096, .f32⟩
  | .local _ .vmem, ⟨3, _⟩ => ⟨S256x1, .f32⟩
  | .local _ .vmem, ⟨4, _⟩ => ⟨S256x1, .f32⟩
  | .local _ .vmem, ⟨5, _⟩ => ⟨S256x4096, .f32⟩
  | .local _ .vmem, ⟨6, _⟩ => ⟨S256x4096, .f32⟩
  | .local _ .vmem, ⟨7, _⟩ => ⟨S256x1, .f32⟩
  | .local _ .vmem, ⟨8, _⟩ => ⟨S256x1, .f32⟩
  | .local _ .vmem, ⟨9, _⟩ => ⟨S256x4096, .f32⟩
  | .local _ .vmem, ⟨10, _⟩ => ⟨S256x4096, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S256x1, .f32⟩
  | .local _ .vmem, ⟨18, _⟩ => ⟨S256x1, .f32⟩
  | .local _ .vmem, ⟨19, _⟩ => ⟨S256x4096, .f32⟩
  | .local _ .vmem, ⟨20, _⟩ => ⟨S256x4096, .f32⟩
  | .local _ .vmem, ⟨21, _⟩ => ⟨S256x1, .f32⟩
  | .local _ .vmem, ⟨22, _⟩ => ⟨S256x1, .f32⟩
  | .local _ .vmem, ⟨23, _⟩ => ⟨S1x4096, .f32⟩
  | .local _ .vmem, ⟨24, _⟩ => ⟨S256x4096, .f32⟩
  | .local _ .vmem, ⟨25, _⟩ => ⟨S256x4096, .f32⟩
  | .local _ .vmem, ⟨26, _⟩ => ⟨S256x1, .f32⟩
  | .local _ .vmem, ⟨27, _⟩ => ⟨S256x1, .f32⟩
  | .local _ .vmem, ⟨28, _⟩ => ⟨S1x4096, .f32⟩
  | .local _ .vmem, ⟨29, _⟩ => ⟨S1x4096, .f32⟩
  | .local _ .vmem, ⟨30, _⟩ => ⟨S1x1, .f32⟩
  | .local _ .vmem, ⟨31, _⟩ => ⟨S1x1, .f32⟩
  | .local _ .vmem, ⟨32, _⟩ => ⟨S1x1, .f32⟩
  | .local _ .vmem, ⟨33, _⟩ => ⟨S256x4096, .f32⟩
  | .local _ .vmem, ⟨34, _⟩ => ⟨S256x4096, .f32⟩
  | .local _ .vmem, ⟨35, _⟩ => ⟨S256x1, .f32⟩
  | .local _ .vmem, ⟨36, _⟩ => ⟨S256x1, .f32⟩
  | .local _ .vmem, ⟨37, _⟩ => ⟨S1x4096, .f32⟩
  | .local _ .vmem, ⟨38, _⟩ => ⟨S256x4096, .f32⟩
  | .local _ .vmem, ⟨39, _⟩ => ⟨S256x4096, .f32⟩
  | .local _ .vmem, ⟨40, _⟩ => ⟨S256x1, .f32⟩
  | .local _ .vmem, ⟨41, _⟩ => ⟨S256x1, .f32⟩
  | .local _ .vmem, ⟨42, _⟩ => ⟨S256x4096, .f32⟩
  | .local _ .vmem, ⟨43, _⟩ => ⟨S256x4096, .f32⟩
  | .local _ .vmem, ⟨44, _⟩ => ⟨S256x1, .f32⟩
  | .local _ .vmem, ⟨45, _⟩ => ⟨S256x1, .f32⟩
  | .local _ .vmem, ⟨46, _⟩ => ⟨S256x4096, .f32⟩
  | .local _ .vmem, ⟨47, _⟩ => ⟨S256x4096, .f32⟩
  | .local _ .vmem, ⟨48, _⟩ => ⟨S256x1, .f32⟩
  | .local _ .vmem, ⟨49, _⟩ => ⟨S256x1, .f32⟩
  | .local _ .vmem, ⟨50, _⟩ => ⟨S256x1, .f32⟩
  | .local _ .vmem, ⟨51, _⟩ => ⟨S256x1, .f32⟩
  | .local _ .vmem, ⟨52, _⟩ => ⟨S256x1, .f32⟩
  | .local _ .vmem, ⟨53, _⟩ => ⟨S256x1, .f32⟩
  | .local _ .vmem, ⟨54, _⟩ => ⟨S256x1, .f32⟩
  | .local _ .vmem, ⟨55, _⟩ => ⟨S256x1, .f32⟩
  | .local _ .vmem, ⟨56, _⟩ => ⟨S256x4096, .f32⟩
  | .local _ .vmem, ⟨57, _⟩ => ⟨S256x4096, .f32⟩
  | .local _ .vmem, ⟨58, _⟩ => ⟨S256x1, .f32⟩
  | .local _ .vmem, ⟨59, _⟩ => ⟨S256x1, .f32⟩
  | .local _ .vmem, ⟨60, _⟩ => ⟨S1x4096, .f32⟩
  | .local _ .vmem, ⟨61, _⟩ => ⟨S256x4096, .f32⟩
  | .local _ .vmem, ⟨62, _⟩ => ⟨S256x4096, .f32⟩
  | .local _ .vmem, ⟨63, _⟩ => ⟨S256x1, .f32⟩
  | .local _ .vmem, ⟨64, _⟩ => ⟨S256x1, .f32⟩
  | .local _ .vmem, ⟨65, _⟩ => ⟨S1x4096, .f32⟩
  | .local _ .vmem, ⟨66, _⟩ => ⟨S1x4096, .f32⟩
  | .local _ .vmem, ⟨67, _⟩ => ⟨S1x1, .f32⟩
  | .local _ .vmem, ⟨68, _⟩ => ⟨S1x1, .f32⟩
  | .local _ .vmem, ⟨69, _⟩ => ⟨S1x1, .f32⟩
  | .local _ .vmem, ⟨70, _⟩ => ⟨S256x4096, .f32⟩
  | .local _ .vmem, ⟨71, _⟩ => ⟨S256x4096, .f32⟩
  | .local _ .vmem, ⟨72, _⟩ => ⟨S256x1, .f32⟩
  | .local _ .vmem, ⟨73, _⟩ => ⟨S256x1, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1_0 : Ref sig .tc := ⟨.hbm, 28, rfl⟩
abbrev main_v1_1 : Ref sig .tc := ⟨.hbm, 29, rfl⟩
abbrev main_v1_2 : Ref sig .tc := ⟨.hbm, 30, rfl⟩
abbrev main_v2 : Ref sig .tc := ⟨.hbm, 31, rfl⟩
abbrev main_cst : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_0 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_1 : Ref sig .tc := ⟨.hbm, 46, rfl⟩
abbrev main_v15 : Ref sig .tc := ⟨.hbm, 47, rfl⟩
abbrev main_v16 : Ref sig .tc := ⟨.hbm, 48, rfl⟩
abbrev main_cst_2 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_3 : Ref sig .tc := ⟨.hbm, 60, rfl⟩
abbrev main_v27 : Ref sig .tc := ⟨.hbm, 61, rfl⟩
abbrev main_v28 : Ref sig .tc := ⟨.hbm, 62, rfl⟩
abbrev main_cst_4 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33_0 : Ref sig .tc := ⟨.hbm, 68, rfl⟩
abbrev main_v33_1 : Ref sig .tc := ⟨.hbm, 69, rfl⟩
abbrev main_v34 : Ref sig .tc := ⟨.hbm, 70, rfl⟩
abbrev main_v35_0 : Ref sig .tc := ⟨.hbm, 71, rfl⟩
abbrev main_v35_1 : Ref sig .tc := ⟨.hbm, 72, rfl⟩
abbrev main_v35_2 : Ref sig .tc := ⟨.hbm, 73, rfl⟩
abbrev main_v36 : Ref sig .tc := ⟨.hbm, 74, rfl⟩
abbrev main_cst_5 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_6 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_7 : Ref sig .tc := ⟨.hbm, 89, rfl⟩
abbrev main_v49 : Ref sig .tc := ⟨.hbm, 90, rfl⟩
abbrev main_v50 : Ref sig .tc := ⟨.hbm, 91, rfl⟩
abbrev main_cst_8 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_9 : Ref sig .tc := ⟨.hbm, 103, rfl⟩
abbrev main_v61 : Ref sig .tc := ⟨.hbm, 104, rfl⟩
abbrev main_v62 : Ref sig .tc := ⟨.hbm, 105, rfl⟩
abbrev main_cst_10 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67_0 : Ref sig .tc := ⟨.hbm, 111, rfl⟩
abbrev main_v67_1 : Ref sig .tc := ⟨.hbm, 112, rfl⟩
abbrev main_v68 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_stg11_1 : Ref sig .tc := ⟨.vmem, 36, rfl⟩
abbrev cc2_stg0_0 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_stg8_0 : Ref sig .tc := ⟨.vmem, 52, rfl⟩
abbrev cc2_stg8_1 : Ref sig .tc := ⟨.vmem, 53, rfl⟩
abbrev cc2_stg9_0 : Ref sig .tc := ⟨.vmem, 54, rfl⟩
abbrev cc2_stg9_1 : Ref sig .tc := ⟨.vmem, 55, rfl⟩
abbrev cc3_stg0_0 : Ref sig .tc := ⟨.vmem, 56, rfl⟩
abbrev cc3_stg0_1 : Ref sig .tc := ⟨.vmem, 57, rfl⟩
abbrev cc3_stg1_0 : Ref sig .tc := ⟨.vmem, 58, rfl⟩
abbrev cc3_stg1_1 : Ref sig .tc := ⟨.vmem, 59, rfl⟩
abbrev cc3_stg2_0 : Ref sig .tc := ⟨.vmem, 60, rfl⟩
abbrev cc3_stg3_0 : Ref sig .tc := ⟨.vmem, 61, rfl⟩
abbrev cc3_stg3_1 : Ref sig .tc := ⟨.vmem, 62, rfl⟩
abbrev cc3_stg4_0 : Ref sig .tc := ⟨.vmem, 63, rfl⟩
abbrev cc3_stg4_1 : Ref sig .tc := ⟨.vmem, 64, rfl⟩
abbrev cc3_stg5_0 : Ref sig .tc := ⟨.vmem, 65, rfl⟩
abbrev cc3_stg6_0 : Ref sig .tc := ⟨.vmem, 66, rfl⟩
abbrev cc3_stg7_0 : Ref sig .tc := ⟨.vmem, 67, rfl⟩
abbrev cc3_stg8_0 : Ref sig .tc := ⟨.vmem, 68, rfl⟩
abbrev cc3_stg9_0 : Ref sig .tc := ⟨.vmem, 69, rfl⟩
abbrev cc3_stg10_0 : Ref sig .tc := ⟨.vmem, 70, rfl⟩
abbrev cc3_stg10_1 : Ref sig .tc := ⟨.vmem, 71, rfl⟩
abbrev cc3_stg11_0 : Ref sig .tc := ⟨.vmem, 72, rfl⟩
abbrev cc3_stg11_1 : Ref sig .tc := ⟨.vmem, 73, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem10_1 : DmaSem sig := 34
abbrev cc1_sem11_0 : DmaSem sig := 35
abbrev cc1_sem11_1 : DmaSem sig := 36
abbrev cc2_sem0_0 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc2_sem8_0 : DmaSem sig := 52
abbrev cc2_sem8_1 : DmaSem sig := 53
abbrev cc2_sem9_0 : DmaSem sig := 54
abbrev cc2_sem9_1 : DmaSem sig := 55
abbrev cc3_sem0_0 : DmaSem sig := 56
abbrev cc3_sem0_1 : DmaSem sig := 57
abbrev cc3_sem1_0 : DmaSem sig := 58
abbrev cc3_sem1_1 : DmaSem sig := 59
abbrev cc3_sem2_0 : DmaSem sig := 60
abbrev cc3_sem3_0 : DmaSem sig := 61
abbrev cc3_sem3_1 : DmaSem sig := 62
abbrev cc3_sem4_0 : DmaSem sig := 63
abbrev cc3_sem4_1 : DmaSem sig := 64
abbrev cc3_sem5_0 : DmaSem sig := 65
abbrev cc3_sem6_0 : DmaSem sig := 66
abbrev cc3_sem7_0 : DmaSem sig := 67
abbrev cc3_sem8_0 : DmaSem sig := 68
abbrev cc3_sem9_0 : DmaSem sig := 69
abbrev cc3_sem10_0 : DmaSem sig := 70
abbrev cc3_sem10_1 : DmaSem sig := 71
abbrev cc3_sem11_0 : DmaSem sig := 72
abbrev cc3_sem11_1 : DmaSem sig := 73

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x4096 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x4096 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x4096 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S256x4096 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S256x1 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  shapeCasts_S4096x1_S1x4096 : S4096x1.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S256x4096_S256x4096_0_0 : ∀ a, (![0, 0] : Fin 2 → Nat) a + S256x4096.size a ≤ S256x4096.size a
  h_S256x4096 : 0 < S256x4096.numel
  broadcasts_S1x4096_S256x4096 : S1x4096.Broadcasts S256x4096
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S1x4096_S1_d1 : S1x4096.ReducesTo [1] S1
  h_S_ : 0 < S_.numel
  bcast_S1_S1x1_0 : S1.BroadcastsInDim S1x1 (![0] : Fin 1 → Fin S1x1.rank)
  shapeCasts_S1_S1x1 : S1.ShapeCasts S1x1
  bcast_S_S1x1 : S_.BroadcastsInDim S1x1 (![] : Fin 0 → Fin S1x1.rank)
  shapeCasts_S1x1_S_ : S1x1.ShapeCasts S_
  bcast_S_S4096x1 : S_.BroadcastsInDim S4096x1 (![] : Fin 0 → Fin S4096x1.rank)
  reducesTo_S4096x1_S_d0_1 : S4096x1.ReducesTo [0, 1] S_
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S256x1_S256x1 : S256x1.ShapeCasts S256x1
  broadcasts_S256x1_S256x4096 : S256x1.Broadcasts S256x4096
  shapeCasts_S256x4096_S256x4096 : S256x4096.ShapeCasts S256x4096
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .f32 = 32 ∨ (Rect.block (s := S4096x4096) S256x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S4096x1.size a
  hwx0_7 : ∀ i : grid0.Coords, EltTy.bits .f32 = 32 ∨ (Rect.block (s := S4096x1) S256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S4096x1.size a
  hwx0_8 : ∀ i : grid0.Coords, EltTy.bits .f32 = 32 ∨ (Rect.block (s := S4096x1) S256x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S4096x1.size a
  hwx0_9 : ∀ i : grid0.Coords, EltTy.bits .f32 = 32 ∨ (Rect.block (s := S4096x1) S256x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S4096x1.size a
  hwx1_1 : ∀ i : grid1.Coords, EltTy.bits .f32 = 32 ∨ (Rect.block (s := S4096x1) S256x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S4096x4096.size a
  hwx1_3 : ∀ i : grid1.Coords, EltTy.bits .f32 = 32 ∨ (Rect.block (s := S4096x4096) S256x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S4096x1.size a
  hwx1_4 : ∀ i : grid1.Coords, EltTy.bits .f32 = 32 ∨ (Rect.block (s := S4096x1) S256x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x4096.size a ≤ S1x4096.size a
  hwx1_6 : ∀ i : grid1.Coords, EltTy.bits .f32 = 32 ∨ (Rect.block (s := S1x4096) S1x4096.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S256x4096.size a ≤ S4096x4096.size a
  hwx1_10 : ∀ i : grid1.Coords, EltTy.bits .f32 = 32 ∨ (Rect.block (s := S4096x4096) S256x4096.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S256x1.size a ≤ S4096x1.size a
  hwx1_11 : ∀ i : grid1.Coords, EltTy.bits .f32 = 32 ∨ (Rect.block (s := S4096x1) S256x1.size (cc1_transform_11 i) (hinb1_11 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x4096.size a
  hwx2_0 : ∀ i : grid2.Coords, EltTy.bits .f32 = 32 ∨ (Rect.block (s := S1x4096) S1x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S4096x4096.size a
  hwx2_1 : ∀ i : grid2.Coords, EltTy.bits .f32 = 32 ∨ (Rect.block (s := S4096x4096) S256x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S4096x1.size a
  hwx2_2 : ∀ i : grid2.Coords, EltTy.bits .f32 = 32 ∨ (Rect.block (s := S4096x1) S256x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S4096x4096.size a
  hwx2_3 : ∀ i : grid2.Coords, EltTy.bits .f32 = 32 ∨ (Rect.block (s := S4096x4096) S256x4096.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S4096x1.size a
  hwx2_4 : ∀ i : grid2.Coords, EltTy.bits .f32 = 32 ∨ (Rect.block (s := S4096x1) S256x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x4096.size a ≤ S4096x4096.size a
  hwx2_5 : ∀ i : grid2.Coords, EltTy.bits .f32 = 32 ∨ (Rect.block (s := S4096x4096) S256x4096.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x1.size a ≤ S4096x1.size a
  hwx2_6 : ∀ i : grid2.Coords, EltTy.bits .f32 = 32 ∨ (Rect.block (s := S4096x1) S256x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x1.size a ≤ S4096x1.size a
  hwx2_7 : ∀ i : grid2.Coords, EltTy.bits .f32 = 32 ∨ (Rect.block (s := S4096x1) S256x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x1.size a ≤ S4096x1.size a
  hwx2_8 : ∀ i : grid2.Coords, EltTy.bits .f32 = 32 ∨ (Rect.block (s := S4096x1) S256x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S256x1.size a ≤ S4096x1.size a
  hwx2_9 : ∀ i : grid2.Coords, EltTy.bits .f32 = 32 ∨ (Rect.block (s := S4096x1) S256x1.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S4096x4096.size a
  hwx3_0 : ∀ i : grid3.Coords, EltTy.bits .f32 = 32 ∨ (Rect.block (s := S4096x4096) S256x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x1.size a ≤ S4096x1.size a
  hwx3_1 : ∀ i : grid3.Coords, EltTy.bits .f32 = 32 ∨ (Rect.block (s := S4096x1) S256x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4096.size a ≤ S1x4096.size a
  hwx3_2 : ∀ i : grid3.Coords, EltTy.bits .f32 = 32 ∨ (Rect.block (s := S1x4096) S1x4096.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x4096.size a ≤ S4096x4096.size a
  hwx3_3 : ∀ i : grid3.Coords, EltTy.bits .f32 = 32 ∨ (Rect.block (s := S4096x4096) S256x4096.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x1.size a ≤ S4096x1.size a
  hwx3_4 : ∀ i : grid3.Coords, EltTy.bits .f32 = 32 ∨ (Rect.block (s := S4096x1) S256x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x4096.size a ≤ S1x4096.size a
  hwx3_5 : ∀ i : grid3.Coords, EltTy.bits .f32 = 32 ∨ (Rect.block (s := S1x4096) S1x4096.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x4096.size a ≤ S1x4096.size a
  hwx3_6 : ∀ i : grid3.Coords, EltTy.bits .f32 = 32 ∨ (Rect.block (s := S1x4096) S1x4096.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1.size a ≤ S1x1.size a
  hwx3_7 : ∀ i : grid3.Coords, EltTy.bits .f32 = 32 ∨ (Rect.block (s := S1x1) S1x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x1.size a ≤ S1x1.size a
  hwx3_8 : ∀ i : grid3.Coords, EltTy.bits .f32 = 32 ∨ (Rect.block (s := S1x1) S1x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1.size a ≤ S1x1.size a
  hwx3_9 : ∀ i : grid3.Coords, EltTy.bits .f32 = 32 ∨ (Rect.block (s := S1x1) S1x1.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S256x4096.size a ≤ S4096x4096.size a
  hwx3_10 : ∀ i : grid3.Coords, EltTy.bits .f32 = 32 ∨ (Rect.block (s := S4096x4096) S256x4096.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S256x1.size a ≤ S4096x1.size a
  hwx3_11 : ∀ i : grid3.Coords, EltTy.bits .f32 = 32 ∨ (Rect.block (s := S4096x1) S256x1.size (cc3_transform_11 i) (hinb3_11 i)).WholeWords (EltTy.packing .f32)

variable [Facts₀]

abbrev win0_0 : Pipeline.Window sig grid0 :=
  Pipeline.Window.ofSpec (Memref.whole main_v0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_0) S256x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_1) S256x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_2) S256x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_2) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v33_0) S256x4096.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v33_1) S256x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v34) S1x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg15) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S256x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S256x4096.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S256x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg19) S256x4096.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg20) S256x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v35_0) S256x1.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v35_1) S256x1.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v35_2) S256x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v33_0) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35_2) S256x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x4096.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg25) S256x4096.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg26) S256x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v34) S1x4096.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S1x4096.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v41) S1x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v52) S1x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v64) S1x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v67_0) S256x4096.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v67_1) S256x1.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S4096x1 : Shape := ⟨2, ![4096, 1]⟩
abbrev S4096x4096 : Shape := ⟨2, ![4096, 4096]⟩
abbrev S1x4096 : Shape := ⟨2, ![1, 4096]⟩
abbrev S1 : Shape := ⟨1, ![1]⟩
abbrev S_ : Shape := ⟨0, ![]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S4096x1, .f32⟩
  | 1 => ⟨S4096x4096, .f32⟩
  | 2 => ⟨S4096x1, .f32⟩
  | 3 => ⟨S4096x4096, .f32⟩
  | 4 => ⟨S4096x1, .f32⟩
  | 5 => ⟨S4096x4096, .f32⟩
  | 6 => ⟨S4096x1, .f32⟩
  | 7 => ⟨S4096x4096, .f32⟩
  | 8 => ⟨S4096x1, .f32⟩
  | 9 => ⟨S1x4096, .f32⟩
  | 10 => ⟨S1, .f32⟩
  | 11 => ⟨S1x4096, .f32⟩
  | 12 => ⟨S1, .f32⟩
  | 13 => ⟨S4096x4096, .f32⟩
  | 14 => ⟨S4096x1, .f32⟩
  | 15 => ⟨S4096x4096, .f32⟩
  | 16 => ⟨S4096x1, .f32⟩
  | 17 => ⟨S4096x4096, .f32⟩
  | 18 => ⟨S4096x1, .f32⟩
  | 19 => ⟨S4096x4096, .f32⟩
  | 20 => ⟨S4096x1, .f32⟩
  | 21 => ⟨S1x4096, .f32⟩
  | 22 => ⟨S1, .f32⟩
  | 23 => ⟨S1x4096, .f32⟩
  | 24 => ⟨S1, .f32⟩
  | 25 => ⟨S4096x4096, .f32⟩
  | 26 => ⟨S4096x1, .f32⟩
  | 27 => ⟨S4096x1, .f32⟩
  | 28 => ⟨S4096x1, .f32⟩
  | 29 => ⟨S4096x1, .f32⟩
  | 30 => ⟨S4096x1, .f32⟩
  | 31 => ⟨S_, .f32⟩
  | 32 => ⟨S4096x1, .f32⟩
  | 33 => ⟨S4096x1, .f32⟩
  | 34 => ⟨S4096x1, .f32⟩
  | 35 => ⟨S4096x1, .f32⟩
  | 36 => ⟨S1x1, .f32⟩
  | 37 => ⟨S1x1, .f32⟩
  | 38 => ⟨S1x1, .f32⟩
  | 39 => ⟨S1x1, .f32⟩
  | 40 => ⟨S1x1, .f32⟩
  | 41 => ⟨S1x1, .f32⟩
  | 42 => ⟨S1x1, .f32⟩
  | 43 => ⟨S1x1, .f32⟩
  | 44 => ⟨S1x1, .f32⟩
  | 45 => ⟨S_, .f32⟩
  | 46 => ⟨S1x1, .f32⟩
  | 47 => ⟨S1x1, .f32⟩
  | 48 => ⟨S_, .f32⟩
  | 49 => ⟨S1x1, .f32⟩
  | 50 => ⟨S1x1, .f32⟩
  | 51 => ⟨S4096x4096, .f32⟩
  | 52 => ⟨S4096x4096, .f32⟩
  | 53 => ⟨S1x4096, .f32⟩
  | 54 => ⟨S4096x4096, .f32⟩
  | 55 => ⟨S4096x4096, .f32⟩
  | 56 => ⟨S4096x4096, .f32⟩
  | 57 => ⟨S4096x4096, .f32⟩
  | 58 => ⟨S4096x1, .f32⟩
  | 59 => ⟨S4096x1, .f32⟩
  | 60 => ⟨S4096x1, .f32⟩
  | 61 => ⟨S4096x1, .f32⟩
  | 62 => ⟨S4096x1, .f32⟩
  | 63 => ⟨S1x4096, .f32⟩
  | 64 => ⟨S1x1, .f32⟩
  | 65 => ⟨S1x1, .f32⟩
  | 66 => ⟨S_, .f32⟩
  | 67 => ⟨S1x1, .f32⟩
  | 68 => ⟨S1x1, .f32⟩
  | 69 => ⟨S4096x1, .f32⟩
  | 70 => ⟨S4096x1, .f32⟩
  | 71 => ⟨S4096x1, .f32⟩
  | 72 => ⟨S4096x1, .f32⟩
  | 73 => ⟨S4096x1, .f32⟩
  | 74 => ⟨S4096x1, .f32⟩
  | 75 => ⟨S4096x1, .f32⟩
  | 76 => ⟨S_, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x1, .f32⟩
  | 83 => ⟨S4096x1, .f32⟩
  | 84 => ⟨S4096x1, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x1, .f32⟩
  | 91 => ⟨S4096x1, .f32⟩
  | 92 => ⟨S1x1, .f32⟩
  | 93 => ⟨S1x1, .f32⟩
  | 94 => ⟨S1x1, .f32⟩
  | 95 => ⟨S1x1, .f32⟩
  | 96 => ⟨S1x1, .f32⟩
  | 97 => ⟨S1x1, .f32⟩
  | 98 => ⟨S1x1, .f32⟩
  | 99 => ⟨S1x1, .f32⟩
  | 100 => ⟨S1x1, .f32⟩
  | 101 => ⟨S_, .f32⟩
  | 102 => ⟨S1x1, .f32⟩
  | 103 => ⟨S1x1, .f32⟩
  | 104 => ⟨S_, .f32⟩
  | 105 => ⟨S1x1, .f32⟩
  | 106 => ⟨S1x1, .f32⟩
  | 107 => ⟨S4096x4096, .f32⟩
  | 108 => ⟨S4096x4096, .f32⟩
  | 109 => ⟨S1x4096, .f32⟩
  | 110 => ⟨S4096x4096, .f32⟩
  | 111 => ⟨S4096x4096, .f32⟩
  | 112 => ⟨S4096x4096, .f32⟩
  | 113 => ⟨S4096x4096, .f32⟩
  | 114 => ⟨S4096x1, .f32⟩
  | 115 => ⟨S4096x1, .f32⟩
  | 116 => ⟨S4096x1, .f32⟩
  | 117 => ⟨S4096x1, .f32⟩
  | 118 => ⟨S4096x1, .f32⟩
  | 119 => ⟨S1x4096, .f32⟩
  | 120 => ⟨S1x1, .f32⟩
  | 121 => ⟨S1x1, .f32⟩
  | 122 => ⟨S_, .f32⟩
  | 123 => ⟨S1x1, .f32⟩
  | 124 => ⟨S1x1, .f32⟩
  | 125 => ⟨S4096x1, .f32⟩
  | 126 => ⟨S4096x1, .f32⟩
  | 127 => ⟨S4096x1, .f32⟩
  | _ => ⟨S4096x1, .f32⟩

abbrev hbmTy0_1 (i : Nat) : BufTy := match i % 128 with
  | 0 => ⟨S4096x1, .f32⟩
  | 1 => ⟨S4096x1, .f32⟩
  | 2 => ⟨S4096x1, .f32⟩
  | 3 => ⟨S4096x1, .f32⟩
  | 4 => ⟨S_, .f32⟩
  | 5 => ⟨S4096x1, .f32⟩
  | 6 => ⟨S4096x1, .f32⟩
  | 7 => ⟨S_, .f32⟩
  | 8 => ⟨S4096x1, .f32⟩
  | 9 => ⟨S4096x1, .f32⟩
  | 10 => ⟨S4096x1, .f32⟩
  | 11 => ⟨S1x4096, .f32⟩
  | _ => ⟨S4096x1, .f32⟩

abbrev hbmTy (i : Nat) : BufTy := match i / 128 with
  | 0 => hbmTy0_0 i
  | 1 => hbmTy0_1 i
  | _ => ⟨S4096x1, .f32⟩

abbrev bufTy : (tb : Table) → Fin (tcTables nBuf tb) → BufTy
  | .hbm, ⟨i, _⟩ => hbmTy i
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_0 : Ref sig .tc := ⟨.hbm, 45, rfl⟩
abbrev main_v17 : Ref sig .tc := ⟨.hbm, 46, rfl⟩
abbrev main_v18 : Ref sig .tc := ⟨.hbm, 47, rfl⟩
abbrev main_cst_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_2 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_3 : Ref sig .tc := ⟨.hbm, 76, rfl⟩
abbrev main_v45 : Ref sig .tc := ⟨.hbm, 77, rfl⟩
abbrev main_v46 : Ref sig .tc := ⟨.hbm, 78, rfl⟩
abbrev main_cst_4 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_5 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_6 : Ref sig .tc := ⟨.hbm, 101, rfl⟩
abbrev main_v67 : Ref sig .tc := ⟨.hbm, 102, rfl⟩
abbrev main_v68 : Ref sig .tc := ⟨.hbm, 103, rfl⟩
abbrev main_cst_7 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_8 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_9 : Ref sig .tc := ⟨.hbm, 132, rfl⟩
abbrev main_v95 : Ref sig .tc := ⟨.hbm, 133, rfl⟩
abbrev main_v96 : Ref sig .tc := ⟨.hbm, 134, rfl⟩
abbrev main_cst_10 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  bcast_S_S4096x1 : S_.BroadcastsInDim S4096x1 (![] : Fin 0 → Fin S4096x1.rank)
  bcast_S1_S1x1_1 : S1.BroadcastsInDim S1x1 (![1] : Fin 1 → Fin S1x1.rank)
  bcast_S_S1x1 : S_.BroadcastsInDim S1x1 (![] : Fin 0 → Fin S1x1.rank)
  bcast_S1x1_S4096x4096_0_1 : S1x1.BroadcastsInDim S4096x4096 (![0, 1] : Fin 2 → Fin S4096x4096.rank)
  transposes_S4096x1_S1x4096_1_0 : S4096x1.Transposes [1, 0] S1x4096
  bcast_S1x1_S4096x1_0_1 : S1x1.BroadcastsInDim S4096x1 (![0, 1] : Fin 2 → Fin S4096x1.rank)
  shapeCasts_S4096x1_S1x4096 : S4096x1.ShapeCasts S1x4096
  dot_S4096x4096_S4096x1_S4096x1_1_0_0_1_n_n_wf : DotDims.WF S4096x4096 S4096x1 S4096x1 [1] [0] [0] [1] [] []
  dot_S1x4096_S4096x1_S1x1_1_0_0_1_n_n_wf : DotDims.WF S1x4096 S4096x1 S1x1 [1] [0] [0] [1] [] []
  dot_S4096x1_S1x4096_S4096x4096_1_0_0_1_n_n_wf : DotDims.WF S4096x1 S1x4096 S4096x4096 [1] [0] [0] [1] [] []

variable [Facts₀]

def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf
def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf

class Facts : Prop extends Facts₀ where

variable [Facts]
-- ==== Proof.KRun.lean ====
/-
  The idealized kernel's run with its three results named.

  The program is nine segments: five stretches of host operations and, between them, four pipelined regions.  Its
  launch theorem leaves every buffer of the TensorCore at the contents the last boundary valuation `W9` gives it;
  the frame reads the 27 argument arrays off that valuation, and here the three result buffers are read off it as
  well.  What `W9` holds at those three buffers is worked out elsewhere.
-/
import proofs.«164411_j62654982914536_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the three result buffers end at what the
    last boundary valuation holds there, and the argument arrays end as launched. -/
theorem run_values : θ_run defs (onTc (τ := τ) (main (F := F))) ⟨m, fun _ => 0, ρ⟩ (fun r => ∀ c : Dev nD,
      r.2.mem ((c.tc : Thread nD τ).loc main_v68) = W9 m ρ c (Proc.devRef .tc main_v68)
      ∧ r.2.mem ((c.tc : Thread nD τ).loc main_v67_0) = W9 m ρ c (Proc.devRef .tc main_v67_0)
      ∧ r.2.mem ((c.tc : Thread nD τ).loc main_v59) = W9 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v68 (by decide)),
       h c _ (mem_uc main_v67_0 (by decide)),
       h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c),
       (h c _ (mem_uc main_arg22 (by decide))).trans (W9_main_arg22 m ρ c),
       (h c _ (mem_uc main_arg23 (by decide))).trans (W9_main_arg23 m ρ c),
       (h c _ (mem_uc main_arg24 (by decide))).trans (W9_main_arg24 m ρ c),
       (h c _ (mem_uc main_arg25 (by decide))).trans (W9_main_arg25 m ρ c),
       (h c _ (mem_uc main_arg26 (by decide))).trans (W9_main_arg26 m ρ c)⟩)

end Cert.KernelIdeal.KRun

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowsDot.lean ====
/-
  Rows of a block against a row vector, on the vector unit.

  A matrix–vector product written without the matrix unit: a row vector `[1, c]` is broadcast along the `n` rows
  of a block `[n, c]`, multiplied into it entry by entry, each row is summed along its lanes from the zero word,
  and the `n` sums are laid out as a column `[n, 1]`.  On the extended reals entry `(q, 0)` of the result is the
  dot product `∑ k, W (q, k) · x (0, k)` of row `q` of the block with the vector — no finiteness is needed.
  General in the extents `n` and `c`.
-/
import Idealize.ShloMosaic.PureOps.Ideal.Laws
import Idealize.ShloMosaic.Lib.ValueIdx
import Idealize.ShloMosaic.Lib.ValueLayout
import Idealize.ShloMosaic.Lib.Pipeline.Value
import proofs.«164411_j62654982914536_2_alg».proof.Proof.LibRowBlocks

noncomputable section

open scoped BigOperators

namespace Cert.RowsDot

open Idealize.ShloMosaic Idealize.ShloMosaic.ValueIdx

/-- A row `[1, c]` broadcast to `[n, c]` reads, at `(q, d)`, the row at `d`. -/
theorem broadcastTo_row_apply {α : Type} {n c : ℕ} (x : (⟨2, ![1, c]⟩ : Shape).Idx → α)
    (h : (⟨2, ![1, c]⟩ : Shape).Broadcasts ⟨2, ![n, c]⟩) (q : Fin n) (d : Fin c) :
    broadcastTo ⟨2, ![n, c]⟩ x h (ix2 q d) = x (ix2 (0 : Fin 1) d) := by
  refine broadcastTo_apply x h (ix2 q d) (ix2 (0 : Fin 1) d) fun ax => ?_
  match ax with
  | ⟨0, _⟩ => rfl
  | ⟨1, _⟩ =>
    show d.val = if c = 1 then 0 else d.val
    split
    · have := d.isLt; omega
    · rfl

/-- The rows of a block dotted with a row vector, as a column: the vector broadcast along the rows, the entrywise
    product, each row's sum from the zero word, the sums cast to a column — entry `(q, u)` is
    `∑ k, W (q, k) · x (0, k)`. -/
theorem rowsDot_apply {n c : ℕ} (W : FVec Ideal ⟨2, ![n, c]⟩ .f32) (x : FVec Ideal ⟨2, ![1, c]⟩ .f32)
    (hb : (⟨2, ![1, c]⟩ : Shape).Broadcasts ⟨2, ![n, c]⟩)
    (hr : (⟨2, ![n, c]⟩ : Shape).Reduces [1] ⟨1, ![n]⟩) (hφ : FKind.Formats .f32)
    (hacc : (0x00000000#32 : BitVec 32) = 0x00000000#32)
    (hc : (⟨1, ![n]⟩ : Shape).ShapeCasts ⟨2, ![n, 1]⟩) (q : Fin n) (u : Fin 1) :
    shapeCast ⟨2, ![n, 1]⟩
        (multiReduction .add [1] ⟨1, ![n]⟩ (mulf W (broadcastTo ⟨2, ![n, c]⟩ x hb)) 0x00000000#32 hr hφ hacc) hc (ix2 q u)
      = ∑ k : Fin c, W (ix2 q k) * x (ix2 (0 : Fin 1) k) := by
  refine (Cert.RowBlocks.shapeCast_col_apply _ hc q u).trans ?_
  refine (Cert.RowBlocks.rowSum_apply _ hr hφ hacc q).trans ?_
  refine Finset.sum_congr rfl fun k _ => ?_
  show W (ix2 q k) * broadcastTo ⟨2, ![n, c]⟩ x hb (ix2 q k) = _
  rw [broadcastTo_row_apply]

end Cert.RowsDot

end
-- ==== Proof.Spec.lean ====
/-
  One step of a matrix-memory recurrent cell, and two steps chained, on the extended reals.

  The cell has a matrix state `c`, a vector state `n` and an input vector `x`.  With weight matrices
  `wq wk wv wo`, bias columns `bq bk bv bo`, gate rows `wi wf` and gate biases `bi bf`:

      q = wq·x + bq,   k = (wk·x + bk)·2⁻⁶,   v = wv·x + bv,
      i = exp (wi·x + bi),   f = σ (wf·x + bf),          σ z = 1 / (1 + exp (-z)),
      c' = f·c + i·(v kᵀ),   n' = f·n + i·k,
      h  = σ (wo·x + bo) ⊙ (c'·q) / max |n'·q| 1.

  Every sum is a finite sum over the 4096 coordinates; nothing here needs the entries to be finite.
  Vectors are stored as columns `[4096, 1]`, gate rows as `[1, 4096]`, gate biases as `[1]`.
-/
import Idealize.ShloMosaic.PureOps.Ideal
import Idealize.ShloMosaic.Lib.ValueIdx

noncomputable section

open scoped BigOperators

namespace Cert.MLstm

open Idealize.ShloMosaic Idealize.ShloMosaic.ValueIdx

abbrev SCol : Shape := ⟨2, ![4096, 1]⟩
abbrev SRow : Shape := ⟨2, ![1, 4096]⟩
abbrev SMat : Shape := ⟨2, ![4096, 4096]⟩
abbrev SOne : Shape := ⟨1, ![1]⟩

/-- The parameters of one cell, as the arrays a program is given. -/
structure Params where
  wq : SMat.Idx → EReal
  bq : SCol.Idx → EReal
  wk : SMat.Idx → EReal
  bk : SCol.Idx → EReal
  wv : SMat.Idx → EReal
  bv : SCol.Idx → EReal
  wi : SRow.Idx → EReal
  bi : SOne.Idx → EReal
  wf : SRow.Idx → EReal
  bf : SOne.Idx → EReal
  wo : SMat.Idx → EReal
  bo : SCol.Idx → EReal

/-- The key's scale, 2⁻⁶ = 1/√4096, as the binary word both programs carry. -/
def scale : EReal := Ideal.ofBits .f32 0x3C800000#32

/-- Row `r` of a matrix against a column vector. -/
def rowDot (W : SMat.Idx → EReal) (x : SCol.Idx → EReal) (r : Fin 4096) : EReal :=
  ∑ j : Fin 4096, W (ix2 r j) * x (ix2 j (0 : Fin 1))

/-- A gate row against a column vector. -/
def vecDot (w : SRow.Idx → EReal) (x : SCol.Idx → EReal) : EReal :=
  ∑ j : Fin 4096, w (ix2 (0 : Fin 1) j) * x (ix2 j (0 : Fin 1))

variable (p : Params) (x : SCol.Idx → EReal) (c : SMat.Idx → EReal) (n : SCol.Idx → EReal)

def q (r : Fin 4096) : EReal := rowDot p.wq x r + p.bq (ix2 r (0 : Fin 1))
def k (r : Fin 4096) : EReal := (rowDot p.wk x r + p.bk (ix2 r (0 : Fin 1))) * scale
def v (r : Fin 4096) : EReal := rowDot p.wv x r + p.bv (ix2 r (0 : Fin 1))
/-- The input gate, one number for the whole step. -/
def ig : EReal := Ideal.exp (vecDot p.wi x + p.bi (ix1 (0 : Fin 1)))
/-- The forget gate, one number for the whole step. -/
def fg : EReal := Ideal.logistic (vecDot p.wf x + p.bf (ix1 (0 : Fin 1)))
/-- The next vector state. -/
def nNext (r : Fin 4096) : EReal := fg p x * n (ix2 r (0 : Fin 1)) + ig p x * k p x r
/-- The stabiliser: the larger of |n'·q| and 1. -/
def den : EReal := max (FloatOps.absf (F := Ideal) (φ := .f32) (∑ r : Fin 4096, nNext p x n r * q p x r)) 1
/-- The next matrix state: the old one scaled, plus the scaled outer product of value and key. -/
def cNext (r j : Fin 4096) : EReal := fg p x * c (ix2 r j) + ig p x * (v p x r * k p x j)
/-- The output: the gated read-out of the new matrix state against the query, stabilised. -/
def h (r : Fin 4096) : EReal :=
  Ideal.logistic (rowDot p.wo x r + p.bo (ix2 r (0 : Fin 1))) * Ideal.div (∑ j : Fin 4096, cNext p x c r j * q p x j) (den p x n)

/-- The three results of one step as arrays. -/
def hCol : SCol.Idx → EReal := fun i => h p x c n (i 0)
def cMat : SMat.Idx → EReal := fun i => cNext p x c (i 0) (i 1)
def nCol : SCol.Idx → EReal := fun i => nNext p x n (i 0)

/-- The output of a step laid out as a row. -/
def hRow : SRow.Idx → EReal := fun i => h p x c n (i 1)

end Cert.MLstm

end
-- ==== Proof.Arrays.lean ====
/-
  The arrays the pipelined kernel passes from one stage to the next, each as ONE function of the arrays before it.

  The kernel keeps a vector in two layouts, a column `[4096, 1]` and a row `[1, 4096]`; `rowOf` is the column read as a
  row.  `rowsArr` is a matrix against the input row plus a bias column (query and value), `rowsScaledArr` the same
  scaled by the word 2⁻⁶ (key).  `ctArr` is the next matrix state `f·c + i·(v kᵀ)` and `hArr` the output
  `σ (w_o·x + b_o) · ((c'·q) / d)`, with the two gates and the stabiliser `d` held in `[1, 1]` arrays.
-/
import Idealize.ShloMosaic.PureOps.Ideal
import Idealize.ShloMosaic.Lib.ValueIdx
import proofs.«164411_j62654982914536_2_alg».proof.Proof.Spec

noncomputable section

open scoped BigOperators

namespace Cert.MLstm.Arr

open Idealize.ShloMosaic Idealize.ShloMosaic.ValueIdx Cert.MLstm

abbrev SOneOne : Shape := ⟨2, ![1, 1]⟩

/-- A column read as a row: entry `(0, j)` of the row is entry `(j, 0)` of the column. -/
def rowOf (x : SCol.Idx → EReal) : SRow.Idx → EReal :=
  fun i => x (ix2 (⟨(i 1).val, (i 1).isLt⟩ : Fin 4096) (0 : Fin 1))

/-- Row `r` of a matrix against the input row, plus the bias at row `r`. -/
def rowAt (xr : SRow.Idx → EReal) (W : SMat.Idx → EReal) (b : SCol.Idx → EReal) (r : Fin 4096) : EReal :=
  (∑ j : Fin 4096, W (ix2 r j) * xr (ix2 (0 : Fin 1) j)) + b (ix2 r (0 : Fin 1))

/-- Every row of the matrix against the input row, plus the bias column. -/
def rowsArr (xr : SRow.Idx → EReal) (W : SMat.Idx → EReal) (b : SCol.Idx → EReal) : SCol.Idx → EReal :=
  fun i => rowAt xr W b (⟨(i 0).val, (i 0).isLt⟩ : Fin 4096)

/-- The same, scaled by the binary word 2⁻⁶. -/
def rowsScaledArr (xr : SRow.Idx → EReal) (W : SMat.Idx → EReal) (b : SCol.Idx → EReal) : SCol.Idx → EReal :=
  fun i => rowAt xr W b (⟨(i 0).val, (i 0).isLt⟩ : Fin 4096) * Ideal.ofBits .f32 0x3C800000#32

/-- The next matrix state: the old one scaled by the forget gate, plus the outer product of the value column and
    the key row scaled by the input gate. -/
def ctArr (C : SMat.Idx → EReal) (v : SCol.Idx → EReal) (kr : SRow.Idx → EReal) (ig fg : SOneOne.Idx → EReal) :
    SMat.Idx → EReal :=
  fun i => fg (ix2 (0 : Fin 1) (0 : Fin 1)) * C i
    + ig (ix2 (0 : Fin 1) (0 : Fin 1))
      * (v (ix2 (⟨(i 0).val, (i 0).isLt⟩ : Fin 4096) (0 : Fin 1)) * kr (ix2 (0 : Fin 1) (⟨(i 1).val, (i 1).isLt⟩ : Fin 4096)))

/-- The output column: the output gate times the new matrix state's row against the query row, over the stabiliser. -/
def hArr (C : SMat.Idx → EReal) (v : SCol.Idx → EReal) (kr : SRow.Idx → EReal) (wo : SMat.Idx → EReal)
    (bo : SCol.Idx → EReal) (xr qr : SRow.Idx → EReal) (ig fg dn : SOneOne.Idx → EReal) : SCol.Idx → EReal :=
  fun i => Ideal.logistic ((∑ j : Fin 4096, wo (ix2 (⟨(i 0).val, (i 0).isLt⟩ : Fin 4096) j) * xr (ix2 (0 : Fin 1) j))
        + bo (ix2 (⟨(i 0).val, (i 0).isLt⟩ : Fin 4096) (0 : Fin 1)))
    * Ideal.div (∑ j : Fin 4096, ctArr C v kr ig fg (ix2 (⟨(i 0).val, (i 0).isLt⟩ : Fin 4096) j) * qr (ix2 (0 : Fin 1) j))
        (dn (ix2 (0 : Fin 1) (0 : Fin 1)))

end Cert.MLstm.Arr

end
-- ==== Proof.Gemv0.lean ====
/-
  The first pallas call of a layer: the query, key and value vectors, one row tile at a time.

  The grid has 16 points; point `t` holds rows `256·t … 256·t + 255` of each weight matrix and of each bias
  column, and the whole input vector as a row.  The body dots every row of its weight tile with the input row,
  adds the bias tile (and, for the key, scales by 2⁻⁶), and writes the 256 results back as rows `256·t + p` of the
  output column.  The 16 tiles cover the 4096 rows, so each output array ends as ONE function of the arrays the
  region found: row `r` is `(∑ j, W (r, j) · x (0, j)) + b (r, 0)`.
-/
import proofs.«164411_j62654982914536_2_alg».proof.Proof.Gen.KernelIdeal.Frame
import proofs.«164411_j62654982914536_2_alg».proof.Proof.LibRowsDot
import proofs.«164411_j62654982914536_2_alg».proof.Proof.Arrays

set_option maxRecDepth 16384

noncomputable section

open scoped BigOperators

namespace Cert.KernelIdeal.Gemv0

open Cert.KernelIdeal Cert.KernelIdeal.Gen Idealize.ShloMosaic Idealize.ShloMosaic.TcCoe Idealize.SL.Sem
open Idealize.ShloMosaic.ValueIdx Cert.MLstm.Arr
open Idealize.ShloMosaic.Pipeline (Dat)

theorem hz : (![0, 0] : Fin 2 → Nat) = fun _ => 0 := funext fun a => by fin_cases a <;> rfl

/-! ## Output window 7 -/

/-- The body's value for window 7 at row `p` of the tile: the row of the weight tile against the input row, plus
    the bias. -/
theorem pay7_apply (v0 : Vec Ideal S1x4096 .f32) (vW : Vec Ideal S256x4096 .f32) (vb : Vec Ideal S256x1 .f32)
    (p : Fin 256) (u : Fin 1) :
    k0_pay2 (F := Ideal) v0 vW vb (ix2 p u)
      = ((∑ j : Fin 4096, vW (ix2 p j) * v0 (ix2 (0 : Fin 1) j)) + vb (ix2 p u)) := by
  unfold k0_pay2 k0_pay1
  refine congrArg (· + vb (ix2 p u)) ?_
  refine (Cert.RowsDot.rowsDot_apply vW (shapeCast S1x4096 v0 shapeCasts_S1x4096_S1x4096) _ _ _ _ _ p u).trans ?_
  rw [shapeCast_self]

/-- The printed index maps, decided over the 16 grid points: the input row never moves, the weight and bias tiles
    move with the output tile, which is tile `t` of the one column. -/
theorem idx_facts7 : ∀ t : Fin cfg0.N, win0_0.index t (0 : Fin 2) = 0 ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_7.index t (1 : Fin 2) = 0 ∧ win0_7.index t (0 : Fin 2) ≤ 15 :=
  (by decide +kernel : ∀ t : Fin grid0.N, _)

/-- Every one of the 16 tiles is some point's. -/
theorem idx_onto7 : ∀ q0 : Fin 16, ∃ t : Fin cfg0.N, win0_7.index t = ![q0.val, 0] :=
  (by decide +kernel : ∀ q0 : Fin 16, ∃ t : Fin grid0.N, win0_7.index t = ![q0.val, 0])

/-- What point `t` writes back is tile `t` of the one whole-array function. -/
theorem flushed7_eq (V : (c : Dev nD) → (b : Ref sig .tc) → Buf (Elt Ideal) ((c : Thread nD τ).loc b)) (c : Dev nD) (t : Fin cfg0.N) :
    (dat0 (F := Ideal) V c).flushed 7 t
      = ((cfg0.win 7).blk t).view.read (Elt Ideal)
          (rowsArr (V c (Pipeline.arrRef spec0 0)) (V c (Pipeline.arrRef spec0 1)) (V c (Pipeline.arrRef spec0 2))) := by
  show (cfg0.win 7).cut (grid0.coords t) ((dat0 V c).after 7 t) = _
  rw [after0_7]
  unfold out0_7
  rw [View.canon_unit_zero hz]
  simp only [View.ld_unit_zero (S := S1x4096) hz, View.ld_unit_zero (S := S256x4096) hz, View.ld_unit_zero (S := S256x1) hz]
  obtain ⟨e0, e1, e2, e3, e4, e5, e6, e7⟩ := idx_facts7 t
  funext j
  obtain ⟨p, u, rfl⟩ : ∃ (p : Fin 256) (u : Fin 1), j = ix2 p u := ⟨j 0, j 1, eq_ix2 j⟩
  have hp : p.val < 256 := p.isLt
  have hu : u.val = 0 := by have := u.isLt; omega
  show k0_pay2 (F := Ideal) (iblk0 V c 0 t) (iblk0 V c 1 t) (iblk0 V c 2 t) (ix2 p u)
      = rowsArr (V c (Pipeline.arrRef spec0 0)) (V c (Pipeline.arrRef spec0 1)) (V c (Pipeline.arrRef spec0 2))
          (((cfg0.win 7).blk t).view.emb (ix2 p u))
  refine (pay7_apply _ _ _ p u).trans ?_
  have hW : ∀ k : Fin 4096, ((cfg0.win 1).blk t).view.emb (ix2 p k)
      = ix2 (⟨((((cfg0.win 7).blk t).view.emb (ix2 p u)) 0).val, ((((cfg0.win 7).blk t).view.emb (ix2 p u)) 0).isLt⟩ : Fin 4096) k := by
    intro k
    funext a; apply Fin.ext
    match a with
    | ⟨0, _⟩ => show win0_1.index t (0 : Fin 2) * 256 + 1 * p.val = win0_7.index t (0 : Fin 2) * 256 + 1 * p.val; omega
    | ⟨1, _⟩ => show win0_1.index t (1 : Fin 2) * 4096 + 1 * k.val = k.val; omega
  have hX : ∀ k : Fin 4096, ((cfg0.win 0).blk t).view.emb (ix2 (0 : Fin 1) k) = ix2 (0 : Fin 1) k := by
    intro k
    funext a; apply Fin.ext
    match a with
    | ⟨0, _⟩ => show win0_0.index t (0 : Fin 2) * 1 + 1 * 0 = 0; omega
    | ⟨1, _⟩ => show win0_0.index t (1 : Fin 2) * 4096 + 1 * k.val = k.val; omega
  have hB : ((cfg0.win 2).blk t).view.emb (ix2 p u)
      = ix2 (⟨((((cfg0.win 7).blk t).view.emb (ix2 p u)) 0).val, ((((cfg0.win 7).blk t).view.emb (ix2 p u)) 0).isLt⟩ : Fin 4096) (0 : Fin 1) := by
    funext a; apply Fin.ext
    match a with
    | ⟨0, _⟩ => show win0_2.index t (0 : Fin 2) * 256 + 1 * p.val = win0_7.index t (0 : Fin 2) * 256 + 1 * p.val; omega
    | ⟨1, _⟩ => show win0_2.index t (1 : Fin 2) * 1 + 1 * u.val = 0; omega
  unfold rowsArr rowAt
  refine congrArg₂ (· + ·) (Finset.sum_congr rfl fun k _ => congrArg₂ (· * ·) ?_ ?_) ?_
  · exact congrArg (V c (Pipeline.arrRef spec0 1)) (hW k)
  · exact congrArg (V c (Pipeline.arrRef spec0 0)) (hX k)
  · exact congrArg (V c (Pipeline.arrRef spec0 2)) hB

/-- An index of the column is in point `t`'s tile iff each coordinate is in the tile's range. -/
theorem mem_blk7 (t : Fin cfg0.N) (i : S4096x1.Idx) :
    i ∈ ((cfg0.win 7).blk t).view.set ↔ ∀ a : Fin 2, win0_7.index t a * S256x1.size a ≤ (i a).val ∧ (i a).val < win0_7.index t a * S256x1.size a + S256x1.size a := by
  show i ∈ ((View.whole main_v1_0).slice (win0_7.rect t)).set ↔ _
  rw [View.set_slice_whole, Rect.mem_set_unit]
  exact Iff.rfl

/-- The 16 tiles cover the column: row `r` is in tile `r / 256`. -/
theorem cover7 (i : S4096x1.Idx) : ∃ t : Fin cfg0.N, (cfg0.win 7).flush t = true ∧ i ∈ ((cfg0.win 7).blk t).view.set := by
  have hi0 : (i 0).val < 4096 := (i 0).isLt
  have hi1 : (i 1).val < 1 := (i 1).isLt
  obtain ⟨t, ht⟩ := idx_onto7 ⟨(i 0).val / 256, by omega⟩
  have q0 : win0_7.index t (0 : Fin 2) = (i 0).val / 256 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1 ≤ (i 1).val ∧ (i 1).val < win0_7.index t (1 : Fin 2) * 1 + 1; omega

/-- The array after the region: one function of the arrays the region found. -/
theorem final7 (V : (c : Dev nD) → (b : Ref sig .tc) → Buf (Elt Ideal) ((c : Thread nD τ).loc b)) (c : Dev nD) :
    (dat0 (F := Ideal) V c).arrAt 7 cfg0.N
      = rowsArr (V c (Pipeline.arrRef spec0 0)) (V c (Pipeline.arrRef spec0 1)) (V c (Pipeline.arrRef spec0 2)) :=
  (dat0 (F := Ideal) V c).arrAt_eq_of_cover 7 _ (fun t _ => flushed7_eq V c t) cover7

/-! ## Output window 8 -/

/-- The body's value for window 8 at row `p` of the tile: the row of the weight tile against the input row, plus
    the bias, scaled. -/
theorem pay8_apply (v0 : Vec Ideal S1x4096 .f32) (vW : Vec Ideal S256x4096 .f32) (vb : Vec Ideal S256x1 .f32)
    (p : Fin 256) (u : Fin 1) :
    k0_pay3 (F := Ideal) v0 vW vb (ix2 p u)
      = ((∑ j : Fin 4096, vW (ix2 p j) * v0 (ix2 (0 : Fin 1) j)) + vb (ix2 p u)) * Ideal.ofBits .f32 0x3C800000#32 := by
  unfold k0_pay3 k0_pay1
  refine congrArg (· * Ideal.ofBits .f32 0x3C800000#32) ?_
  refine congrArg (· + vb (ix2 p u)) ?_
  refine (Cert.RowsDot.rowsDot_apply vW (shapeCast S1x4096 v0 shapeCasts_S1x4096_S1x4096) _ _ _ _ _ p u).trans ?_
  rw [shapeCast_self]

/-- The printed index maps, decided over the 16 grid points: the input row never moves, the weight and bias tiles
    move with the output tile, which is tile `t` of the one column. -/
theorem idx_facts8 : ∀ t : Fin cfg0.N, win0_0.index t (0 : Fin 2) = 0 ∧ win0_0.index t (1 : Fin 2) = 0
    ∧ win0_3.index t (0 : Fin 2) = win0_8.index t (0 : Fin 2) ∧ win0_3.index t (1 : Fin 2) = 0
    ∧ win0_4.index t (0 : Fin 2) = win0_8.index t (0 : Fin 2) ∧ win0_4.index t (1 : Fin 2) = 0
    ∧ win0_8.index t (1 : Fin 2) = 0 ∧ win0_8.index t (0 : Fin 2) ≤ 15 :=
  (by decide +kernel : ∀ t : Fin grid0.N, _)

/-- Every one of the 16 tiles is some point's. -/
theorem idx_onto8 : ∀ q0 : Fin 16, ∃ t : Fin cfg0.N, win0_8.index t = ![q0.val, 0] :=
  (by decide +kernel : ∀ q0 : Fin 16, ∃ t : Fin grid0.N, win0_8.index t = ![q0.val, 0])

/-- What point `t` writes back is tile `t` of the one whole-array function. -/
theorem flushed8_eq (V : (c : Dev nD) → (b : Ref sig .tc) → Buf (Elt Ideal) ((c : Thread nD τ).loc b)) (c : Dev nD) (t : Fin cfg0.N) :
    (dat0 (F := Ideal) V c).flushed 8 t
      = ((cfg0.win 8).blk t).view.read (Elt Ideal)
          (rowsScaledArr (V c (Pipeline.arrRef spec0 0)) (V c (Pipeline.arrRef spec0 3)) (V c (Pipeline.arrRef spec0 4))) := by
  show (cfg0.win 8).cut (grid0.coords t) ((dat0 V c).after 8 t) = _
  rw [after0_8]
  unfold out0_8
  rw [View.canon_unit_zero hz]
  simp only [View.ld_unit_zero (S := S1x4096) hz, View.ld_unit_zero (S := S256x4096) hz, View.ld_unit_zero (S := S256x1) hz]
  obtain ⟨e0, e1, e2, e3, e4, e5, e6, e7⟩ := idx_facts8 t
  funext j
  obtain ⟨p, u, rfl⟩ : ∃ (p : Fin 256) (u : Fin 1), j = ix2 p u := ⟨j 0, j 1, eq_ix2 j⟩
  have hp : p.val < 256 := p.isLt
  have hu : u.val = 0 := by have := u.isLt; omega
  show k0_pay3 (F := Ideal) (iblk0 V c 0 t) (iblk0 V c 3 t) (iblk0 V c 4 t) (ix2 p u)
      = rowsScaledArr (V c (Pipeline.arrRef spec0 0)) (V c (Pipeline.arrRef spec0 3)) (V c (Pipeline.arrRef spec0 4))
          (((cfg0.win 8).blk t).view.emb (ix2 p u))
  refine (pay8_apply _ _ _ p u).trans ?_
  have hW : ∀ k : Fin 4096, ((cfg0.win 3).blk t).view.emb (ix2 p k)
      = ix2 (⟨((((cfg0.win 8).blk t).view.emb (ix2 p u)) 0).val, ((((cfg0.win 8).blk t).view.emb (ix2 p u)) 0).isLt⟩ : Fin 4096) k := by
    intro k
    funext a; apply Fin.ext
    match a with
    | ⟨0, _⟩ => show win0_3.index t (0 : Fin 2) * 256 + 1 * p.val = win0_8.index t (0 : Fin 2) * 256 + 1 * p.val; omega
    | ⟨1, _⟩ => show win0_3.index t (1 : Fin 2) * 4096 + 1 * k.val = k.val; omega
  have hX : ∀ k : Fin 4096, ((cfg0.win 0).blk t).view.emb (ix2 (0 : Fin 1) k) = ix2 (0 : Fin 1) k := by
    intro k
    funext a; apply Fin.ext
    match a with
    | ⟨0, _⟩ => show win0_0.index t (0 : Fin 2) * 1 + 1 * 0 = 0; omega
    | ⟨1, _⟩ => show win0_0.index t (1 : Fin 2) * 4096 + 1 * k.val = k.val; omega
  have hB : ((cfg0.win 4).blk t).view.emb (ix2 p u)
      = ix2 (⟨((((cfg0.win 8).blk t).view.emb (ix2 p u)) 0).val, ((((cfg0.win 8).blk t).view.emb (ix2 p u)) 0).isLt⟩ : Fin 4096) (0 : Fin 1) := by
    funext a; apply Fin.ext
    match a with
    | ⟨0, _⟩ => show win0_4.index t (0 : Fin 2) * 256 + 1 * p.val = win0_8.index t (0 : Fin 2) * 256 + 1 * p.val; omega
    | ⟨1, _⟩ => show win0_4.index t (1 : Fin 2) * 1 + 1 * u.val = 0; omega
  unfold rowsScaledArr rowAt
  refine congrArg (· * Ideal.ofBits .f32 0x3C800000#32) ?_
  refine congrArg₂ (· + ·) (Finset.sum_congr rfl fun k _ => congrArg₂ (· * ·) ?_ ?_) ?_
  · exact congrArg (V c (Pipeline.arrRef spec0 3)) (hW k)
  · exact congrArg (V c (Pipeline.arrRef spec0 0)) (hX k)
  · exact congrArg (V c (Pipeline.arrRef spec0 4)) hB

/-- An index of the column is in point `t`'s tile iff each coordinate is in the tile's range. -/
theorem mem_blk8 (t : Fin cfg0.N) (i : S4096x1.Idx) :
    i ∈ ((cfg0.win 8).blk t).view.set ↔ ∀ a : Fin 2, win0_8.index t a * S256x1.size a ≤ (i a).val ∧ (i a).val < win0_8.index t a * S256x1.size a + S256x1.size a := by
  show i ∈ ((View.whole main_v1_1).slice (win0_8.rect t)).set ↔ _
  rw [View.set_slice_whole, Rect.mem_set_unit]
  exact Iff.rfl

/-- The 16 tiles cover the column: row `r` is in tile `r / 256`. -/
theorem cover8 (i : S4096x1.Idx) : ∃ t : Fin cfg0.N, (cfg0.win 8).flush t = true ∧ i ∈ ((cfg0.win 8).blk t).view.set := by
  have hi0 : (i 0).val < 4096 := (i 0).isLt
  have hi1 : (i 1).val < 1 := (i 1).isLt
  obtain ⟨t, ht⟩ := idx_onto8 ⟨(i 0).val / 256, by omega⟩
  have q0 : win0_8.index t (0 : Fin 2) = (i 0).val / 256 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1 ≤ (i 1).val ∧ (i 1).val < win0_8.index t (1 : Fin 2) * 1 + 1; omega

/-- The array after the region: one function of the arrays the region found. -/
theorem final8 (V : (c : Dev nD) → (b : Ref sig .tc) → Buf (Elt Ideal) ((c : Thread nD τ).loc b)) (c : Dev nD) :
    (dat0 (F := Ideal) V c).arrAt 8 cfg0.N
      = rowsScaledArr (V c (Pipeline.arrRef spec0 0)) (V c (Pipeline.arrRef spec0 3)) (V c (Pipeline.arrRef spec0 4)) :=
  (dat0 (F := Ideal) V c).arrAt_eq_of_cover 8 _ (fun t _ => flushed8_eq V c t) cover8

/-! ## Output window 9 -/

/-- The body's value for window 9 at row `p` of the tile: the row of the weight tile against the input row, plus
    the bias. -/
theorem pay9_apply (v0 : Vec Ideal S1x4096 .f32) (vW : Vec Ideal S256x4096 .f32) (vb : Vec Ideal S256x1 .f32)
    (p : Fin 256) (u : Fin 1) :
    k0_pay4 (F := Ideal) v0 vW vb (ix2 p u)
      = ((∑ j : Fin 4096, vW (ix2 p j) * v0 (ix2 (0 : Fin 1) j)) + vb (ix2 p u)) := by
  unfold k0_pay4 k0_pay1
  refine congrArg (· + vb (ix2 p u)) ?_
  refine (Cert.RowsDot.rowsDot_apply vW (shapeCast S1x4096 v0 shapeCasts_S1x4096_S1x4096) _ _ _ _ _ p u).trans ?_
  rw [shapeCast_self]

/-- The printed index maps, decided over the 16 grid points: the input row never moves, the weight and bias tiles
    move with the output tile, which is tile `t` of the one column. -/
theorem idx_facts9 : ∀ t : Fin cfg0.N, win0_0.index t (0 : Fin 2) = 0 ∧ win0_0.index t (1 : Fin 2) = 0
    ∧ win0_5.index t (0 : Fin 2) = win0_9.index t (0 : Fin 2) ∧ win0_5.index t (1 : Fin 2) = 0
    ∧ win0_6.index t (0 : Fin 2) = win0_9.index t (0 : Fin 2) ∧ win0_6.index t (1 : Fin 2) = 0
    ∧ win0_9.index t (1 : Fin 2) = 0 ∧ win0_9.index t (0 : Fin 2) ≤ 15 :=
  (by decide +kernel : ∀ t : Fin grid0.N, _)

/-- Every one of the 16 tiles is some point's. -/
theorem idx_onto9 : ∀ q0 : Fin 16, ∃ t : Fin cfg0.N, win0_9.index t = ![q0.val, 0] :=
  (by decide +kernel : ∀ q0 : Fin 16, ∃ t : Fin grid0.N, win0_9.index t = ![q0.val, 0])

/-- What point `t` writes back is tile `t` of the one whole-array function. -/
theorem flushed9_eq (V : (c : Dev nD) → (b : Ref sig .tc) → Buf (Elt Ideal) ((c : Thread nD τ).loc b)) (c : Dev nD) (t : Fin cfg0.N) :
    (dat0 (F := Ideal) V c).flushed 9 t
      = ((cfg0.win 9).blk t).view.read (Elt Ideal)
          (rowsArr (V c (Pipeline.arrRef spec0 0)) (V c (Pipeline.arrRef spec0 5)) (V c (Pipeline.arrRef spec0 6))) := by
  show (cfg0.win 9).cut (grid0.coords t) ((dat0 V c).after 9 t) = _
  rw [after0_9]
  unfold out0_9
  rw [View.canon_unit_zero hz]
  simp only [View.ld_unit_zero (S := S1x4096) hz, View.ld_unit_zero (S := S256x4096) hz, View.ld_unit_zero (S := S256x1) hz]
  obtain ⟨e0, e1, e2, e3, e4, e5, e6, e7⟩ := idx_facts9 t
  funext j
  obtain ⟨p, u, rfl⟩ : ∃ (p : Fin 256) (u : Fin 1), j = ix2 p u := ⟨j 0, j 1, eq_ix2 j⟩
  have hp : p.val < 256 := p.isLt
  have hu : u.val = 0 := by have := u.isLt; omega
  show k0_pay4 (F := Ideal) (iblk0 V c 0 t) (iblk0 V c 5 t) (iblk0 V c 6 t) (ix2 p u)
      = rowsArr (V c (Pipeline.arrRef spec0 0)) (V c (Pipeline.arrRef spec0 5)) (V c (Pipeline.arrRef spec0 6))
          (((cfg0.win 9).blk t).view.emb (ix2 p u))
  refine (pay9_apply _ _ _ p u).trans ?_
  have hW : ∀ k : Fin 4096, ((cfg0.win 5).blk t).view.emb (ix2 p k)
      = ix2 (⟨((((cfg0.win 9).blk t).view.emb (ix2 p u)) 0).val, ((((cfg0.win 9).blk t).view.emb (ix2 p u)) 0).isLt⟩ : Fin 4096) k := by
    intro k
    funext a; apply Fin.ext
    match a with
    | ⟨0, _⟩ => show win0_5.index t (0 : Fin 2) * 256 + 1 * p.val = win0_9.index t (0 : Fin 2) * 256 + 1 * p.val; omega
    | ⟨1, _⟩ => show win0_5.index t (1 : Fin 2) * 4096 + 1 * k.val = k.val; omega
  have hX : ∀ k : Fin 4096, ((cfg0.win 0).blk t).view.emb (ix2 (0 : Fin 1) k) = ix2 (0 : Fin 1) k := by
    intro k
    funext a; apply Fin.ext
    match a with
    | ⟨0, _⟩ => show win0_0.index t (0 : Fin 2) * 1 + 1 * 0 = 0; omega
    | ⟨1, _⟩ => show win0_0.index t (1 : Fin 2) * 4096 + 1 * k.val = k.val; omega
  have hB : ((cfg0.win 6).blk t).view.emb (ix2 p u)
      = ix2 (⟨((((cfg0.win 9).blk t).view.emb (ix2 p u)) 0).val, ((((cfg0.win 9).blk t).view.emb (ix2 p u)) 0).isLt⟩ : Fin 4096) (0 : Fin 1) := by
    funext a; apply Fin.ext
    match a with
    | ⟨0, _⟩ => show win0_6.index t (0 : Fin 2) * 256 + 1 * p.val = win0_9.index t (0 : Fin 2) * 256 + 1 * p.val; omega
    | ⟨1, _⟩ => show win0_6.index t (1 : Fin 2) * 1 + 1 * u.val = 0; omega
  unfold rowsArr rowAt
  refine congrArg₂ (· + ·) (Finset.sum_congr rfl fun k _ => congrArg₂ (· * ·) ?_ ?_) ?_
  · exact congrArg (V c (Pipeline.arrRef spec0 5)) (hW k)
  · exact congrArg (V c (Pipeline.arrRef spec0 0)) (hX k)
  · exact congrArg (V c (Pipeline.arrRef spec0 6)) hB

/-- An index of the column is in point `t`'s tile iff each coordinate is in the tile's range. -/
theorem mem_blk9 (t : Fin cfg0.N) (i : S4096x1.Idx) :
    i ∈ ((cfg0.win 9).blk t).view.set ↔ ∀ a : Fin 2, win0_9.index t a * S256x1.size a ≤ (i a).val ∧ (i a).val < win0_9.index t a * S256x1.size a + S256x1.size a := by
  show i ∈ ((View.whole main_v1_2).slice (win0_9.rect t)).set ↔ _
  rw [View.set_slice_whole, Rect.mem_set_unit]
  exact Iff.rfl

/-- The 16 tiles cover the column: row `r` is in tile `r / 256`. -/
theorem cover9 (i : S4096x1.Idx) : ∃ t : Fin cfg0.N, (cfg0.win 9).flush t = true ∧ i ∈ ((cfg0.win 9).blk t).view.set := by
  have hi0 : (i 0).val < 4096 := (i 0).isLt
  have hi1 : (i 1).val < 1 := (i 1).isLt
  obtain ⟨t, ht⟩ := idx_onto9 ⟨(i 0).val / 256, by omega⟩
  have q0 : win0_9.index t (0 : Fin 2) = (i 0).val / 256 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1 ≤ (i 1).val ∧ (i 1).val < win0_9.index t (1 : Fin 2) * 1 + 1; omega

/-- The array after the region: one function of the arrays the region found. -/
theorem final9 (V : (c : Dev nD) → (b : Ref sig .tc) → Buf (Elt Ideal) ((c : Thread nD τ).loc b)) (c : Dev nD) :
    (dat0 (F := Ideal) V c).arrAt 9 cfg0.N
      = rowsArr (V c (Pipeline.arrRef spec0 0)) (V c (Pipeline.arrRef spec0 5)) (V c (Pipeline.arrRef spec0 6)) :=
  (dat0 (F := Ideal) V c).arrAt_eq_of_cover 9 _ (fun t _ => flushed9_eq V c t) cover9

end Cert.KernelIdeal.Gemv0

end
-- ==== Proof.Gemv2.lean ====
/-
  The first pallas call of a layer: the query, key and value vectors, one row tile at a time.

  The grid has 16 points; point `t` holds rows `256·t … 256·t + 255` of each weight matrix and of each bias
  column, and the whole input vector as a row.  The body dots every row of its weight tile with the input row,
  adds the bias tile (and, for the key, scales by 2⁻⁶), and writes the 256 results back as rows `256·t + p` of the
  output column.  The 16 tiles cover the 4096 rows, so each output array ends as ONE function of the arrays the
  region found: row `r` is `(∑ j, W (r, j) · x (0, j)) + b (r, 0)`.
-/
import proofs.«164411_j62654982914536_2_alg».proof.Proof.Gen.KernelIdeal.Frame
import proofs.«164411_j62654982914536_2_alg».proof.Proof.LibRowsDot
import proofs.«164411_j62654982914536_2_alg».proof.Proof.Arrays

set_option maxRecDepth 16384

noncomputable section

open scoped BigOperators

namespace Cert.KernelIdeal.Gemv2

open Cert.KernelIdeal Cert.KernelIdeal.Gen Idealize.ShloMosaic Idealize.ShloMosaic.TcCoe Idealize.SL.Sem
open Idealize.ShloMosaic.ValueIdx Cert.MLstm.Arr
open Idealize.ShloMosaic.Pipeline (Dat)

theorem hz : (![0, 0] : Fin 2 → Nat) = fun _ => 0 := funext fun a => by fin_cases a <;> rfl

/-! ## Output window 7 -/

/-- The body's value for window 7 at row `p` of the tile: the row of the weight tile against the input row, plus
    the bias. -/
theorem pay7_apply (v0 : Vec Ideal S1x4096 .f32) (vW : Vec Ideal S256x4096 .f32) (vb : Vec Ideal S256x1 .f32)
    (p : Fin 256) (u : Fin 1) :
    k2_pay2 (F := Ideal) v0 vW vb (ix2 p u)
      = ((∑ j : Fin 4096, vW (ix2 p j) * v0 (ix2 (0 : Fin 1) j)) + vb (ix2 p u)) := by
  unfold k2_pay2 k2_pay1
  refine congrArg (· + vb (ix2 p u)) ?_
  refine (Cert.RowsDot.rowsDot_apply vW (shapeCast S1x4096 v0 shapeCasts_S1x4096_S1x4096) _ _ _ _ _ p u).trans ?_
  rw [shapeCast_self]

/-- The printed index maps, decided over the 16 grid points: the input row never moves, the weight and bias tiles
    move with the output tile, which is tile `t` of the one column. -/
theorem idx_facts7 : ∀ t : Fin cfg2.N, win2_0.index t (0 : Fin 2) = 0 ∧ win2_0.index t (1 : Fin 2) = 0
    ∧ win2_1.index t (0 : Fin 2) = win2_7.index t (0 : Fin 2) ∧ win2_1.index t (1 : Fin 2) = 0
    ∧ win2_2.index t (0 : Fin 2) = win2_7.index t (0 : Fin 2) ∧ win2_2.index t (1 : Fin 2) = 0
    ∧ win2_7.index t (1 : Fin 2) = 0 ∧ win2_7.index t (0 : Fin 2) ≤ 15 :=
  (by decide +kernel : ∀ t : Fin grid2.N, _)

/-- Every one of the 16 tiles is some point's. -/
theorem idx_onto7 : ∀ q0 : Fin 16, ∃ t : Fin cfg2.N, win2_7.index t = ![q0.val, 0] :=
  (by decide +kernel : ∀ q0 : Fin 16, ∃ t : Fin grid2.N, win2_7.index t = ![q0.val, 0])

/-- What point `t` writes back is tile `t` of the one whole-array function. -/
theorem flushed7_eq (V : (c : Dev nD) → (b : Ref sig .tc) → Buf (Elt Ideal) ((c : Thread nD τ).loc b)) (c : Dev nD) (t : Fin cfg2.N) :
    (dat2 (F := Ideal) V c).flushed 7 t
      = ((cfg2.win 7).blk t).view.read (Elt Ideal)
          (rowsArr (V c (Pipeline.arrRef spec2 0)) (V c (Pipeline.arrRef spec2 1)) (V c (Pipeline.arrRef spec2 2))) := by
  show (cfg2.win 7).cut (grid2.coords t) ((dat2 V c).after 7 t) = _
  rw [after2_7]
  unfold out2_7
  rw [View.canon_unit_zero hz]
  simp only [View.ld_unit_zero (S := S1x4096) hz, View.ld_unit_zero (S := S256x4096) hz, View.ld_unit_zero (S := S256x1) hz]
  obtain ⟨e0, e1, e2, e3, e4, e5, e6, e7⟩ := idx_facts7 t
  funext j
  obtain ⟨p, u, rfl⟩ : ∃ (p : Fin 256) (u : Fin 1), j = ix2 p u := ⟨j 0, j 1, eq_ix2 j⟩
  have hp : p.val < 256 := p.isLt
  have hu : u.val = 0 := by have := u.isLt; omega
  show k2_pay2 (F := Ideal) (iblk2 V c 0 t) (iblk2 V c 1 t) (iblk2 V c 2 t) (ix2 p u)
      = rowsArr (V c (Pipeline.arrRef spec2 0)) (V c (Pipeline.arrRef spec2 1)) (V c (Pipeline.arrRef spec2 2))
          (((cfg2.win 7).blk t).view.emb (ix2 p u))
  refine (pay7_apply _ _ _ p u).trans ?_
  have hW : ∀ k : Fin 4096, ((cfg2.win 1).blk t).view.emb (ix2 p k)
      = ix2 (⟨((((cfg2.win 7).blk t).view.emb (ix2 p u)) 0).val, ((((cfg2.win 7).blk t).view.emb (ix2 p u)) 0).isLt⟩ : Fin 4096) k := by
    intro k
    funext a; apply Fin.ext
    match a with
    | ⟨0, _⟩ => show win2_1.index t (0 : Fin 2) * 256 + 1 * p.val = win2_7.index t (0 : Fin 2) * 256 + 1 * p.val; omega
    | ⟨1, _⟩ => show win2_1.index t (1 : Fin 2) * 4096 + 1 * k.val = k.val; omega
  have hX : ∀ k : Fin 4096, ((cfg2.win 0).blk t).view.emb (ix2 (0 : Fin 1) k) = ix2 (0 : Fin 1) k := by
    intro k
    funext a; apply Fin.ext
    match a with
    | ⟨0, _⟩ => show win2_0.index t (0 : Fin 2) * 1 + 1 * 0 = 0; omega
    | ⟨1, _⟩ => show win2_0.index t (1 : Fin 2) * 4096 + 1 * k.val = k.val; omega
  have hB : ((cfg2.win 2).blk t).view.emb (ix2 p u)
      = ix2 (⟨((((cfg2.win 7).blk t).view.emb (ix2 p u)) 0).val, ((((cfg2.win 7).blk t).view.emb (ix2 p u)) 0).isLt⟩ : Fin 4096) (0 : Fin 1) := by
    funext a; apply Fin.ext
    match a with
    | ⟨0, _⟩ => show win2_2.index t (0 : Fin 2) * 256 + 1 * p.val = win2_7.index t (0 : Fin 2) * 256 + 1 * p.val; omega
    | ⟨1, _⟩ => show win2_2.index t (1 : Fin 2) * 1 + 1 * u.val = 0; omega
  unfold rowsArr rowAt
  refine congrArg₂ (· + ·) (Finset.sum_congr rfl fun k _ => congrArg₂ (· * ·) ?_ ?_) ?_
  · exact congrArg (V c (Pipeline.arrRef spec2 1)) (hW k)
  · exact congrArg (V c (Pipeline.arrRef spec2 0)) (hX k)
  · exact congrArg (V c (Pipeline.arrRef spec2 2)) hB

/-- An index of the column is in point `t`'s tile iff each coordinate is in the tile's range. -/
theorem mem_blk7 (t : Fin cfg2.N) (i : S4096x1.Idx) :
    i ∈ ((cfg2.win 7).blk t).view.set ↔ ∀ a : Fin 2, win2_7.index t a * S256x1.size a ≤ (i a).val ∧ (i a).val < win2_7.index t a * S256x1.size a + S256x1.size a := by
  show i ∈ ((View.whole main_v35_0).slice (win2_7.rect t)).set ↔ _
  rw [View.set_slice_whole, Rect.mem_set_unit]
  exact Iff.rfl

/-- The 16 tiles cover the column: row `r` is in tile `r / 256`. -/
theorem cover7 (i : S4096x1.Idx) : ∃ t : Fin cfg2.N, (cfg2.win 7).flush t = true ∧ i ∈ ((cfg2.win 7).blk t).view.set := by
  have hi0 : (i 0).val < 4096 := (i 0).isLt
  have hi1 : (i 1).val < 1 := (i 1).isLt
  obtain ⟨t, ht⟩ := idx_onto7 ⟨(i 0).val / 256, by omega⟩
  have q0 : win2_7.index t (0 : Fin 2) = (i 0).val / 256 := congrFun ht 0
  have q1 : win2_7.index t (1 : Fin 2) = 0 := congrFun ht 1
  refine ⟨t, flush2_7 t, ?_⟩
  rw [mem_blk7]
  intro a
  match a with
  | ⟨0, _⟩ => show win2_7.index t (0 : Fin 2) * 256 ≤ (i 0).val ∧ (i 0).val < win2_7.index t (0 : Fin 2) * 256 + 256; omega
  | ⟨1, _⟩ => show win2_7.index t (1 : Fin 2) * 1 ≤ (i 1).val ∧ (i 1).val < win2_7.index t (1 : Fin 2) * 1 + 1; omega

/-- The array after the region: one function of the arrays the region found. -/
theorem final7 (V : (c : Dev nD) → (b : Ref sig .tc) → Buf (Elt Ideal) ((c : Thread nD τ).loc b)) (c : Dev nD) :
    (dat2 (F := Ideal) V c).arrAt 7 cfg2.N
      = rowsArr (V c (Pipeline.arrRef spec2 0)) (V c (Pipeline.arrRef spec2 1)) (V c (Pipeline.arrRef spec2 2)) :=
  (dat2 (F := Ideal) V c).arrAt_eq_of_cover 7 _ (fun t _ => flushed7_eq V c t) cover7

/-! ## Output window 8 -/

/-- The body's value for window 8 at row `p` of the tile: the row of the weight tile against the input row, plus
    the bias, scaled. -/
theorem pay8_apply (v0 : Vec Ideal S1x4096 .f32) (vW : Vec Ideal S256x4096 .f32) (vb : Vec Ideal S256x1 .f32)
    (p : Fin 256) (u : Fin 1) :
    k2_pay3 (F := Ideal) v0 vW vb (ix2 p u)
      = ((∑ j : Fin 4096, vW (ix2 p j) * v0 (ix2 (0 : Fin 1) j)) + vb (ix2 p u)) * Ideal.ofBits .f32 0x3C800000#32 := by
  unfold k2_pay3 k2_pay1
  refine congrArg (· * Ideal.ofBits .f32 0x3C800000#32) ?_
  refine congrArg (· + vb (ix2 p u)) ?_
  refine (Cert.RowsDot.rowsDot_apply vW (shapeCast S1x4096 v0 shapeCasts_S1x4096_S1x4096) _ _ _ _ _ p u).trans ?_
  rw [shapeCast_self]

/-- The printed index maps, decided over the 16 grid points: the input row never moves, the weight and bias tiles
    move with the output tile, which is tile `t` of the one column. -/
theorem idx_facts8 : ∀ t : Fin cfg2.N, win2_0.index t (0 : Fin 2) = 0 ∧ win2_0.index t (1 : Fin 2) = 0
    ∧ win2_3.index t (0 : Fin 2) = win2_8.index t (0 : Fin 2) ∧ win2_3.index t (1 : Fin 2) = 0
    ∧ win2_4.index t (0 : Fin 2) = win2_8.index t (0 : Fin 2) ∧ win2_4.index t (1 : Fin 2) = 0
    ∧ win2_8.index t (1 : Fin 2) = 0 ∧ win2_8.index t (0 : Fin 2) ≤ 15 :=
  (by decide +kernel : ∀ t : Fin grid2.N, _)

/-- Every one of the 16 tiles is some point's. -/
theorem idx_onto8 : ∀ q0 : Fin 16, ∃ t : Fin cfg2.N, win2_8.index t = ![q0.val, 0] :=
  (by decide +kernel : ∀ q0 : Fin 16, ∃ t : Fin grid2.N, win2_8.index t = ![q0.val, 0])

/-- What point `t` writes back is tile `t` of the one whole-array function. -/
theorem flushed8_eq (V : (c : Dev nD) → (b : Ref sig .tc) → Buf (Elt Ideal) ((c : Thread nD τ).loc b)) (c : Dev nD) (t : Fin cfg2.N) :
    (dat2 (F := Ideal) V c).flushed 8 t
      = ((cfg2.win 8).blk t).view.read (Elt Ideal)
          (rowsScaledArr (V c (Pipeline.arrRef spec2 0)) (V c (Pipeline.arrRef spec2 3)) (V c (Pipeline.arrRef spec2 4))) := by
  show (cfg2.win 8).cut (grid2.coords t) ((dat2 V c).after 8 t) = _
  rw [after2_8]
  unfold out2_8
  rw [View.canon_unit_zero hz]
  simp only [View.ld_unit_zero (S := S1x4096) hz, View.ld_unit_zero (S := S256x4096) hz, View.ld_unit_zero (S := S256x1) hz]
  obtain ⟨e0, e1, e2, e3, e4, e5, e6, e7⟩ := idx_facts8 t
  funext j
  obtain ⟨p, u, rfl⟩ : ∃ (p : Fin 256) (u : Fin 1), j = ix2 p u := ⟨j 0, j 1, eq_ix2 j⟩
  have hp : p.val < 256 := p.isLt
  have hu : u.val = 0 := by have := u.isLt; omega
  show k2_pay3 (F := Ideal) (iblk2 V c 0 t) (iblk2 V c 3 t) (iblk2 V c 4 t) (ix2 p u)
      = rowsScaledArr (V c (Pipeline.arrRef spec2 0)) (V c (Pipeline.arrRef spec2 3)) (V c (Pipeline.arrRef spec2 4))
          (((cfg2.win 8).blk t).view.emb (ix2 p u))
  refine (pay8_apply _ _ _ p u).trans ?_
  have hW : ∀ k : Fin 4096, ((cfg2.win 3).blk t).view.emb (ix2 p k)
      = ix2 (⟨((((cfg2.win 8).blk t).view.emb (ix2 p u)) 0).val, ((((cfg2.win 8).blk t).view.emb (ix2 p u)) 0).isLt⟩ : Fin 4096) k := by
    intro k
    funext a; apply Fin.ext
    match a with
    | ⟨0, _⟩ => show win2_3.index t (0 : Fin 2) * 256 + 1 * p.val = win2_8.index t (0 : Fin 2) * 256 + 1 * p.val; omega
    | ⟨1, _⟩ => show win2_3.index t (1 : Fin 2) * 4096 + 1 * k.val = k.val; omega
  have hX : ∀ k : Fin 4096, ((cfg2.win 0).blk t).view.emb (ix2 (0 : Fin 1) k) = ix2 (0 : Fin 1) k := by
    intro k
    funext a; apply Fin.ext
    match a with
    | ⟨0, _⟩ => show win2_0.index t (0 : Fin 2) * 1 + 1 * 0 = 0; omega
    | ⟨1, _⟩ => show win2_0.index t (1 : Fin 2) * 4096 + 1 * k.val = k.val; omega
  have hB : ((cfg2.win 4).blk t).view.emb (ix2 p u)
      = ix2 (⟨((((cfg2.win 8).blk t).view.emb (ix2 p u)) 0).val, ((((cfg2.win 8).blk t).view.emb (ix2 p u)) 0).isLt⟩ : Fin 4096) (0 : Fin 1) := by
    funext a; apply Fin.ext
    match a with
    | ⟨0, _⟩ => show win2_4.index t (0 : Fin 2) * 256 + 1 * p.val = win2_8.index t (0 : Fin 2) * 256 + 1 * p.val; omega
    | ⟨1, _⟩ => show win2_4.index t (1 : Fin 2) * 1 + 1 * u.val = 0; omega
  unfold rowsScaledArr rowAt
  refine congrArg (· * Ideal.ofBits .f32 0x3C800000#32) ?_
  refine congrArg₂ (· + ·) (Finset.sum_congr rfl fun k _ => congrArg₂ (· * ·) ?_ ?_) ?_
  · exact congrArg (V c (Pipeline.arrRef spec2 3)) (hW k)
  · exact congrArg (V c (Pipeline.arrRef spec2 0)) (hX k)
  · exact congrArg (V c (Pipeline.arrRef spec2 4)) hB

/-- An index of the column is in point `t`'s tile iff each coordinate is in the tile's range. -/
theorem mem_blk8 (t : Fin cfg2.N) (i : S4096x1.Idx) :
    i ∈ ((cfg2.win 8).blk t).view.set ↔ ∀ a : Fin 2, win2_8.index t a * S256x1.size a ≤ (i a).val ∧ (i a).val < win2_8.index t a * S256x1.size a + S256x1.size a := by
  show i ∈ ((View.whole main_v35_1).slice (win2_8.rect t)).set ↔ _
  rw [View.set_slice_whole, Rect.mem_set_unit]
  exact Iff.rfl

/-- The 16 tiles cover the column: row `r` is in tile `r / 256`. -/
theorem cover8 (i : S4096x1.Idx) : ∃ t : Fin cfg2.N, (cfg2.win 8).flush t = true ∧ i ∈ ((cfg2.win 8).blk t).view.set := by
  have hi0 : (i 0).val < 4096 := (i 0).isLt
  have hi1 : (i 1).val < 1 := (i 1).isLt
  obtain ⟨t, ht⟩ := idx_onto8 ⟨(i 0).val / 256, by omega⟩
  have q0 : win2_8.index t (0 : Fin 2) = (i 0).val / 256 := congrFun ht 0
  have q1 : win2_8.index t (1 : Fin 2) = 0 := congrFun ht 1
  refine ⟨t, flush2_8 t, ?_⟩
  rw [mem_blk8]
  intro a
  match a with
  | ⟨0, _⟩ => show win2_8.index t (0 : Fin 2) * 256 ≤ (i 0).val ∧ (i 0).val < win2_8.index t (0 : Fin 2) * 256 + 256; omega
  | ⟨1, _⟩ => show win2_8.index t (1 : Fin 2) * 1 ≤ (i 1).val ∧ (i 1).val < win2_8.index t (1 : Fin 2) * 1 + 1; omega

/-- The array after the region: one function of the arrays the region found. -/
theorem final8 (V : (c : Dev nD) → (b : Ref sig .tc) → Buf (Elt Ideal) ((c : Thread nD τ).loc b)) (c : Dev nD) :
    (dat2 (F := Ideal) V c).arrAt 8 cfg2.N
      = rowsScaledArr (V c (Pipeline.arrRef spec2 0)) (V c (Pipeline.arrRef spec2 3)) (V c (Pipeline.arrRef spec2 4)) :=
  (dat2 (F := Ideal) V c).arrAt_eq_of_cover 8 _ (fun t _ => flushed8_eq V c t) cover8

/-! ## Output window 9 -/

/-- The body's value for window 9 at row `p` of the tile: the row of the weight tile against the input row, plus
    the bias. -/
theorem pay9_apply (v0 : Vec Ideal S1x4096 .f32) (vW : Vec Ideal S256x4096 .f32) (vb : Vec Ideal S256x1 .f32)
    (p : Fin 256) (u : Fin 1) :
    k2_pay4 (F := Ideal) v0 vW vb (ix2 p u)
      = ((∑ j : Fin 4096, vW (ix2 p j) * v0 (ix2 (0 : Fin 1) j)) + vb (ix2 p u)) := by
  unfold k2_pay4 k2_pay1
  refine congrArg (· + vb (ix2 p u)) ?_
  refine (Cert.RowsDot.rowsDot_apply vW (shapeCast S1x4096 v0 shapeCasts_S1x4096_S1x4096) _ _ _ _ _ p u).trans ?_
  rw [shapeCast_self]

/-- The printed index maps, decided over the 16 grid points: the input row never moves, the weight and bias tiles
    move with the output tile, which is tile `t` of the one column. -/
theorem idx_facts9 : ∀ t : Fin cfg2.N, win2_0.index t (0 : Fin 2) = 0 ∧ win2_0.index t (1 : Fin 2) = 0
    ∧ win2_5.index t (0 : Fin 2) = win2_9.index t (0 : Fin 2) ∧ win2_5.index t (1 : Fin 2) = 0
    ∧ win2_6.index t (0 : Fin 2) = win2_9.index t (0 : Fin 2) ∧ win2_6.index t (1 : Fin 2) = 0
    ∧ win2_9.index t (1 : Fin 2) = 0 ∧ win2_9.index t (0 : Fin 2) ≤ 15 :=
  (by decide +kernel : ∀ t : Fin grid2.N, _)

/-- Every one of the 16 tiles is some point's. -/
theorem idx_onto9 : ∀ q0 : Fin 16, ∃ t : Fin cfg2.N, win2_9.index t = ![q0.val, 0] :=
  (by decide +kernel : ∀ q0 : Fin 16, ∃ t : Fin grid2.N, win2_9.index t = ![q0.val, 0])

/-- What point `t` writes back is tile `t` of the one whole-array function. -/
theorem flushed9_eq (V : (c : Dev nD) → (b : Ref sig .tc) → Buf (Elt Ideal) ((c : Thread nD τ).loc b)) (c : Dev nD) (t : Fin cfg2.N) :
    (dat2 (F := Ideal) V c).flushed 9 t
      = ((cfg2.win 9).blk t).view.read (Elt Ideal)
          (rowsArr (V c (Pipeline.arrRef spec2 0)) (V c (Pipeline.arrRef spec2 5)) (V c (Pipeline.arrRef spec2 6))) := by
  show (cfg2.win 9).cut (grid2.coords t) ((dat2 V c).after 9 t) = _
  rw [after2_9]
  unfold out2_9
  rw [View.canon_unit_zero hz]
  simp only [View.ld_unit_zero (S := S1x4096) hz, View.ld_unit_zero (S := S256x4096) hz, View.ld_unit_zero (S := S256x1) hz]
  obtain ⟨e0, e1, e2, e3, e4, e5, e6, e7⟩ := idx_facts9 t
  funext j
  obtain ⟨p, u, rfl⟩ : ∃ (p : Fin 256) (u : Fin 1), j = ix2 p u := ⟨j 0, j 1, eq_ix2 j⟩
  have hp : p.val < 256 := p.isLt
  have hu : u.val = 0 := by have := u.isLt; omega
  show k2_pay4 (F := Ideal) (iblk2 V c 0 t) (iblk2 V c 5 t) (iblk2 V c 6 t) (ix2 p u)
      = rowsArr (V c (Pipeline.arrRef spec2 0)) (V c (Pipeline.arrRef spec2 5)) (V c (Pipeline.arrRef spec2 6))
          (((cfg2.win 9).blk t).view.emb (ix2 p u))
  refine (pay9_apply _ _ _ p u).trans ?_
  have hW : ∀ k : Fin 4096, ((cfg2.win 5).blk t).view.emb (ix2 p k)
      = ix2 (⟨((((cfg2.win 9).blk t).view.emb (ix2 p u)) 0).val, ((((cfg2.win 9).blk t).view.emb (ix2 p u)) 0).isLt⟩ : Fin 4096) k := by
    intro k
    funext a; apply Fin.ext
    match a with
    | ⟨0, _⟩ => show win2_5.index t (0 : Fin 2) * 256 + 1 * p.val = win2_9.index t (0 : Fin 2) * 256 + 1 * p.val; omega
    | ⟨1, _⟩ => show win2_5.index t (1 : Fin 2) * 4096 + 1 * k.val = k.val; omega
  have hX : ∀ k : Fin 4096, ((cfg2.win 0).blk t).view.emb (ix2 (0 : Fin 1) k) = ix2 (0 : Fin 1) k := by
    intro k
    funext a; apply Fin.ext
    match a with
    | ⟨0, _⟩ => show win2_0.index t (0 : Fin 2) * 1 + 1 * 0 = 0; omega
    | ⟨1, _⟩ => show win2_0.index t (1 : Fin 2) * 4096 + 1 * k.val = k.val; omega
  have hB : ((cfg2.win 6).blk t).view.emb (ix2 p u)
      = ix2 (⟨((((cfg2.win 9).blk t).view.emb (ix2 p u)) 0).val, ((((cfg2.win 9).blk t).view.emb (ix2 p u)) 0).isLt⟩ : Fin 4096) (0 : Fin 1) := by
    funext a; apply Fin.ext
    match a with
    | ⟨0, _⟩ => show win2_6.index t (0 : Fin 2) * 256 + 1 * p.val = win2_9.index t (0 : Fin 2) * 256 + 1 * p.val; omega
    | ⟨1, _⟩ => show win2_6.index t (1 : Fin 2) * 1 + 1 * u.val = 0; omega
  unfold rowsArr rowAt
  refine congrArg₂ (· + ·) (Finset.sum_congr rfl fun k _ => congrArg₂ (· * ·) ?_ ?_) ?_
  · exact congrArg (V c (Pipeline.arrRef spec2 5)) (hW k)
  · exact congrArg (V c (Pipeline.arrRef spec2 0)) (hX k)
  · exact congrArg (V c (Pipeline.arrRef spec2 6)) hB

/-- An index of the column is in point `t`'s tile iff each coordinate is in the tile's range. -/
theorem mem_blk9 (t : Fin cfg2.N) (i : S4096x1.Idx) :
    i ∈ ((cfg2.win 9).blk t).view.set ↔ ∀ a : Fin 2, win2_9.index t a * S256x1.size a ≤ (i a).val ∧ (i a).val < win2_9.index t a * S256x1.size a + S256x1.size a := by
  show i ∈ ((View.whole main_v35_2).slice (win2_9.rect t)).set ↔ _
  rw [View.set_slice_whole, Rect.mem_set_unit]
  exact Iff.rfl

/-- The 16 tiles cover the column: row `r` is in tile `r / 256`. -/
theorem cover9 (i : S4096x1.Idx) : ∃ t : Fin cfg2.N, (cfg2.win 9).flush t = true ∧ i ∈ ((cfg2.win 9).blk t).view.set := by
  have hi0 : (i 0).val < 4096 := (i 0).isLt
  have hi1 : (i 1).val < 1 := (i 1).isLt
  obtain ⟨t, ht⟩ := idx_onto9 ⟨(i 0).val / 256, by omega⟩
  have q0 : win2_9.index t (0 : Fin 2) = (i 0).val / 256 := congrFun ht 0
  have q1 : win2_9.index t (1 : Fin 2) = 0 := congrFun ht 1
  refine ⟨t, flush2_9 t, ?_⟩
  rw [mem_blk9]
  intro a
  match a with
  | ⟨0, _⟩ => show win2_9.index t (0 : Fin 2) * 256 ≤ (i 0).val ∧ (i 0).val < win2_9.index t (0 : Fin 2) * 256 + 256; omega
  | ⟨1, _⟩ => show win2_9.index t (1 : Fin 2) * 1 ≤ (i 1).val ∧ (i 1).val < win2_9.index t (1 : Fin 2) * 1 + 1; omega

/-- The array after the region: one function of the arrays the region found. -/
theorem final9 (V : (c : Dev nD) → (b : Ref sig .tc) → Buf (Elt Ideal) ((c : Thread nD τ).loc b)) (c : Dev nD) :
    (dat2 (F := Ideal) V c).arrAt 9 cfg2.N
      = rowsArr (V c (Pipeline.arrRef spec2 0)) (V c (Pipeline.arrRef spec2 5)) (V c (Pipeline.arrRef spec2 6)) :=
  (dat2 (F := Ideal) V c).arrAt_eq_of_cover 9 _ (fun t _ => flushed9_eq V c t) cover9

end Cert.KernelIdeal.Gemv2

end
-- ==== Proof.Cth1.lean ====
/-
  The first layer's state update, tile by tile, as two arrays.

  The grid has sixteen points; point `t` is given rows `256 t … 256 t + 255` of the old matrix state `c`, of the
  value column `v`, of the output weights `w_o` and of the output bias `b_o`, and the whole of the key row `k`,
  the input row `x`, the query row `q`, the two gates `i`, `f` and the stabiliser `d`.  It leaves

      c'(r, j) = f · c(r, j) + i · (v(r) · k(j)),
      h(r)     = σ (Σ_j w_o(r, j) · x(j) + b_o(r)) · ((Σ_j c'(r, j) · q(j)) / d)

  on its rows.  Every row lies in exactly one tile, so after the sixteen points the two output arrays hold `c'`
  and `h` as functions of the arrays the stage was entered with.  Only the definitions of the operations, the
  reading of a broadcast, a cast or a row sum at an index, and the arithmetic `r = 256 t + p` are used: nothing
  asks the entries to be finite.
-/
import proofs.«164411_j62654982914536_2_alg».proof.Proof.Gen.KernelIdeal.Frame
import proofs.«164411_j62654982914536_2_alg».proof.Proof.LibRowBlocks
import proofs.«164411_j62654982914536_2_alg».proof.Proof.Arrays
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Cth1

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an index -/

/-- The one entry of a `[1, 1]` block. -/
theorem extract_one (x : Vec Ideal S1x1 .f32) (h : ∀ a, (![0, 0] : Fin 2 → Nat) a < S1x1.size a) :
    extractAt ![0, 0] x h = x (ix2 0 0) :=
  congrArg x (funext fun a => Fin.ext (by
    match a with
    | ⟨0, _⟩ => rfl
    | ⟨1, _⟩ => rfl))

/-- The stabiliser the tile divides by is the one entry of its block. -/
theorem den_apply (d : Vec Ideal S1x1 .f32) : k1_pay2 d = d (ix2 0 0) := by
  unfold k1_pay2
  exact extract_one d _

/-- The tile of the next matrix state at `(p, j)`: the forget gate times the old state, plus the input gate times
    the value at row `p` times the key at column `j`. -/
theorem ct_tile_apply (f i : Vec Ideal S1x1 .f32) (C : Vec Ideal S256x4096 .f32) (v : Vec Ideal S256x1 .f32)
    (k : Vec Ideal S1x4096 .f32) (p : Fin 256) (j : Fin 4096) :
    k1_pay3 f i C v k (ix2 p j)
      = f (ix2 0 0) * C (ix2 p j) + i (ix2 0 0) * (v (ix2 p 0) * k (ix2 0 j)) := by
  unfold k1_pay3
  simp only [addf_apply, mulf_apply, broadcast_apply, shapeCast_self]
  rw [Cert.RowBlocks.broadcastTo_col_apply, broadcastTo_1b_ab_apply, extract_one f, extract_one i]

/-- The read-out of the tile against the query row: at row `p`, the sum over the columns of the next state's
    entry times the query's. -/
theorem readout_tile_apply (f i : Vec Ideal S1x1 .f32) (C : Vec Ideal S256x4096 .f32) (v : Vec Ideal S256x1 .f32)
    (k q : Vec Ideal S1x4096 .f32) (p : Fin 256) (u : Fin 1) :
    k1_pay4 f i C v k q (ix2 p u)
      = ∑ j : Fin 4096, (f (ix2 0 0) * C (ix2 p j) + i (ix2 0 0) * (v (ix2 p 0) * k (ix2 0 j))) * q (ix2 0 j) := by
  unfold k1_pay4
  simp only [shapeCast_self]
  refine (Cert.RowBlocks.shapeCast_col_apply _ _ p u).trans ?_
  refine (Cert.RowBlocks.rowSum_apply _ _ _ _ p).trans ?_
  refine Finset.sum_congr rfl fun j _ => ?_
  rw [mulf_apply, ct_tile_apply, broadcastTo_1b_ab_apply]

/-- The output gate's pre-activation without its bias: at row `p`, the row of the weight tile against the input row. -/
theorem gate_tile_apply (W : Vec Ideal S256x4096 .f32) (x : Vec Ideal S1x4096 .f32) (p : Fin 256) (u : Fin 1) :
    k1_pay5 W x (ix2 p u) = ∑ j : Fin 4096, W (ix2 p j) * x (ix2 0 j) := by
  unfold k1_pay5
  simp only [shapeCast_self]
  refine (Cert.RowBlocks.shapeCast_col_apply _ _ p u).trans ?_
  refine (Cert.RowBlocks.rowSum_apply _ _ _ _ p).trans ?_
  refine Finset.sum_congr rfl fun j _ => ?_
  rw [mulf_apply, broadcastTo_1b_ab_apply]

/-- The output tile, entry by entry: the gate's logistic times the read-out over the stabiliser. -/
theorem h_tile_apply (d : Ideal .f32) (raw pre : FVec Ideal S256x1 .f32) (b : Vec Ideal S256x1 .f32) (y : S256x1.Idx) :
    k1_pay1 d raw pre b y = Ideal.logistic (pre y + b y) * Ideal.div (raw y) d := rfl

/-! ## The tiles the body is given, read off the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the sixteen grid points: a row-tiled window's block index is the point's
    number on the row axis and zero on the column axis; a window over a whole array stays at block zero. -/
theorem tile_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = t.val ∧ win1_10.index t (1 : Fin 2) = 0)
    ∧ (win1_11.index t (0 : Fin 2) = t.val ∧ win1_11.index t (1 : Fin 2) = 0) :=
  (by decide +kernel : ∀ t : Fin grid1.N, _)

/-- Row `p` of row tile `t` is row `t · 256 + p` of the array. -/
theorem tile_row_lt (t : Fin cfg1.N) (p : Fin 256) : t.val * 256 + p.val < 4096 := by
  have hN : grid1.N = 16 := N_1
  have ht : t.val < grid1.N := t.isLt
  have hp := p.isLt
  omega

/-- The row of the array that row `p` of tile `t` is. -/
abbrev tileRow (t : Fin cfg1.N) (p : Fin 256) : Fin 4096 := ⟨t.val * 256 + p.val, tile_row_lt t p⟩

/-- The old matrix state's tile at `(p, j)` is the array at `(t · 256 + p, j)`. -/
theorem state_tile_apply (c : Dev nD) (t : Fin cfg1.N) (p : Fin 256) (j : Fin 4096) :
    (iblk1 V c 0 t : Vec Ideal S256x4096 .f32) (ix2 p j)
      = (V c (Pipeline.arrRef spec1 0) : S4096x4096.Idx → EReal) (ix2 (tileRow t p) j) := by
  obtain ⟨⟨e0, e1⟩, -⟩ := tile_index t
  show V c (Pipeline.arrRef spec1 0) (((cfg1.win 0).blk t).view.emb (ix2 p j)) = _
  refine congrArg _ (funext fun a => Fin.ext ?_)
  match a with
  | ⟨0, _⟩ => show win1_0.index t (0 : Fin 2) * 256 + 1 * p.val = t.val * 256 + p.val; rw [e0]; omega
  | ⟨1, _⟩ => show win1_0.index t (1 : Fin 2) * 4096 + 1 * j.val = j.val; rw [e1]; omega

/-- The value column's tile at row `p` is the column at row `t · 256 + p`. -/
theorem value_tile_apply (c : Dev nD) (t : Fin cfg1.N) (p : Fin 256) (u : Fin 1) :
    (iblk1 V c 1 t : Vec Ideal S256x1 .f32) (ix2 p u)
      = (V c (Pipeline.arrRef spec1 1) : S4096x1.Idx → EReal) (ix2 (tileRow t p) u) := by
  obtain ⟨-, ⟨e0, e1⟩, -⟩ := tile_index t
  show V c (Pipeline.arrRef spec1 1) (((cfg1.win 1).blk t).view.emb (ix2 p u)) = _
  refine congrArg _ (funext fun a => Fin.ext ?_)
  match a with
  | ⟨0, _⟩ => show win1_1.index t (0 : Fin 2) * 256 + 1 * p.val = t.val * 256 + p.val; rw [e0]; omega
  | ⟨1, _⟩ => show win1_1.index t (1 : Fin 2) * 1 + 1 * u.val = u.val; rw [e1]; omega

/-- The output weights' tile at `(p, j)` is the array at `(t · 256 + p, j)`. -/
theorem weight_tile_apply (c : Dev nD) (t : Fin cfg1.N) (p : Fin 256) (j : Fin 4096) :
    (iblk1 V c 3 t : Vec Ideal S256x4096 .f32) (ix2 p j)
      = (V c (Pipeline.arrRef spec1 3) : S4096x4096.Idx → EReal) (ix2 (tileRow t p) j) := by
  obtain ⟨-, -, -, ⟨e0, e1⟩, -⟩ := tile_index t
  show V c (Pipeline.arrRef spec1 3) (((cfg1.win 3).blk t).view.emb (ix2 p j)) = _
  refine congrArg _ (funext fun a => Fin.ext ?_)
  match a with
  | ⟨0, _⟩ => show win1_3.index t (0 : Fin 2) * 256 + 1 * p.val = t.val * 256 + p.val; rw [e0]; omega
  | ⟨1, _⟩ => show win1_3.index t (1 : Fin 2) * 4096 + 1 * j.val = j.val; rw [e1]; omega

/-- The output bias's tile at row `p` is the column at row `t · 256 + p`. -/
theorem bias_tile_apply (c : Dev nD) (t : Fin cfg1.N) (p : Fin 256) (u : Fin 1) :
    (iblk1 V c 4 t : Vec Ideal S256x1 .f32) (ix2 p u)
      = (V c (Pipeline.arrRef spec1 4) : S4096x1.Idx → EReal) (ix2 (tileRow t p) u) := by
  obtain ⟨-, -, -, -, ⟨e0, e1⟩, -⟩ := tile_index t
  show V c (Pipeline.arrRef spec1 4) (((cfg1.win 4).blk t).view.emb (ix2 p u)) = _
  refine congrArg _ (funext fun a => Fin.ext ?_)
  match a with
  | ⟨0, _⟩ => show win1_4.index t (0 : Fin 2) * 256 + 1 * p.val = t.val * 256 + p.val; rw [e0]; omega
  | ⟨1, _⟩ => show win1_4.index t (1 : Fin 2) * 1 + 1 * u.val = u.val; rw [e1]; omega

/-- The key row is given whole at every point. -/
theorem key_row_eq (c : Dev nD) (t : Fin cfg1.N) :
    (iblk1 V c 2 t : Vec Ideal S1x4096 .f32) = (V c (Pipeline.arrRef spec1 2) : S1x4096.Idx → EReal) := by
  obtain ⟨-, -, ⟨e0, e1⟩, -⟩ := tile_index t
  funext y
  show V c (Pipeline.arrRef spec1 2) (((cfg1.win 2).blk t).view.emb y) = _
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 4096 + 1 * (y 1).val = (y 1).val; rw [e1]; omega

/-- The input row is given whole at every point. -/
theorem input_row_eq (c : Dev nD) (t : Fin cfg1.N) :
    (iblk1 V c 5 t : Vec Ideal S1x4096 .f32) = (V c (Pipeline.arrRef spec1 5) : S1x4096.Idx → EReal) := by
  obtain ⟨-, -, -, -, -, ⟨e0, e1⟩, -⟩ := tile_index t
  funext y
  show V c (Pipeline.arrRef spec1 5) (((cfg1.win 5).blk t).view.emb y) = _
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 4096 + 1 * (y 1).val = (y 1).val; rw [e1]; omega

/-- The query row is given whole at every point. -/
theorem query_row_eq (c : Dev nD) (t : Fin cfg1.N) :
    (iblk1 V c 6 t : Vec Ideal S1x4096 .f32) = (V c (Pipeline.arrRef spec1 6) : S1x4096.Idx → EReal) := by
  obtain ⟨-, -, -, -, -, -, ⟨e0, e1⟩, -⟩ := tile_index t
  funext y
  show V c (Pipeline.arrRef spec1 6) (((cfg1.win 6).blk t).view.emb y) = _
  refine congrArg _ (funext fun a => Fin.ext ?_)
  match a with
  | ⟨0, _⟩ => show win1_6.index t (0 : Fin 2) * 1 + 1 * (y 0).val = (y 0).val; rw [e0]; omega
  | ⟨1, _⟩ => show win1_6.index t (1 : Fin 2) * 4096 + 1 * (y 1).val = (y 1).val; rw [e1]; omega

/-- The input gate is given whole at every point. -/
theorem in_gate_eq (c : Dev nD) (t : Fin cfg1.N) :
    (iblk1 V c 7 t : Vec Ideal S1x1 .f32) = (V c (Pipeline.arrRef spec1 7) : S1x1.Idx → EReal) := by
  obtain ⟨-, -, -, -, -, -, -, ⟨e0, e1⟩, -⟩ := tile_index t
  funext y
  show V c (Pipeline.arrRef spec1 7) (((cfg1.win 7).blk t).view.emb y) = _
  refine congrArg _ (funext fun a => Fin.ext ?_)
  match a with
  | ⟨0, _⟩ => show win1_7.index t (0 : Fin 2) * 1 + 1 * (y 0).val = (y 0).val; rw [e0]; omega
  | ⟨1, _⟩ => show win1_7.index t (1 : Fin 2) * 1 + 1 * (y 1).val = (y 1).val; rw [e1]; omega

/-- The forget gate is given whole at every point. -/
theorem forget_gate_eq (c : Dev nD) (t : Fin cfg1.N) :
    (iblk1 V c 8 t : Vec Ideal S1x1 .f32) = (V c (Pipeline.arrRef spec1 8) : S1x1.Idx → EReal) := by
  obtain ⟨-, -, -, -, -, -, -, -, ⟨e0, e1⟩, -⟩ := tile_index t
  funext y
  show V c (Pipeline.arrRef spec1 8) (((cfg1.win 8).blk t).view.emb y) = _
  refine congrArg _ (funext fun a => Fin.ext ?_)
  match a with
  | ⟨0, _⟩ => show win1_8.index t (0 : Fin 2) * 1 + 1 * (y 0).val = (y 0).val; rw [e0]; omega
  | ⟨1, _⟩ => show win1_8.index t (1 : Fin 2) * 1 + 1 * (y 1).val = (y 1).val; rw [e1]; omega

/-- The stabiliser is given whole at every point. -/
theorem den_eq (c : Dev nD) (t : Fin cfg1.N) :
    (iblk1 V c 9 t : Vec Ideal S1x1 .f32) = (V c (Pipeline.arrRef spec1 9) : S1x1.Idx → EReal) := by
  obtain ⟨-, -, -, -, -, -, -, -, -, ⟨e0, e1⟩, -⟩ := tile_index t
  funext y
  show V c (Pipeline.arrRef spec1 9) (((cfg1.win 9).blk t).view.emb y) = _
  refine congrArg _ (funext fun a => Fin.ext ?_)
  match a with
  | ⟨0, _⟩ => show win1_9.index t (0 : Fin 2) * 1 + 1 * (y 0).val = (y 0).val; rw [e0]; omega
  | ⟨1, _⟩ => show win1_9.index t (1 : Fin 2) * 1 + 1 * (y 1).val = (y 1).val; rw [e1]; omega

/-! ## What the body leaves in its two output tiles, entry by entry -/

/-- The next-state tile the body stores, at `(p, j)`. -/
theorem out_ct_apply (x0 : Vec Ideal S256x4096 .f32) (x1 : Vec Ideal S256x1 .f32) (x2 : Vec Ideal S1x4096 .f32)
    (x3 : Vec Ideal S256x4096 .f32) (x4 : Vec Ideal S256x1 .f32) (x5 x6 : Vec Ideal S1x4096 .f32)
    (x7 x8 x9 : Vec Ideal S1x1 .f32) (p : Fin 256) (j : Fin 4096) :
    out1_10 x0 x1 x2 x3 x4 x5 x6 x7 x8 x9 (ix2 p j)
      = x8 (ix2 0 0) * x0 (ix2 p j) + x7 (ix2 0 0) * (x1 (ix2 p 0) * x2 (ix2 0 j)) := by
  unfold out1_10
  rw [View.canon_unit_zero zero_offsets]
  simp only [View.ld_unit_zero (S := S256x4096) zero_offsets, View.ld_unit_zero (S := S256x1) zero_offsets,
    View.ld_unit_zero (S := S1x4096) zero_offsets, View.ld_unit_zero (S := S1x1) zero_offsets]
  exact ct_tile_apply x8 x7 x0 x1 x2 p j

/-- The output tile the body stores, at row `p`. -/
theorem out_h_apply (x0 : Vec Ideal S256x4096 .f32) (x1 : Vec Ideal S256x1 .f32) (x2 : Vec Ideal S1x4096 .f32)
    (x3 : Vec Ideal S256x4096 .f32) (x4 : Vec Ideal S256x1 .f32) (x5 x6 : Vec Ideal S1x4096 .f32)
    (x7 x8 x9 : Vec Ideal S1x1 .f32) (p : Fin 256) (u : Fin 1) :
    out1_11 x0 x1 x2 x3 x4 x5 x6 x7 x8 x9 (ix2 p u)
      = Ideal.logistic ((∑ j : Fin 4096, x3 (ix2 p j) * x5 (ix2 0 j)) + x4 (ix2 p u))
        * Ideal.div (∑ j : Fin 4096, (x8 (ix2 0 0) * x0 (ix2 p j) + x7 (ix2 0 0) * (x1 (ix2 p 0) * x2 (ix2 0 j))) * x6 (ix2 0 j))
            (x9 (ix2 0 0)) := by
  unfold out1_11
  rw [View.canon_unit_zero zero_offsets]
  simp only [View.ld_unit_zero (S := S256x4096) zero_offsets, View.ld_unit_zero (S := S256x1) zero_offsets,
    View.ld_unit_zero (S := S1x4096) zero_offsets, View.ld_unit_zero (S := S1x1) zero_offsets]
  rw [h_tile_apply, gate_tile_apply, readout_tile_apply, den_apply]

/-! ## The two result arrays at an index -/

/-- The next matrix state at `(r, j)`. -/
theorem ctArr_apply (C : Cert.MLstm.SMat.Idx → EReal) (v : Cert.MLstm.SCol.Idx → EReal) (kr : Cert.MLstm.SRow.Idx → EReal)
    (ig fg : Cert.MLstm.Arr.SOneOne.Idx → EReal) (r j : Fin 4096) :
    Cert.MLstm.Arr.ctArr C v kr ig fg (ix2 r j)
      = fg (ix2 0 0) * C (ix2 r j) + ig (ix2 0 0) * (v (ix2 r 0) * kr (ix2 0 j)) := rfl

/-- The output column at row `r`. -/
theorem hArr_apply (C : Cert.MLstm.SMat.Idx → EReal) (v : Cert.MLstm.SCol.Idx → EReal) (kr : Cert.MLstm.SRow.Idx → EReal)
    (wo : Cert.MLstm.SMat.Idx → EReal) (bo : Cert.MLstm.SCol.Idx → EReal) (xr qr : Cert.MLstm.SRow.Idx → EReal)
    (ig fg dn : Cert.MLstm.Arr.SOneOne.Idx → EReal) (r : Fin 4096) (u : Fin 1) :
    Cert.MLstm.Arr.hArr C v kr wo bo xr qr ig fg dn (ix2 r u)
      = Ideal.logistic ((∑ j : Fin 4096, wo (ix2 r j) * xr (ix2 0 j)) + bo (ix2 r 0))
        * Ideal.div (∑ j : Fin 4096, (fg (ix2 0 0) * C (ix2 r j) + ig (ix2 0 0) * (v (ix2 r 0) * kr (ix2 0 j))) * qr (ix2 0 j))
            (dn (ix2 0 0)) := rfl

/-- The output tile's entry from the tiles' entries: if the row-tiled operands' tiles read the arrays at row `r`
    and the whole operands are the arrays, the stored entry at row `p` is the output column's at row `r`. -/
theorem h_entry (x0 : Vec Ideal S256x4096 .f32) (x1 : Vec Ideal S256x1 .f32) (x2 : Vec Ideal S1x4096 .f32)
    (x3 : Vec Ideal S256x4096 .f32) (x4 : Vec Ideal S256x1 .f32) (x5 x6 : Vec Ideal S1x4096 .f32)
    (x7 x8 x9 : Vec Ideal S1x1 .f32)
    (C : Cert.MLstm.SMat.Idx → EReal) (v : Cert.MLstm.SCol.Idx → EReal) (kr : Cert.MLstm.SRow.Idx → EReal)
    (wo : Cert.MLstm.SMat.Idx → EReal) (bo : Cert.MLstm.SCol.Idx → EReal) (xr qr : Cert.MLstm.SRow.Idx → EReal)
    (ig fg dn : Cert.MLstm.Arr.SOneOne.Idx → EReal) (p : Fin 256) (u : Fin 1) (r : Fin 4096)
    (h0 : ∀ j : Fin 4096, x0 (ix2 p j) = C (ix2 r j)) (h1 : x1 (ix2 p 0) = v (ix2 r 0)) (h2 : x2 = kr)
    (h3 : ∀ j : Fin 4096, x3 (ix2 p j) = wo (ix2 r j)) (h4 : x4 (ix2 p u) = bo (ix2 r u)) (h5 : x5 = xr) (h6 : x6 = qr)
    (h7 : x7 = ig) (h8 : x8 = fg) (h9 : x9 = dn) :
    out1_11 x0 x1 x2 x3 x4 x5 x6 x7 x8 x9 (ix2 p u)
      = Cert.MLstm.Arr.hArr C v kr wo bo xr qr ig fg dn (ix2 r u) := by
  obtain rfl : u = 0 := Subsingleton.elim u 0
  subst h2 h5 h6 h7 h8 h9
  rw [out_h_apply, hArr_apply, h1, h4]
  simp only [h0, h3]

/-- The next-state tile's entry from the tiles' entries, in the same way. -/
theorem ct_entry (x0 : Vec Ideal S256x4096 .f32) (x1 : Vec Ideal S256x1 .f32) (x2 : Vec Ideal S1x4096 .f32)
    (x3 : Vec Ideal S256x4096 .f32) (x4 : Vec Ideal S256x1 .f32) (x5 x6 : Vec Ideal S1x4096 .f32)
    (x7 x8 x9 : Vec Ideal S1x1 .f32)
    (C : Cert.MLstm.SMat.Idx → EReal) (v : Cert.MLstm.SCol.Idx → EReal) (kr : Cert.MLstm.SRow.Idx → EReal)
    (ig fg : Cert.MLstm.Arr.SOneOne.Idx → EReal) (p : Fin 256) (r j : Fin 4096)
    (h0 : x0 (ix2 p j) = C (ix2 r j)) (h1 : x1 (ix2 p 0) = v (ix2 r 0)) (h2 : x2 = kr) (h7 : x7 = ig) (h8 : x8 = fg) :
    out1_10 x0 x1 x2 x3 x4 x5 x6 x7 x8 x9 (ix2 p j) = Cert.MLstm.Arr.ctArr C v kr ig fg (ix2 r j) := by
  subst h2 h7 h8
  rw [out_ct_apply, ctArr_apply, h0, h1]

/-! ## From the tiles to the arrays -/

/-- Where entry `(p, j)` of the next state's tile `t` sits in its array. -/
theorem ct_tile_emb (t : Fin cfg1.N) (p : Fin 256) (j : Fin 4096) :
    (((cfg1.win 10).blk t).view.emb (ix2 p j) : S4096x4096.Idx) = ix2 (tileRow t p) j := by
  obtain ⟨-, -, -, -, -, -, -, -, -, -, ⟨e0, e1⟩, -⟩ := tile_index t
  refine funext fun a => Fin.ext ?_
  match a with
  | ⟨0, _⟩ => show win1_10.index t (0 : Fin 2) * 256 + 1 * p.val = t.val * 256 + p.val; rw [e0]; omega
  | ⟨1, _⟩ => show win1_10.index t (1 : Fin 2) * 4096 + 1 * j.val = j.val; rw [e1]; omega

/-- Where row `p` of the output's tile `t` sits in its column. -/
theorem h_tile_emb (t : Fin cfg1.N) (p : Fin 256) (u : Fin 1) :
    (((cfg1.win 11).blk t).view.emb (ix2 p u) : S4096x1.Idx) = ix2 (tileRow t p) u := by
  obtain ⟨-, -, -, -, -, -, -, -, -, -, -, ⟨e0, e1⟩⟩ := tile_index t
  refine funext fun a => Fin.ext ?_
  match a with
  | ⟨0, _⟩ => show win1_11.index t (0 : Fin 2) * 256 + 1 * p.val = t.val * 256 + p.val; rw [e0]; omega
  | ⟨1, _⟩ => show win1_11.index t (1 : Fin 2) * 1 + 1 * u.val = u.val; rw [e1]; omega

set_option maxHeartbeats 1000000 in
/-- What point `t` writes back to the next state's array is tile `t` of the next state. -/
theorem flushed_ct (c : Dev nD) (t : Fin cfg1.N) :
    (dat1 (F := Ideal) V c).flushed 10 t
      = ((cfg1.win 10).blk t).view.read (Elt Ideal) (Cert.MLstm.Arr.ctArr (V c (Pipeline.arrRef spec1 0)) (V c (Pipeline.arrRef spec1 1)) (V c (Pipeline.arrRef spec1 2)) (V c (Pipeline.arrRef spec1 7)) (V c (Pipeline.arrRef spec1 8))) := by
  show (cfg1.win 10).cut (grid1.coords t) ((dat1 V c).after 10 t) = _
  rw [after1_10]
  funext y
  obtain ⟨p, j, rfl⟩ : ∃ (p : Fin 256) (j : Fin 4096), y = ix2 p j := ⟨y 0, y 1, eq_ix2 y⟩
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 p j)
    = Cert.MLstm.Arr.ctArr (V c (Pipeline.arrRef spec1 0)) (V c (Pipeline.arrRef spec1 1)) (V c (Pipeline.arrRef spec1 2)) (V c (Pipeline.arrRef spec1 7)) (V c (Pipeline.arrRef spec1 8)) (((cfg1.win 10).blk t).view.emb (ix2 p j))
  rw [ct_tile_emb]
  exact ct_entry _ _ _ _ _ _ _ _ _ _ _ _ _ _ _ p (tileRow t p) j (state_tile_apply V c t p j) (value_tile_apply V c t p 0)
    (key_row_eq V c t) (in_gate_eq V c t) (forget_gate_eq V c t)

set_option maxHeartbeats 1000000 in
/-- What point `t` writes back to the output column is tile `t` of the output. -/
theorem flushed_h (c : Dev nD) (t : Fin cfg1.N) :
    (dat1 (F := Ideal) V c).flushed 11 t
      = ((cfg1.win 11).blk t).view.read (Elt Ideal) (Cert.MLstm.Arr.hArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9))) := by
  show (cfg1.win 11).cut (grid1.coords t) ((dat1 V c).after 11 t) = _
  rw [after1_11]
  funext y
  obtain ⟨p, u, rfl⟩ : ∃ (p : Fin 256) (u : Fin 1), y = ix2 p u := ⟨y 0, y 1, eq_ix2 y⟩
  show out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 p u)
    = Cert.MLstm.Arr.hArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (((cfg1.win 11).blk t).view.emb (ix2 p u))
  rw [h_tile_emb]
  exact h_entry _ _ _ _ _ _ _ _ _ _ _ _ _ _ _ _ _ _ _ _ p u (tileRow t p) (state_tile_apply V c t p) (value_tile_apply V c t p 0)
    (key_row_eq V c t) (weight_tile_apply V c t p) (bias_tile_apply V c t p u) (input_row_eq V c t) (query_row_eq V c t)
    (in_gate_eq V c t) (forget_gate_eq V c t) (den_eq V c t)

/-- An index of the next state's array is in tile `t` iff each coordinate is in the tile's range on its axis. -/
theorem mem_ct_tile (t : Fin cfg1.N) (i : S4096x4096.Idx) :
    i ∈ ((cfg1.win 10).blk t).view.set
      ↔ ∀ a : Fin 2, win1_10.index t a * S256x4096.size a ≤ (i a).val
          ∧ (i a).val < win1_10.index t a * S256x4096.size a + S256x4096.size a := by
  show i ∈ ((View.whole main_v33_0).slice (win1_10.rect t)).set ↔ _
  rw [View.set_slice_whole, Rect.mem_set_unit]
  exact Iff.rfl

/-- An index of the output column is in tile `t` iff each coordinate is in the tile's range on its axis. -/
theorem mem_h_tile (t : Fin cfg1.N) (i : S4096x1.Idx) :
    i ∈ ((cfg1.win 11).blk t).view.set
      ↔ ∀ a : Fin 2, win1_11.index t a * S256x1.size a ≤ (i a).val
          ∧ (i a).val < win1_11.index t a * S256x1.size a + S256x1.size a := by
  show i ∈ ((View.whole main_v33_1).slice (win1_11.rect t)).set ↔ _
  rw [View.set_slice_whole, Rect.mem_set_unit]
  exact Iff.rfl

/-- The grid point whose tiles hold row `r`: `r / 256`. -/
theorem point_of_row_lt (r : Nat) (h : r < 4096) : r / 256 < cfg1.N := by
  show r / 256 < grid1.N
  rw [N_1]
  omega

/-- The sixteen tiles of 256 rows cover the next state's array. -/
theorem cover_ct (i : S4096x4096.Idx) :
    ∃ t : Fin cfg1.N, (cfg1.win 10).flush t = true ∧ i ∈ ((cfg1.win 10).blk t).view.set := by
  have hi0 : (i 0).val < 4096 := (i 0).isLt
  have hi1 : (i 1).val < 4096 := (i 1).isLt
  obtain ⟨-, -, -, -, -, -, -, -, -, -, ⟨e0, e1⟩, -⟩ := tile_index ⟨(i 0).val / 256, point_of_row_lt _ hi0⟩
  refine ⟨⟨(i 0).val / 256, point_of_row_lt _ hi0⟩, flush1_10 _, ?_⟩
  rw [mem_ct_tile]
  intro a
  match a with
  | ⟨0, _⟩ =>
    show win1_10.index ⟨(i 0).val / 256, point_of_row_lt _ hi0⟩ (0 : Fin 2) * 256 ≤ (i 0).val
      ∧ (i 0).val < win1_10.index ⟨(i 0).val / 256, point_of_row_lt _ hi0⟩ (0 : Fin 2) * 256 + 256
    rw [e0]
    show (i 0).val / 256 * 256 ≤ (i 0).val ∧ (i 0).val < (i 0).val / 256 * 256 + 256
    omega
  | ⟨1, _⟩ =>
    show win1_10.index ⟨(i 0).val / 256, point_of_row_lt _ hi0⟩ (1 : Fin 2) * 4096 ≤ (i 1).val
      ∧ (i 1).val < win1_10.index ⟨(i 0).val / 256, point_of_row_lt _ hi0⟩ (1 : Fin 2) * 4096 + 4096
    rw [e1]
    omega

/-- The sixteen tiles of 256 rows cover the output column. -/
theorem cover_h (i : S4096x1.Idx) :
    ∃ t : Fin cfg1.N, (cfg1.win 11).flush t = true ∧ i ∈ ((cfg1.win 11).blk t).view.set := by
  have hi0 : (i 0).val < 4096 := (i 0).isLt
  have hi1 : (i 1).val < 1 := (i 1).isLt
  obtain ⟨-, -, -, -, -, -, -, -, -, -, -, ⟨e0, e1⟩⟩ := tile_index ⟨(i 0).val / 256, point_of_row_lt _ hi0⟩
  refine ⟨⟨(i 0).val / 256, point_of_row_lt _ hi0⟩, flush1_11 _, ?_⟩
  rw [mem_h_tile]
  intro a
  match a with
  | ⟨0, _⟩ =>
    show win1_11.index ⟨(i 0).val / 256, point_of_row_lt _ hi0⟩ (0 : Fin 2) * 256 ≤ (i 0).val
      ∧ (i 0).val < win1_11.index ⟨(i 0).val / 256, point_of_row_lt _ hi0⟩ (0 : Fin 2) * 256 + 256
    rw [e0]
    show (i 0).val / 256 * 256 ≤ (i 0).val ∧ (i 0).val < (i 0).val / 256 * 256 + 256
    omega
  | ⟨1, _⟩ =>
    show win1_11.index ⟨(i 0).val / 256, point_of_row_lt _ hi0⟩ (1 : Fin 2) * 1 ≤ (i 1).val
      ∧ (i 1).val < win1_11.index ⟨(i 0).val / 256, point_of_row_lt _ hi0⟩ (1 : Fin 2) * 1 + 1
    rw [e1]
    omega

/-- After the region the next state's array holds `f·c + i·(v kᵀ)` of the arrays the region was entered with. -/
theorem final_ct (c : Dev nD) :
    (dat1 (F := Ideal) V c).arrAt 10 cfg1.N = Cert.MLstm.Arr.ctArr (V c (Pipeline.arrRef spec1 0)) (V c (Pipeline.arrRef spec1 1)) (V c (Pipeline.arrRef spec1 2)) (V c (Pipeline.arrRef spec1 7)) (V c (Pipeline.arrRef spec1 8)) :=
  (dat1 V c).arrAt_eq_of_cover 10 _ (fun t _ => flushed_ct V c t) cover_ct

/-- After the region the output column holds the gated, stabilised read-out of the next state. -/
theorem final_h (c : Dev nD) :
    (dat1 (F := Ideal) V c).arrAt 11 cfg1.N = Cert.MLstm.Arr.hArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) :=
  (dat1 V c).arrAt_eq_of_cover 11 _ (fun t _ => flushed_h V c t) cover_h

end Cert.KernelIdeal.Cth1

end
-- ==== Proof.Cth3.lean ====
/-
  The second layer's state update, tile by tile, as two arrays.

  The grid has sixteen points; point `t` is given rows `256 t … 256 t + 255` of the old matrix state `c`, of the
  value column `v`, of the output weights `w_o` and of the output bias `b_o`, and the whole of the key row `k`,
  the input row `x`, the query row `q`, the two gates `i`, `f` and the stabiliser `d`.  It leaves

      c'(r, j) = f · c(r, j) + i · (v(r) · k(j)),
      h(r)     = σ (Σ_j w_o(r, j) · x(j) + b_o(r)) · ((Σ_j c'(r, j) · q(j)) / d)

  on its rows.  Every row lies in exactly one tile, so after the sixteen points the two output arrays hold `c'`
  and `h` as functions of the arrays the stage was entered with.  Only the definitions of the operations, the
  reading of a broadcast, a cast or a row sum at an index, and the arithmetic `r = 256 t + p` are used: nothing
  asks the entries to be finite.
-/
import proofs.«164411_j62654982914536_2_alg».proof.Proof.Gen.KernelIdeal.Frame
import proofs.«164411_j62654982914536_2_alg».proof.Proof.LibRowBlocks
import proofs.«164411_j62654982914536_2_alg».proof.Proof.Arrays
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Cth3

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an index -/

/-- The one entry of a `[1, 1]` block. -/
theorem extract_one (x : Vec Ideal S1x1 .f32) (h : ∀ a, (![0, 0] : Fin 2 → Nat) a < S1x1.size a) :
    extractAt ![0, 0] x h = x (ix2 0 0) :=
  congrArg x (funext fun a => Fin.ext (by
    match a with
    | ⟨0, _⟩ => rfl
    | ⟨1, _⟩ => rfl))

/-- The stabiliser the tile divides by is the one entry of its block. -/
theorem den_apply (d : Vec Ideal S1x1 .f32) : k3_pay2 d = d (ix2 0 0) := by
  unfold k3_pay2
  exact extract_one d _

/-- The tile of the next matrix state at `(p, j)`: the forget gate times the old state, plus the input gate times
    the value at row `p` times the key at column `j`. -/
theorem ct_tile_apply (f i : Vec Ideal S1x1 .f32) (C : Vec Ideal S256x4096 .f32) (v : Vec Ideal S256x1 .f32)
    (k : Vec Ideal S1x4096 .f32) (p : Fin 256) (j : Fin 4096) :
    k3_pay3 f i C v k (ix2 p j)
      = f (ix2 0 0) * C (ix2 p j) + i (ix2 0 0) * (v (ix2 p 0) * k (ix2 0 j)) := by
  unfold k3_pay3
  simp only [addf_apply, mulf_apply, broadcast_apply, shapeCast_self]
  rw [Cert.RowBlocks.broadcastTo_col_apply, broadcastTo_1b_ab_apply, extract_one f, extract_one i]

/-- The read-out of the tile against the query row: at row `p`, the sum over the columns of the next state's
    entry times the query's. -/
theorem readout_tile_apply (f i : Vec Ideal S1x1 .f32) (C : Vec Ideal S256x4096 .f32) (v : Vec Ideal S256x1 .f32)
    (k q : Vec Ideal S1x4096 .f32) (p : Fin 256) (u : Fin 1) :
    k3_pay4 f i C v k q (ix2 p u)
      = ∑ j : Fin 4096, (f (ix2 0 0) * C (ix2 p j) + i (ix2 0 0) * (v (ix2 p 0) * k (ix2 0 j))) * q (ix2 0 j) := by
  unfold k3_pay4
  simp only [shapeCast_self]
  refine (Cert.RowBlocks.shapeCast_col_apply _ _ p u).trans ?_
  refine (Cert.RowBlocks.rowSum_apply _ _ _ _ p).trans ?_
  refine Finset.sum_congr rfl fun j _ => ?_
  rw [mulf_apply, ct_tile_apply, broadcastTo_1b_ab_apply]

/-- The output gate's pre-activation without its bias: at row `p`, the row of the weight tile against the input row. -/
theorem gate_tile_apply (W : Vec Ideal S256x4096 .f32) (x : Vec Ideal S1x4096 .f32) (p : Fin 256) (u : Fin 1) :
    k3_pay5 W x (ix2 p u) = ∑ j : Fin 4096, W (ix2 p j) * x (ix2 0 j) := by
  unfold k3_pay5
  simp only [shapeCast_self]
  refine (Cert.RowBlocks.shapeCast_col_apply _ _ p u).trans ?_
  refine (Cert.RowBlocks.rowSum_apply _ _ _ _ p).trans ?_
  refine Finset.sum_congr rfl fun j _ => ?_
  rw [mulf_apply, broadcastTo_1b_ab_apply]

/-- The output tile, entry by entry: the gate's logistic times the read-out over the stabiliser. -/
theorem h_tile_apply (d : Ideal .f32) (raw pre : FVec Ideal S256x1 .f32) (b : Vec Ideal S256x1 .f32) (y : S256x1.Idx) :
    k3_pay1 d raw pre b y = Ideal.logistic (pre y + b y) * Ideal.div (raw y) d := rfl

/-! ## The tiles the body is given, read off the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the sixteen grid points: a row-tiled window's block index is the point's
    number on the row axis and zero on the column axis; a window over a whole array stays at block zero. -/
theorem tile_index : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = t.val ∧ win3_3.index t (1 : Fin 2) = 0)
    ∧ (win3_4.index t (0 : Fin 2) = t.val ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = t.val ∧ win3_10.index t (1 : Fin 2) = 0)
    ∧ (win3_11.index t (0 : Fin 2) = t.val ∧ win3_11.index t (1 : Fin 2) = 0) :=
  (by decide +kernel : ∀ t : Fin grid3.N, _)

/-- Row `p` of row tile `t` is row `t · 256 + p` of the array. -/
theorem tile_row_lt (t : Fin cfg3.N) (p : Fin 256) : t.val * 256 + p.val < 4096 := by
  have hN : grid3.N = 16 := N_3
  have ht : t.val < grid3.N := t.isLt
  have hp := p.isLt
  omega

/-- The row of the array that row `p` of tile `t` is. -/
abbrev tileRow (t : Fin cfg3.N) (p : Fin 256) : Fin 4096 := ⟨t.val * 256 + p.val, tile_row_lt t p⟩

/-- The old matrix state's tile at `(p, j)` is the array at `(t · 256 + p, j)`. -/
theorem state_tile_apply (c : Dev nD) (t : Fin cfg3.N) (p : Fin 256) (j : Fin 4096) :
    (iblk3 V c 0 t : Vec Ideal S256x4096 .f32) (ix2 p j)
      = (V c (Pipeline.arrRef spec3 0) : S4096x4096.Idx → EReal) (ix2 (tileRow t p) j) := by
  obtain ⟨⟨e0, e1⟩, -⟩ := tile_index t
  show V c (Pipeline.arrRef spec3 0) (((cfg3.win 0).blk t).view.emb (ix2 p j)) = _
  refine congrArg _ (funext fun a => Fin.ext ?_)
  match a with
  | ⟨0, _⟩ => show win3_0.index t (0 : Fin 2) * 256 + 1 * p.val = t.val * 256 + p.val; rw [e0]; omega
  | ⟨1, _⟩ => show win3_0.index t (1 : Fin 2) * 4096 + 1 * j.val = j.val; rw [e1]; omega

/-- The value column's tile at row `p` is the column at row `t · 256 + p`. -/
theorem value_tile_apply (c : Dev nD) (t : Fin cfg3.N) (p : Fin 256) (u : Fin 1) :
    (iblk3 V c 1 t : Vec Ideal S256x1 .f32) (ix2 p u)
      = (V c (Pipeline.arrRef spec3 1) : S4096x1.Idx → EReal) (ix2 (tileRow t p) u) := by
  obtain ⟨-, ⟨e0, e1⟩, -⟩ := tile_index t
  show V c (Pipeline.arrRef spec3 1) (((cfg3.win 1).blk t).view.emb (ix2 p u)) = _
  refine congrArg _ (funext fun a => Fin.ext ?_)
  match a with
  | ⟨0, _⟩ => show win3_1.index t (0 : Fin 2) * 256 + 1 * p.val = t.val * 256 + p.val; rw [e0]; omega
  | ⟨1, _⟩ => show win3_1.index t (1 : Fin 2) * 1 + 1 * u.val = u.val; rw [e1]; omega

/-- The output weights' tile at `(p, j)` is the array at `(t · 256 + p, j)`. -/
theorem weight_tile_apply (c : Dev nD) (t : Fin cfg3.N) (p : Fin 256) (j : Fin 4096) :
    (iblk3 V c 3 t : Vec Ideal S256x4096 .f32) (ix2 p j)
      = (V c (Pipeline.arrRef spec3 3) : S4096x4096.Idx → EReal) (ix2 (tileRow t p) j) := by
  obtain ⟨-, -, -, ⟨e0, e1⟩, -⟩ := tile_index t
  show V c (Pipeline.arrRef spec3 3) (((cfg3.win 3).blk t).view.emb (ix2 p j)) = _
  refine congrArg _ (funext fun a => Fin.ext ?_)
  match a with
  | ⟨0, _⟩ => show win3_3.index t (0 : Fin 2) * 256 + 1 * p.val = t.val * 256 + p.val; rw [e0]; omega
  | ⟨1, _⟩ => show win3_3.index t (1 : Fin 2) * 4096 + 1 * j.val = j.val; rw [e1]; omega

/-- The output bias's tile at row `p` is the column at row `t · 256 + p`. -/
theorem bias_tile_apply (c : Dev nD) (t : Fin cfg3.N) (p : Fin 256) (u : Fin 1) :
    (iblk3 V c 4 t : Vec Ideal S256x1 .f32) (ix2 p u)
      = (V c (Pipeline.arrRef spec3 4) : S4096x1.Idx → EReal) (ix2 (tileRow t p) u) := by
  obtain ⟨-, -, -, -, ⟨e0, e1⟩, -⟩ := tile_index t
  show V c (Pipeline.arrRef spec3 4) (((cfg3.win 4).blk t).view.emb (ix2 p u)) = _
  refine congrArg _ (funext fun a => Fin.ext ?_)
  match a with
  | ⟨0, _⟩ => show win3_4.index t (0 : Fin 2) * 256 + 1 * p.val = t.val * 256 + p.val; rw [e0]; omega
  | ⟨1, _⟩ => show win3_4.index t (1 : Fin 2) * 1 + 1 * u.val = u.val; rw [e1]; omega

/-- The key row is given whole at every point. -/
theorem key_row_eq (c : Dev nD) (t : Fin cfg3.N) :
    (iblk3 V c 2 t : Vec Ideal S1x4096 .f32) = (V c (Pipeline.arrRef spec3 2) : S1x4096.Idx → EReal) := by
  obtain ⟨-, -, ⟨e0, e1⟩, -⟩ := tile_index t
  funext y
  show V c (Pipeline.arrRef spec3 2) (((cfg3.win 2).blk t).view.emb y) = _
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 4096 + 1 * (y 1).val = (y 1).val; rw [e1]; omega

/-- The input row is given whole at every point. -/
theorem input_row_eq (c : Dev nD) (t : Fin cfg3.N) :
    (iblk3 V c 5 t : Vec Ideal S1x4096 .f32) = (V c (Pipeline.arrRef spec3 5) : S1x4096.Idx → EReal) := by
  obtain ⟨-, -, -, -, -, ⟨e0, e1⟩, -⟩ := tile_index t
  funext y
  show V c (Pipeline.arrRef spec3 5) (((cfg3.win 5).blk t).view.emb y) = _
  refine congrArg _ (funext fun a => Fin.ext ?_)
  match a with
  | ⟨0, _⟩ => show win3_5.index t (0 : Fin 2) * 1 + 1 * (y 0).val = (y 0).val; rw [e0]; omega
  | ⟨1, _⟩ => show win3_5.index t (1 : Fin 2) * 4096 + 1 * (y 1).val = (y 1).val; rw [e1]; omega

/-- The query row is given whole at every point. -/
theorem query_row_eq (c : Dev nD) (t : Fin cfg3.N) :
    (iblk3 V c 6 t : Vec Ideal S1x4096 .f32) = (V c (Pipeline.arrRef spec3 6) : S1x4096.Idx → EReal) := by
  obtain ⟨-, -, -, -, -, -, ⟨e0, e1⟩, -⟩ := tile_index t
  funext y
  show V c (Pipeline.arrRef spec3 6) (((cfg3.win 6).blk t).view.emb y) = _
  refine congrArg _ (funext fun a => Fin.ext ?_)
  match a with
  | ⟨0, _⟩ => show win3_6.index t (0 : Fin 2) * 1 + 1 * (y 0).val = (y 0).val; rw [e0]; omega
  | ⟨1, _⟩ => show win3_6.index t (1 : Fin 2) * 4096 + 1 * (y 1).val = (y 1).val; rw [e1]; omega

/-- The input gate is given whole at every point. -/
theorem in_gate_eq (c : Dev nD) (t : Fin cfg3.N) :
    (iblk3 V c 7 t : Vec Ideal S1x1 .f32) = (V c (Pipeline.arrRef spec3 7) : S1x1.Idx → EReal) := by
  obtain ⟨-, -, -, -, -, -, -, ⟨e0, e1⟩, -⟩ := tile_index t
  funext y
  show V c (Pipeline.arrRef spec3 7) (((cfg3.win 7).blk t).view.emb y) = _
  refine congrArg _ (funext fun a => Fin.ext ?_)
  match a with
  | ⟨0, _⟩ => show win3_7.index t (0 : Fin 2) * 1 + 1 * (y 0).val = (y 0).val; rw [e0]; omega
  | ⟨1, _⟩ => show win3_7.index t (1 : Fin 2) * 1 + 1 * (y 1).val = (y 1).val; rw [e1]; omega

/-- The forget gate is given whole at every point. -/
theorem forget_gate_eq (c : Dev nD) (t : Fin cfg3.N) :
    (iblk3 V c 8 t : Vec Ideal S1x1 .f32) = (V c (Pipeline.arrRef spec3 8) : S1x1.Idx → EReal) := by
  obtain ⟨-, -, -, -, -, -, -, -, ⟨e0, e1⟩, -⟩ := tile_index t
  funext y
  show V c (Pipeline.arrRef spec3 8) (((cfg3.win 8).blk t).view.emb y) = _
  refine congrArg _ (funext fun a => Fin.ext ?_)
  match a with
  | ⟨0, _⟩ => show win3_8.index t (0 : Fin 2) * 1 + 1 * (y 0).val = (y 0).val; rw [e0]; omega
  | ⟨1, _⟩ => show win3_8.index t (1 : Fin 2) * 1 + 1 * (y 1).val = (y 1).val; rw [e1]; omega

/-- The stabiliser is given whole at every point. -/
theorem den_eq (c : Dev nD) (t : Fin cfg3.N) :
    (iblk3 V c 9 t : Vec Ideal S1x1 .f32) = (V c (Pipeline.arrRef spec3 9) : S1x1.Idx → EReal) := by
  obtain ⟨-, -, -, -, -, -, -, -, -, ⟨e0, e1⟩, -⟩ := tile_index t
  funext y
  show V c (Pipeline.arrRef spec3 9) (((cfg3.win 9).blk t).view.emb y) = _
  refine congrArg _ (funext fun a => Fin.ext ?_)
  match a with
  | ⟨0, _⟩ => show win3_9.index t (0 : Fin 2) * 1 + 1 * (y 0).val = (y 0).val; rw [e0]; omega
  | ⟨1, _⟩ => show win3_9.index t (1 : Fin 2) * 1 + 1 * (y 1).val = (y 1).val; rw [e1]; omega

/-! ## What the body leaves in its two output tiles, entry by entry -/

/-- The next-state tile the body stores, at `(p, j)`. -/
theorem out_ct_apply (x0 : Vec Ideal S256x4096 .f32) (x1 : Vec Ideal S256x1 .f32) (x2 : Vec Ideal S1x4096 .f32)
    (x3 : Vec Ideal S256x4096 .f32) (x4 : Vec Ideal S256x1 .f32) (x5 x6 : Vec Ideal S1x4096 .f32)
    (x7 x8 x9 : Vec Ideal S1x1 .f32) (p : Fin 256) (j : Fin 4096) :
    out3_10 x0 x1 x2 x3 x4 x5 x6 x7 x8 x9 (ix2 p j)
      = x8 (ix2 0 0) * x0 (ix2 p j) + x7 (ix2 0 0) * (x1 (ix2 p 0) * x2 (ix2 0 j)) := by
  unfold out3_10
  rw [View.canon_unit_zero zero_offsets]
  simp only [View.ld_unit_zero (S := S256x4096) zero_offsets, View.ld_unit_zero (S := S256x1) zero_offsets,
    View.ld_unit_zero (S := S1x4096) zero_offsets, View.ld_unit_zero (S := S1x1) zero_offsets]
  exact ct_tile_apply x8 x7 x0 x1 x2 p j

/-- The output tile the body stores, at row `p`. -/
theorem out_h_apply (x0 : Vec Ideal S256x4096 .f32) (x1 : Vec Ideal S256x1 .f32) (x2 : Vec Ideal S1x4096 .f32)
    (x3 : Vec Ideal S256x4096 .f32) (x4 : Vec Ideal S256x1 .f32) (x5 x6 : Vec Ideal S1x4096 .f32)
    (x7 x8 x9 : Vec Ideal S1x1 .f32) (p : Fin 256) (u : Fin 1) :
    out3_11 x0 x1 x2 x3 x4 x5 x6 x7 x8 x9 (ix2 p u)
      = Ideal.logistic ((∑ j : Fin 4096, x3 (ix2 p j) * x5 (ix2 0 j)) + x4 (ix2 p u))
        * Ideal.div (∑ j : Fin 4096, (x8 (ix2 0 0) * x0 (ix2 p j) + x7 (ix2 0 0) * (x1 (ix2 p 0) * x2 (ix2 0 j))) * x6 (ix2 0 j))
            (x9 (ix2 0 0)) := by
  unfold out3_11
  rw [View.canon_unit_zero zero_offsets]
  simp only [View.ld_unit_zero (S := S256x4096) zero_offsets, View.ld_unit_zero (S := S256x1) zero_offsets,
    View.ld_unit_zero (S := S1x4096) zero_offsets, View.ld_unit_zero (S := S1x1) zero_offsets]
  rw [h_tile_apply, gate_tile_apply, readout_tile_apply, den_apply]

/-! ## The two result arrays at an index -/

/-- The next matrix state at `(r, j)`. -/
theorem ctArr_apply (C : Cert.MLstm.SMat.Idx → EReal) (v : Cert.MLstm.SCol.Idx → EReal) (kr : Cert.MLstm.SRow.Idx → EReal)
    (ig fg : Cert.MLstm.Arr.SOneOne.Idx → EReal) (r j : Fin 4096) :
    Cert.MLstm.Arr.ctArr C v kr ig fg (ix2 r j)
      = fg (ix2 0 0) * C (ix2 r j) + ig (ix2 0 0) * (v (ix2 r 0) * kr (ix2 0 j)) := rfl

/-- The output column at row `r`. -/
theorem hArr_apply (C : Cert.MLstm.SMat.Idx → EReal) (v : Cert.MLstm.SCol.Idx → EReal) (kr : Cert.MLstm.SRow.Idx → EReal)
    (wo : Cert.MLstm.SMat.Idx → EReal) (bo : Cert.MLstm.SCol.Idx → EReal) (xr qr : Cert.MLstm.SRow.Idx → EReal)
    (ig fg dn : Cert.MLstm.Arr.SOneOne.Idx → EReal) (r : Fin 4096) (u : Fin 1) :
    Cert.MLstm.Arr.hArr C v kr wo bo xr qr ig fg dn (ix2 r u)
      = Ideal.logistic ((∑ j : Fin 4096, wo (ix2 r j) * xr (ix2 0 j)) + bo (ix2 r 0))
        * Ideal.div (∑ j : Fin 4096, (fg (ix2 0 0) * C (ix2 r j) + ig (ix2 0 0) * (v (ix2 r 0) * kr (ix2 0 j))) * qr (ix2 0 j))
            (dn (ix2 0 0)) := rfl

/-- The output tile's entry from the tiles' entries: if the row-tiled operands' tiles read the arrays at row `r`
    and the whole operands are the arrays, the stored entry at row `p` is the output column's at row `r`. -/
theorem h_entry (x0 : Vec Ideal S256x4096 .f32) (x1 : Vec Ideal S256x1 .f32) (x2 : Vec Ideal S1x4096 .f32)
    (x3 : Vec Ideal S256x4096 .f32) (x4 : Vec Ideal S256x1 .f32) (x5 x6 : Vec Ideal S1x4096 .f32)
    (x7 x8 x9 : Vec Ideal S1x1 .f32)
    (C : Cert.MLstm.SMat.Idx → EReal) (v : Cert.MLstm.SCol.Idx → EReal) (kr : Cert.MLstm.SRow.Idx → EReal)
    (wo : Cert.MLstm.SMat.Idx → EReal) (bo : Cert.MLstm.SCol.Idx → EReal) (xr qr : Cert.MLstm.SRow.Idx → EReal)
    (ig fg dn : Cert.MLstm.Arr.SOneOne.Idx → EReal) (p : Fin 256) (u : Fin 1) (r : Fin 4096)
    (h0 : ∀ j : Fin 4096, x0 (ix2 p j) = C (ix2 r j)) (h1 : x1 (ix2 p 0) = v (ix2 r 0)) (h2 : x2 = kr)
    (h3 : ∀ j : Fin 4096, x3 (ix2 p j) = wo (ix2 r j)) (h4 : x4 (ix2 p u) = bo (ix2 r u)) (h5 : x5 = xr) (h6 : x6 = qr)
    (h7 : x7 = ig) (h8 : x8 = fg) (h9 : x9 = dn) :
    out3_11 x0 x1 x2 x3 x4 x5 x6 x7 x8 x9 (ix2 p u)
      = Cert.MLstm.Arr.hArr C v kr wo bo xr qr ig fg dn (ix2 r u) := by
  obtain rfl : u = 0 := Subsingleton.elim u 0
  subst h2 h5 h6 h7 h8 h9
  rw [out_h_apply, hArr_apply, h1, h4]
  simp only [h0, h3]

/-- The next-state tile's entry from the tiles' entries, in the same way. -/
theorem ct_entry (x0 : Vec Ideal S256x4096 .f32) (x1 : Vec Ideal S256x1 .f32) (x2 : Vec Ideal S1x4096 .f32)
    (x3 : Vec Ideal S256x4096 .f32) (x4 : Vec Ideal S256x1 .f32) (x5 x6 : Vec Ideal S1x4096 .f32)
    (x7 x8 x9 : Vec Ideal S1x1 .f32)
    (C : Cert.MLstm.SMat.Idx → EReal) (v : Cert.MLstm.SCol.Idx → EReal) (kr : Cert.MLstm.SRow.Idx → EReal)
    (ig fg : Cert.MLstm.Arr.SOneOne.Idx → EReal) (p : Fin 256) (r j : Fin 4096)
    (h0 : x0 (ix2 p j) = C (ix2 r j)) (h1 : x1 (ix2 p 0) = v (ix2 r 0)) (h2 : x2 = kr) (h7 : x7 = ig) (h8 : x8 = fg) :
    out3_10 x0 x1 x2 x3 x4 x5 x6 x7 x8 x9 (ix2 p j) = Cert.MLstm.Arr.ctArr C v kr ig fg (ix2 r j) := by
  subst h2 h7 h8
  rw [out_ct_apply, ctArr_apply, h0, h1]

/-! ## From the tiles to the arrays -/

/-- Where entry `(p, j)` of the next state's tile `t` sits in its array. -/
theorem ct_tile_emb (t : Fin cfg3.N) (p : Fin 256) (j : Fin 4096) :
    (((cfg3.win 10).blk t).view.emb (ix2 p j) : S4096x4096.Idx) = ix2 (tileRow t p) j := by
  obtain ⟨-, -, -, -, -, -, -, -, -, -, ⟨e0, e1⟩, -⟩ := tile_index t
  refine funext fun a => Fin.ext ?_
  match a with
  | ⟨0, _⟩ => show win3_10.index t (0 : Fin 2) * 256 + 1 * p.val = t.val * 256 + p.val; rw [e0]; omega
  | ⟨1, _⟩ => show win3_10.index t (1 : Fin 2) * 4096 + 1 * j.val = j.val; rw [e1]; omega

/-- Where row `p` of the output's tile `t` sits in its column. -/
theorem h_tile_emb (t : Fin cfg3.N) (p : Fin 256) (u : Fin 1) :
    (((cfg3.win 11).blk t).view.emb (ix2 p u) : S4096x1.Idx) = ix2 (tileRow t p) u := by
  obtain ⟨-, -, -, -, -, -, -, -, -, -, -, ⟨e0, e1⟩⟩ := tile_index t
  refine funext fun a => Fin.ext ?_
  match a with
  | ⟨0, _⟩ => show win3_11.index t (0 : Fin 2) * 256 + 1 * p.val = t.val * 256 + p.val; rw [e0]; omega
  | ⟨1, _⟩ => show win3_11.index t (1 : Fin 2) * 1 + 1 * u.val = u.val; rw [e1]; omega

set_option maxHeartbeats 1000000 in
/-- What point `t` writes back to the next state's array is tile `t` of the next state. -/
theorem flushed_ct (c : Dev nD) (t : Fin cfg3.N) :
    (dat3 (F := Ideal) V c).flushed 10 t
      = ((cfg3.win 10).blk t).view.read (Elt Ideal) (Cert.MLstm.Arr.ctArr (V c (Pipeline.arrRef spec3 0)) (V c (Pipeline.arrRef spec3 1)) (V c (Pipeline.arrRef spec3 2)) (V c (Pipeline.arrRef spec3 7)) (V c (Pipeline.arrRef spec3 8))) := by
  show (cfg3.win 10).cut (grid3.coords t) ((dat3 V c).after 10 t) = _
  rw [after3_10]
  funext y
  obtain ⟨p, j, rfl⟩ : ∃ (p : Fin 256) (j : Fin 4096), y = ix2 p j := ⟨y 0, y 1, eq_ix2 y⟩
  show out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (ix2 p j)
    = Cert.MLstm.Arr.ctArr (V c (Pipeline.arrRef spec3 0)) (V c (Pipeline.arrRef spec3 1)) (V c (Pipeline.arrRef spec3 2)) (V c (Pipeline.arrRef spec3 7)) (V c (Pipeline.arrRef spec3 8)) (((cfg3.win 10).blk t).view.emb (ix2 p j))
  rw [ct_tile_emb]
  exact ct_entry _ _ _ _ _ _ _ _ _ _ _ _ _ _ _ p (tileRow t p) j (state_tile_apply V c t p j) (value_tile_apply V c t p 0)
    (key_row_eq V c t) (in_gate_eq V c t) (forget_gate_eq V c t)

set_option maxHeartbeats 1000000 in
/-- What point `t` writes back to the output column is tile `t` of the output. -/
theorem flushed_h (c : Dev nD) (t : Fin cfg3.N) :
    (dat3 (F := Ideal) V c).flushed 11 t
      = ((cfg3.win 11).blk t).view.read (Elt Ideal) (Cert.MLstm.Arr.hArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9))) := by
  show (cfg3.win 11).cut (grid3.coords t) ((dat3 V c).after 11 t) = _
  rw [after3_11]
  funext y
  obtain ⟨p, u, rfl⟩ : ∃ (p : Fin 256) (u : Fin 1), y = ix2 p u := ⟨y 0, y 1, eq_ix2 y⟩
  show out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (ix2 p u)
    = Cert.MLstm.Arr.hArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (((cfg3.win 11).blk t).view.emb (ix2 p u))
  rw [h_tile_emb]
  exact h_entry _ _ _ _ _ _ _ _ _ _ _ _ _ _ _ _ _ _ _ _ p u (tileRow t p) (state_tile_apply V c t p) (value_tile_apply V c t p 0)
    (key_row_eq V c t) (weight_tile_apply V c t p) (bias_tile_apply V c t p u) (input_row_eq V c t) (query_row_eq V c t)
    (in_gate_eq V c t) (forget_gate_eq V c t) (den_eq V c t)

/-- An index of the next state's array is in tile `t` iff each coordinate is in the tile's range on its axis. -/
theorem mem_ct_tile (t : Fin cfg3.N) (i : S4096x4096.Idx) :
    i ∈ ((cfg3.win 10).blk t).view.set
      ↔ ∀ a : Fin 2, win3_10.index t a * S256x4096.size a ≤ (i a).val
          ∧ (i a).val < win3_10.index t a * S256x4096.size a + S256x4096.size a := by
  show i ∈ ((View.whole main_v67_0).slice (win3_10.rect t)).set ↔ _
  rw [View.set_slice_whole, Rect.mem_set_unit]
  exact Iff.rfl

/-- An index of the output column is in tile `t` iff each coordinate is in the tile's range on its axis. -/
theorem mem_h_tile (t : Fin cfg3.N) (i : S4096x1.Idx) :
    i ∈ ((cfg3.win 11).blk t).view.set
      ↔ ∀ a : Fin 2, win3_11.index t a * S256x1.size a ≤ (i a).val
          ∧ (i a).val < win3_11.index t a * S256x1.size a + S256x1.size a := by
  show i ∈ ((View.whole main_v67_1).slice (win3_11.rect t)).set ↔ _
  rw [View.set_slice_whole, Rect.mem_set_unit]
  exact Iff.rfl

/-- The grid point whose tiles hold row `r`: `r / 256`. -/
theorem point_of_row_lt (r : Nat) (h : r < 4096) : r / 256 < cfg3.N := by
  show r / 256 < grid3.N
  rw [N_3]
  omega

/-- The sixteen tiles of 256 rows cover the next state's array. -/
theorem cover_ct (i : S4096x4096.Idx) :
    ∃ t : Fin cfg3.N, (cfg3.win 10).flush t = true ∧ i ∈ ((cfg3.win 10).blk t).view.set := by
  have hi0 : (i 0).val < 4096 := (i 0).isLt
  have hi1 : (i 1).val < 4096 := (i 1).isLt
  obtain ⟨-, -, -, -, -, -, -, -, -, -, ⟨e0, e1⟩, -⟩ := tile_index ⟨(i 0).val / 256, point_of_row_lt _ hi0⟩
  refine ⟨⟨(i 0).val / 256, point_of_row_lt _ hi0⟩, flush3_10 _, ?_⟩
  rw [mem_ct_tile]
  intro a
  match a with
  | ⟨0, _⟩ =>
    show win3_10.index ⟨(i 0).val / 256, point_of_row_lt _ hi0⟩ (0 : Fin 2) * 256 ≤ (i 0).val
      ∧ (i 0).val < win3_10.index ⟨(i 0).val / 256, point_of_row_lt _ hi0⟩ (0 : Fin 2) * 256 + 256
    rw [e0]
    show (i 0).val / 256 * 256 ≤ (i 0).val ∧ (i 0).val < (i 0).val / 256 * 256 + 256
    omega
  | ⟨1, _⟩ =>
    show win3_10.index ⟨(i 0).val / 256, point_of_row_lt _ hi0⟩ (1 : Fin 2) * 4096 ≤ (i 1).val
      ∧ (i 1).val < win3_10.index ⟨(i 0).val / 256, point_of_row_lt _ hi0⟩ (1 : Fin 2) * 4096 + 4096
    rw [e1]
    omega

/-- The sixteen tiles of 256 rows cover the output column. -/
theorem cover_h (i : S4096x1.Idx) :
    ∃ t : Fin cfg3.N, (cfg3.win 11).flush t = true ∧ i ∈ ((cfg3.win 11).blk t).view.set := by
  have hi0 : (i 0).val < 4096 := (i 0).isLt
  have hi1 : (i 1).val < 1 := (i 1).isLt
  obtain ⟨-, -, -, -, -, -, -, -, -, -, -, ⟨e0, e1⟩⟩ := tile_index ⟨(i 0).val / 256, point_of_row_lt _ hi0⟩
  refine ⟨⟨(i 0).val / 256, point_of_row_lt _ hi0⟩, flush3_11 _, ?_⟩
  rw [mem_h_tile]
  intro a
  match a with
  | ⟨0, _⟩ =>
    show win3_11.index ⟨(i 0).val / 256, point_of_row_lt _ hi0⟩ (0 : Fin 2) * 256 ≤ (i 0).val
      ∧ (i 0).val < win3_11.index ⟨(i 0).val / 256, point_of_row_lt _ hi0⟩ (0 : Fin 2) * 256 + 256
    rw [e0]
    show (i 0).val / 256 * 256 ≤ (i 0).val ∧ (i 0).val < (i 0).val / 256 * 256 + 256
    omega
  | ⟨1, _⟩ =>
    show win3_11.index ⟨(i 0).val / 256, point_of_row_lt _ hi0⟩ (1 : Fin 2) * 1 ≤ (i 1).val
      ∧ (i 1).val < win3_11.index ⟨(i 0).val / 256, point_of_row_lt _ hi0⟩ (1 : Fin 2) * 1 + 1
    rw [e1]
    omega

/-- After the region the next state's array holds `f·c + i·(v kᵀ)` of the arrays the region was entered with. -/
theorem final_ct (c : Dev nD) :
    (dat3 (F := Ideal) V c).arrAt 10 cfg3.N = Cert.MLstm.Arr.ctArr (V c (Pipeline.arrRef spec3 0)) (V c (Pipeline.arrRef spec3 1)) (V c (Pipeline.arrRef spec3 2)) (V c (Pipeline.arrRef spec3 7)) (V c (Pipeline.arrRef spec3 8)) :=
  (dat3 V c).arrAt_eq_of_cover 10 _ (fun t _ => flushed_ct V c t) cover_ct

/-- After the region the output column holds the gated, stabilised read-out of the next state. -/
theorem final_h (c : Dev nD) :
    (dat3 (F := Ideal) V c).arrAt 11 cfg3.N = Cert.MLstm.Arr.hArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) :=
  (dat3 V c).arrAt_eq_of_cover 11 _ (fun t _ => flushed_h V c t) cover_h

end Cert.KernelIdeal.Cth3

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«164411_j62654982914536_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.Glue.lean ====
/-
  The host arithmetic between the two pallas calls of a layer.

  From the input row `x`, the gate rows `w_i, w_f` and gate biases, the host forms the two gates

      i = exp ((0 + ∑ j, w_i (0, j) · x (0, j)) + b_i),    f = 1 / (1 + exp (-((0 + ∑ j, w_f (0, j) · x (0, j)) + b_f))),

  each a `[1, 1]` array; from them, the old vector state `n` and the key column `k` the new vector state
  `n' = f·n + i·k`; and from `n'` and the query column `q` the stabiliser `max |0 + ∑ r, n' (r, 0) · q (r, 0)| 1`,
  again a `[1, 1]` array.  The leading zeros are the reductions' starting values.
-/
import proofs.«164411_j62654982914536_2_alg».proof.Proof.Gen.KernelIdeal
import proofs.«164411_j62654982914536_2_alg».proof.Proof.Arrays
import proofs.«164411_j62654982914536_2_alg».proof.Proof.LibHostLayout
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Cert.KernelIdeal.Glue

open Cert.KernelIdeal Cert.KernelIdeal.Gen Idealize.ShloMosaic Idealize.ShloMosaic.ValueIdx

/-- A gate's argument: the gate row against the input row, from a zero start, plus the gate's bias. -/
def pre (w xr : FVec Ideal S1x4096 .f32) (b : FVec Ideal S1 .f32) : FVec Ideal S1x1 .f32 :=
  addf (broadcastInDim S1x1 ![0] bcast_S1_S1x1_0
      (Host.reduceAdd (mulf w xr) (constant (F := Ideal) S_ .f32 0x00000000#32) reducesTo_S1x4096_S1_d1 h_S_))
    (shapeCast S1x1 b shapeCasts_S1_S1x1)

/-- The input gate. -/
def gI (w xr : FVec Ideal S1x4096 .f32) (b : FVec Ideal S1 .f32) : FVec Ideal S1x1 .f32 :=
  Host.exp (pre w xr b)

/-- The forget gate, the logistic function spelt with a negation, an exponential, a sum and a quotient. -/
def gF (w xr : FVec Ideal S1x4096 .f32) (b : FVec Ideal S1 .f32) : FVec Ideal S1x1 .f32 :=
  Host.divf (broadcastInDim S1x1 ![] bcast_S_S1x1 (constant (F := Ideal) S_ .f32 0x3F800000#32))
    (addf (broadcastInDim S1x1 ![] bcast_S_S1x1 (constant (F := Ideal) S_ .f32 0x3F800000#32))
      (Host.exp (Host.negf (pre w xr b))))

/-- The new vector state from the two gates, the old state and the key column. -/
def gN (f i : FVec Ideal S1x1 .f32) (n k : FVec Ideal S4096x1 .f32) : FVec Ideal S4096x1 .f32 :=
  addf (mulf (broadcastInDim S4096x1 ![] bcast_S_S4096x1 (shapeCast S_ f shapeCasts_S1x1_S_)) n)
    (mulf (broadcastInDim S4096x1 ![] bcast_S_S4096x1 (shapeCast S_ i shapeCasts_S1x1_S_)) k)

/-- The stabiliser from the new vector state and the query column. -/
def gD (n q : FVec Ideal S4096x1 .f32) : FVec Ideal S1x1 .f32 :=
  shapeCast S1x1
    (maximumf (Host.absf (Host.reduceAdd (mulf n q) (constant (F := Ideal) S_ .f32 0x00000000#32) reducesTo_S4096x1_S_d0_1 h_S_))
      (constant (F := Ideal) S_ .f32 0x3F800000#32)) shapeCasts_S_S1x1

/-- A `[1, 1]` array has one entry. -/
theorem idx11 (i : S1x1.Idx) : i = ix2 (0 : Fin 1) (0 : Fin 1) := by
  funext a; apply Fin.ext
  match a with
  | ⟨0, _⟩ => have h : (i 0).val < 1 := (i 0).isLt; show (i 0).val = 0; omega
  | ⟨1, _⟩ => have h : (i 1).val < 1 := (i 1).isLt; show (i 1).val = 0; omega

/-- A scalar cast to `[1, 1]`, or a `[1, 1]` array cast to a scalar, keeps its one entry. -/
theorem cast_to_scalar (x : S1x1.Idx → EReal) (j : S_.Idx) :
    shapeCast S_ x shapeCasts_S1x1_S_ j = x (ix2 (0 : Fin 1) (0 : Fin 1)) :=
  shapeCast_apply x shapeCasts_S1x1_S_ j (ix2 (0 : Fin 1) (0 : Fin 1)) (by
    have h1 := (S1x1.rowMajor (ix2 (0 : Fin 1) (0 : Fin 1))).isLt
    have h2 := (S_.rowMajor j).isLt
    have e1 : S1x1.numel = 1 := by decide
    have e2 : S_.numel = 1 := by decide
    omega)

theorem cast_of_scalar (x : S_.Idx → EReal) (i : S1x1.Idx) :
    shapeCast S1x1 x shapeCasts_S_S1x1 i = x ix0 :=
  shapeCast_apply x shapeCasts_S_S1x1 i ix0 (by
    have h1 := (S1x1.rowMajor i).isLt
    have h2 := (S_.rowMajor ix0).isLt
    have e1 : S1x1.numel = 1 := by decide
    have e2 : S_.numel = 1 := by decide
    omega)

/-- The gate's argument, read: the row product summed from zero, plus the bias. -/
theorem pre_apply (w xr : FVec Ideal S1x4096 .f32) (b : FVec Ideal S1 .f32) (i : S1x1.Idx) :
    pre w xr b i = (0 + ∑ j : Fin 4096, w (ix2 (0 : Fin 1) j) * xr (ix2 (0 : Fin 1) j)) + b (ix1 (0 : Fin 1)) := by
  rw [idx11 i]
  unfold pre
  rw [addf_apply, Cert.HostLayout.bcast_vec_col, Cert.RowBlocks.shapeCast_col_apply, Cert.HostLayout.hostRowSum]
  · congr 2
    exact Ideal.ofBits_zero_f32
  · decide

theorem gI_apply (w xr : FVec Ideal S1x4096 .f32) (b : FVec Ideal S1 .f32) (i : S1x1.Idx) :
    gI w xr b i = Ideal.exp ((0 + ∑ j : Fin 4096, w (ix2 (0 : Fin 1) j) * xr (ix2 (0 : Fin 1) j)) + b (ix1 (0 : Fin 1))) := by
  show Ideal.exp (pre w xr b i) = _
  rw [pre_apply]

theorem gF_apply (w xr : FVec Ideal S1x4096 .f32) (b : FVec Ideal S1 .f32) (i : S1x1.Idx) :
    gF w xr b i = Ideal.logistic ((0 + ∑ j : Fin 4096, w (ix2 (0 : Fin 1) j) * xr (ix2 (0 : Fin 1) j)) + b (ix1 (0 : Fin 1))) := by
  rw [idx11 i]
  unfold gF
  have h1 : broadcastInDim S1x1 ![] bcast_S_S1x1 (constant (F := Ideal) S_ .f32 0x3F800000#32) (ix2 (0 : Fin 1) (0 : Fin 1)) = 1 := by
    rw [Cert.HostLayout.bcast_scalar_mat]
    exact Ideal.ofBits_one_f32
  show Ideal.div (broadcastInDim S1x1 ![] bcast_S_S1x1 (constant (F := Ideal) S_ .f32 0x3F800000#32) (ix2 (0 : Fin 1) (0 : Fin 1)))
      (broadcastInDim S1x1 ![] bcast_S_S1x1 (constant (F := Ideal) S_ .f32 0x3F800000#32) (ix2 (0 : Fin 1) (0 : Fin 1))
        + Ideal.exp (-(pre w xr b (ix2 (0 : Fin 1) (0 : Fin 1))))) = _
  rw [h1, pre_apply]
  rfl

theorem gN_apply (f i : FVec Ideal S1x1 .f32) (n k : FVec Ideal S4096x1 .f32) (r : Fin 4096) (u : Fin 1) :
    gN f i n k (ix2 r u) = f (ix2 (0 : Fin 1) (0 : Fin 1)) * n (ix2 r u) + i (ix2 (0 : Fin 1) (0 : Fin 1)) * k (ix2 r u) := by
  unfold gN
  show broadcastInDim S4096x1 ![] bcast_S_S4096x1 (shapeCast S_ f shapeCasts_S1x1_S_) (ix2 r u) * n (ix2 r u)
      + broadcastInDim S4096x1 ![] bcast_S_S4096x1 (shapeCast S_ i shapeCasts_S1x1_S_) (ix2 r u) * k (ix2 r u) = _
  rw [Cert.HostLayout.bcast_scalar_mat, Cert.HostLayout.bcast_scalar_mat, cast_to_scalar, cast_to_scalar]

theorem gD_apply (n q : FVec Ideal S4096x1 .f32) (i : S1x1.Idx) :
    gD n q i = max (FloatOps.absf (F := Ideal) (φ := .f32) (0 + ∑ r : Fin 4096, n (ix2 r (0 : Fin 1)) * q (ix2 r (0 : Fin 1)))) 1 := by
  unfold gD
  rw [cast_of_scalar]
  show max (FloatOps.absf (F := Ideal) (φ := .f32) (Ideal.hostReduceAdd reducesTo_S4096x1_S_d0_1 (mulf n q) (Ideal.ofBits .f32 0x00000000#32) ix0))
      (Ideal.ofBits .f32 0x3F800000#32) = _
  rw [Ideal.hostReduceAdd_total reducesTo_S4096x1_S_d0_1 (fun b => b.elim0), Ideal.ofBits_zero_f32,
    Ideal.ofBits_one_f32, sum_idx2]
  simp only [Fin.sum_univ_one]
  rfl

/-- A column `[4096, 1]` reshaped to a row `[1, 4096]` is the column read as a row: both are the same 4096 numbers
    in the same order. -/
theorem colToRow (y : S4096x1.Idx → EReal) :
    shapeCast S1x4096 y shapeCasts_S4096x1_S1x4096 = Cert.MLstm.Arr.rowOf y := by
  funext i
  obtain ⟨u, j, rfl⟩ : ∃ (u : Fin 1) (j : Fin 4096), i = ix2 u j := ⟨i 0, i 1, eq_ix2 i⟩
  refine shapeCast_apply y shapeCasts_S4096x1_S1x4096 (ix2 u j) (ix2 j (0 : Fin 1)) ?_
  rw [Shape.rowMajor_val_two, Shape.rowMajor_val_two]
  have hu : u.val = 0 := by have := u.isLt; omega
  show j.val * 1 + 0 = u.val * 4096 + j.val
  omega

end Cert.KernelIdeal.Glue

end
-- ==== Proof.KPure.lean ====
/-
  The kernel's stages, composed, are the cell's step.

  With the input `x` held as the row `rowOf x`, the three row-tiled products are the query, key and value
  columns; the host's gate arithmetic gives the two gates, the new vector state and the stabiliser; and the second
  pallas call's two arrays are the new matrix state and the output.  Each identity is a reading of both sides at one
  index: the only facts used are that a zero starting value adds nothing and that a `[4096, 1]` index is its row.
-/
import proofs.«164411_j62654982914536_2_alg».proof.Proof.Spec
import proofs.«164411_j62654982914536_2_alg».proof.Proof.Arrays
import proofs.«164411_j62654982914536_2_alg».proof.Proof.Glue

noncomputable section

open scoped BigOperators

namespace Cert.KernelIdeal.Pure

open Idealize.ShloMosaic Idealize.ShloMosaic.ValueIdx Cert.MLstm Cert.MLstm.Arr Cert.KernelIdeal.Glue

variable (P : Params) (x : SCol.Idx → EReal) (c : SMat.Idx → EReal) (n : SCol.Idx → EReal)

/-- The kernel's query, key and value columns and its gates, as functions of the step's input. -/
abbrev qA : SCol.Idx → EReal := rowsArr (rowOf x) P.wq P.bq
abbrev kA : SCol.Idx → EReal := rowsScaledArr (rowOf x) P.wk P.bk
abbrev vA : SCol.Idx → EReal := rowsArr (rowOf x) P.wv P.bv
abbrev iA : SOneOne.Idx → EReal := gI P.wi (rowOf x) P.bi
abbrev fA : SOneOne.Idx → EReal := gF P.wf (rowOf x) P.bf
abbrev nA : SCol.Idx → EReal := gN (fA P x) (iA P x) n (kA P x)
abbrev dA : SOneOne.Idx → EReal := gD (nA P x n) (qA P x)

theorem qA_apply (r : Fin 4096) (u : Fin 1) : qA P x (ix2 r u) = q P x r := rfl
theorem kA_apply (r : Fin 4096) (u : Fin 1) : kA P x (ix2 r u) = k P x r := rfl
theorem vA_apply (r : Fin 4096) (u : Fin 1) : vA P x (ix2 r u) = v P x r := rfl

theorem iA_apply (i : SOneOne.Idx) : iA P x i = ig P x := by
  show gI P.wi (rowOf x) P.bi i = _
  rw [gI_apply, zero_add]
  rfl

theorem fA_apply (i : SOneOne.Idx) : fA P x i = fg P x := by
  show gF P.wf (rowOf x) P.bf i = _
  rw [gF_apply, zero_add]
  rfl

theorem nA_apply (r : Fin 4096) (u : Fin 1) : nA P x n (ix2 r u) = nNext P x n r := by
  show gN (fA P x) (iA P x) n (kA P x) (ix2 r u) = _
  rw [gN_apply, fA_apply, iA_apply, kA_apply, Subsingleton.elim u (0 : Fin 1)]
  rfl

theorem dA_apply (i : SOneOne.Idx) : dA P x n i = den P x n := by
  show gD (nA P x n) (qA P x) i = _
  rw [gD_apply, zero_add]
  unfold den
  congr 2
  exact Finset.sum_congr rfl fun r _ => by rw [nA_apply, qA_apply]

/-- The new vector state. -/
theorem n_eq : nA P x n = nCol P x n := by
  funext i
  obtain ⟨r, u, rfl⟩ : ∃ (r : Fin 4096) (u : Fin 1), i = ix2 r u := ⟨i 0, i 1, eq_ix2 i⟩
  rw [nA_apply]
  rfl

/-- The new matrix state. -/
theorem ct_eq : ctArr c (vA P x) (rowOf (kA P x)) (iA P x) (fA P x) = cMat P x c := by
  funext i
  obtain ⟨r, j, rfl⟩ : ∃ (r j : Fin 4096), i = ix2 r j := ⟨i 0, i 1, eq_ix2 i⟩
  show fA P x _ * c (ix2 r j) + iA P x _ * (vA P x (ix2 r (0 : Fin 1)) * kA P x (ix2 j (0 : Fin 1))) = _
  rw [fA_apply, iA_apply, vA_apply, kA_apply]
  rfl

/-- The output column. -/
theorem h_eq : hArr c (vA P x) (rowOf (kA P x)) P.wo P.bo (rowOf x) (rowOf (qA P x)) (iA P x) (fA P x) (dA P x n)
    = hCol P x c n := by
  funext i
  obtain ⟨r, u, rfl⟩ : ∃ (r : Fin 4096) (u : Fin 1), i = ix2 r u := ⟨i 0, i 1, eq_ix2 i⟩
  show Ideal.logistic ((∑ j : Fin 4096, P.wo (ix2 r j) * rowOf x (ix2 (0 : Fin 1) j)) + P.bo (ix2 r (0 : Fin 1)))
      * Ideal.div (∑ j : Fin 4096, ctArr c (vA P x) (rowOf (kA P x)) (iA P x) (fA P x) (ix2 r j) * rowOf (qA P x) (ix2 (0 : Fin 1) j))
          (dA P x n (ix2 (0 : Fin 1) (0 : Fin 1))) = _
  rw [dA_apply, ct_eq]
  rfl

end Cert.KernelIdeal.Pure

end
-- ==== Proof.KBase.lean ====
/-
  The launch arrays of the idealized kernel read as the cell's data: the two layers' parameters, the launch state
  `x, c, n`, and the state `x₁, c₁, n₁` after the first step.
-/
import proofs.«164411_j62654982914536_2_alg».proof.Proof.Gen.KernelIdeal
import proofs.«164411_j62654982914536_2_alg».proof.Proof.Spec

noncomputable section

namespace Cert.KernelIdeal.Chain

open Cert.KernelIdeal Idealize.ShloMosaic Idealize.ShloMosaic.TcCoe Idealize.SL.Sem Cert.MLstm

variable (m : (ℓ : Loc nD τ sig) → Buf (Elt Ideal) ℓ) (c : Dev nD)

/-- An argument array of core `c` as launched. -/
abbrev A (b : Ref sig .tc) : Buf (Elt Ideal) ((c : Thread nD τ).loc b) := m ((c : Thread nD τ).loc b)

/-- The two layers' parameters. -/
def P0 : Params := ⟨A m c main_arg3, A m c main_arg4, A m c main_arg5, A m c main_arg6, A m c main_arg7, A m c main_arg8,
  A m c main_arg9, A m c main_arg10, A m c main_arg11, A m c main_arg12, A m c main_arg13, A m c main_arg14⟩
def P1 : Params := ⟨A m c main_arg15, A m c main_arg16, A m c main_arg17, A m c main_arg18, A m c main_arg19, A m c main_arg20,
  A m c main_arg21, A m c main_arg22, A m c main_arg23, A m c main_arg24, A m c main_arg25, A m c main_arg26⟩

/-- The launch state. -/
abbrev x0 : SCol.Idx → EReal := A m c main_arg0
abbrev c0 : SMat.Idx → EReal := A m c main_arg1
abbrev n0 : SCol.Idx → EReal := A m c main_arg2

/-- The state after the first step. -/
def x1 : SCol.Idx → EReal := hCol (P0 m c) (x0 m c) (c0 m c) (n0 m c)
def c1 : SMat.Idx → EReal := cMat (P0 m c) (x0 m c) (c0 m c)
def n1 : SCol.Idx → EReal := nCol (P0 m c) (x0 m c) (n0 m c)

end Cert.KernelIdeal.Chain

end
-- ==== Proof.KChain.lean ====
/-
  What the idealized kernel's three result buffers hold when it ends.

  The run's last boundary valuation is a fold through nine segments.  Reading it backwards, one boundary at a
  time: a buffer no host operation of a stretch writes keeps its contents across the stretch; a buffer that is no
  window of a pipelined region, or only an input window, keeps its contents across the region; an output window's
  array is the region's whole-array function of what the region found; and a buffer a host operation writes holds
  that operation's value of its operands.  Layer 1 turns the launch arrays `x, c, n` into `x₁ = h, c₁, n₁`, layer 2
  turns those into the results, and each layer's composition is the cell's step.
-/
import proofs.«164411_j62654982914536_2_alg».proof.Proof.Gen.KernelIdeal.Frame
import proofs.«164411_j62654982914536_2_alg».proof.Proof.Gemv0
import proofs.«164411_j62654982914536_2_alg».proof.Proof.Gemv2
import proofs.«164411_j62654982914536_2_alg».proof.Proof.Cth1
import proofs.«164411_j62654982914536_2_alg».proof.Proof.Cth3
import proofs.«164411_j62654982914536_2_alg».proof.Proof.KPure
import proofs.«164411_j62654982914536_2_alg».proof.Proof.KBase
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx
open Cert.MLstm Cert.MLstm.Arr Cert.KernelIdeal.Glue Cert.KernelIdeal.Pure
open Idealize.ShloMosaic.Pipeline (Dat)

variable (m : (ℓ : Loc nD τ sig) → Buf (Elt Ideal) ℓ) (ρ : Dev nD → PrngReg) (c : Dev nD)

/-- No operation of the stretch writes the buffer, so it keeps its contents across the stretch. -/
macro "host_keep" : tactic => `(tactic| (
  refine StableHlo.after_of_forall_not_mem _ _ (List.forall_iff_forall_mem.mp ?_)
  simp only [hostOps0, hostOps1, hostOps2, hostOps3, hostOps4, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Layer 1's input row -/

theorem L1_e_x : W1 m ρ c (Proc.devRef .tc main_v0) = rowOf (x0 m c) := by
  show StableHlo.after hostOps0 (W0 m ρ c) (Proc.devRef .tc main_v0) = _
  after_results
  exact colToRow _

/-! ## Layer 1: the buffers at its four boundaries -/

theorem L1_e_wq : W1 m ρ c (Proc.devRef .tc main_arg3) = A m c main_arg3 :=
  calc W1 m ρ c (Proc.devRef .tc main_arg3)
    _ = W0 m ρ c (Proc.devRef .tc main_arg3) := (by host_keep)
    _ = A m c main_arg3 := rfl

theorem L1_e_bq : W1 m ρ c (Proc.devRef .tc main_arg4) = A m c main_arg4 :=
  calc W1 m ρ c (Proc.devRef .tc main_arg4)
    _ = W0 m ρ c (Proc.devRef .tc main_arg4) := (by host_keep)
    _ = A m c main_arg4 := rfl

theorem L1_e_wk : W1 m ρ c (Proc.devRef .tc main_arg5) = A m c main_arg5 :=
  calc W1 m ρ c (Proc.devRef .tc main_arg5)
    _ = W0 m ρ c (Proc.devRef .tc main_arg5) := (by host_keep)
    _ = A m c main_arg5 := rfl

theorem L1_e_bk : W1 m ρ c (Proc.devRef .tc main_arg6) = A m c main_arg6 :=
  calc W1 m ρ c (Proc.devRef .tc main_arg6)
    _ = W0 m ρ c (Proc.devRef .tc main_arg6) := (by host_keep)
    _ = A m c main_arg6 := rfl

theorem L1_e_wv : W1 m ρ c (Proc.devRef .tc main_arg7) = A m c main_arg7 :=
  calc W1 m ρ c (Proc.devRef .tc main_arg7)
    _ = W0 m ρ c (Proc.devRef .tc main_arg7) := (by host_keep)
    _ = A m c main_arg7 := rfl

theorem L1_e_bv : W1 m ρ c (Proc.devRef .tc main_arg8) = A m c main_arg8 :=
  calc W1 m ρ c (Proc.devRef .tc main_arg8)
    _ = W0 m ρ c (Proc.devRef .tc main_arg8) := (by host_keep)
    _ = A m c main_arg8 := rfl

theorem L1_g_q : W2 m ρ c (Proc.devRef .tc main_v1_0) = qA (P0 m c) (x0 m c) := by
  refine (W2_arr m ρ c 7).trans ((Gemv0.final7 (V1 m ρ) c).trans ?_)
  show rowsArr (W1 m ρ c (Proc.devRef .tc main_v0)) (W1 m ρ c (Proc.devRef .tc main_arg3)) (W1 m ρ c (Proc.devRef .tc main_arg4)) = _
  rw [L1_e_x m ρ c, L1_e_wq m ρ c, L1_e_bq m ρ c]
  rfl

theorem L1_g_k : W2 m ρ c (Proc.devRef .tc main_v1_1) = kA (P0 m c) (x0 m c) := by
  refine (W2_arr m ρ c 8).trans ((Gemv0.final8 (V1 m ρ) c).trans ?_)
  show rowsScaledArr (W1 m ρ c (Proc.devRef .tc main_v0)) (W1 m ρ c (Proc.devRef .tc main_arg5)) (W1 m ρ c (Proc.devRef .tc main_arg6)) = _
  rw [L1_e_x m ρ c, L1_e_wk m ρ c, L1_e_bk m ρ c]
  rfl

theorem L1_g_v : W2 m ρ c (Proc.devRef .tc main_v1_2) = vA (P0 m c) (x0 m c) := by
  refine (W2_arr m ρ c 9).trans ((Gemv0.final9 (V1 m ρ) c).trans ?_)
  show rowsArr (W1 m ρ c (Proc.devRef .tc main_v0)) (W1 m ρ c (Proc.devRef .tc main_arg7)) (W1 m ρ c (Proc.devRef .tc main_arg8)) = _
  rw [L1_e_x m ρ c, L1_e_wv m ρ c, L1_e_bv m ρ c]
  rfl

theorem L1_g_x : W2 m ρ c (Proc.devRef .tc main_v0) = rowOf (x0 m c) :=
  calc W2 m ρ c (Proc.devRef .tc main_v0)
    _ = W1 m ρ c (Proc.devRef .tc main_v0) := ((W2_arr m ρ c 0).trans (((dat0 (V1 m ρ) c).arrAt_in 0 rfl _).trans (A_eq0 (V1 m ρ) c 0)))
    _ = rowOf (x0 m c) := L1_e_x m ρ c

theorem L1_g_wi : W2 m ρ c (Proc.devRef .tc main_arg9) = A m c main_arg9 :=
  calc W2 m ρ c (Proc.devRef .tc main_arg9)
    _ = W1 m ρ c (Proc.devRef .tc main_arg9) := (W2_of_ne m ρ c main_arg9 (by decide))
    _ = W0 m ρ c (Proc.devRef .tc main_arg9) := (by host_keep)
    _ = A m c main_arg9 := rfl

theorem L1_g_bi : W2 m ρ c (Proc.devRef .tc main_arg10) = A m c main_arg10 :=
  calc W2 m ρ c (Proc.devRef .tc main_arg10)
    _ = W1 m ρ c (Proc.devRef .tc main_arg10) := (W2_of_ne m ρ c main_arg10 (by decide))
    _ = W0 m ρ c (Proc.devRef .tc main_arg10) := (by host_keep)
    _ = A m c main_arg10 := rfl

theorem L1_g_wf : W2 m ρ c (Proc.devRef .tc main_arg11) = A m c main_arg11 :=
  calc W2 m ρ c (Proc.devRef .tc main_arg11)
    _ = W1 m ρ c (Proc.devRef .tc main_arg11) := (W2_of_ne m ρ c main_arg11 (by decide))
    _ = W0 m ρ c (Proc.devRef .tc main_arg11) := (by host_keep)
    _ = A m c main_arg11 := rfl

theorem L1_g_bf : W2 m ρ c (Proc.devRef .tc main_arg12) = A m c main_arg12 :=
  calc W2 m ρ c (Proc.devRef .tc main_arg12)
    _ = W1 m ρ c (Proc.devRef .tc main_arg12) := (W2_of_ne m ρ c main_arg12 (by decide))
    _ = W0 m ρ c (Proc.devRef .tc main_arg12) := (by host_keep)
    _ = A m c main_arg12 := rfl

theorem L1_g_n : W2 m ρ c (Proc.devRef .tc main_arg2) = n0 m c :=
  calc W2 m ρ c (Proc.devRef .tc main_arg2)
    _ = W1 m ρ c (Proc.devRef .tc main_arg2) := (W2_of_ne m ρ c main_arg2 (by decide))
    _ = W0 m ρ c (Proc.devRef .tc main_arg2) := (by host_keep)
    _ = n0 m c := rfl

theorem L1_h_i : W3 m ρ c (Proc.devRef .tc main_v7) = iA (P0 m c) (x0 m c) := by
  show StableHlo.after hostOps1 (W2 m ρ c) (Proc.devRef .tc main_v7) = _
  after_results_simp
  rw [L1_g_wi m ρ c, L1_g_x m ρ c, L1_g_bi m ρ c]
  rfl

theorem L1_h_f : W3 m ρ c (Proc.devRef .tc main_v18) = fA (P0 m c) (x0 m c) := by
  show StableHlo.after hostOps1 (W2 m ρ c) (Proc.devRef .tc main_v18) = _
  after_results_simp
  rw [L1_g_wf m ρ c, L1_g_x m ρ c, L1_g_bf m ρ c]
  rfl

theorem L1_h_nt : W3 m ρ c (Proc.devRef .tc main_v25) = nA (P0 m c) (x0 m c) (n0 m c) := by
  show StableHlo.after hostOps1 (W2 m ρ c) (Proc.devRef .tc main_v25) = _
  after_results_simp
  rw [L1_g_wf m ρ c, L1_g_x m ρ c, L1_g_bf m ρ c, L1_g_n m ρ c, L1_g_wi m ρ c, L1_g_bi m ρ c, L1_g_k m ρ c]
  rfl

theorem L1_h_d : W3 m ρ c (Proc.devRef .tc main_v30) = dA (P0 m c) (x0 m c) (n0 m c) := by
  show StableHlo.after hostOps1 (W2 m ρ c) (Proc.devRef .tc main_v30) = _
  after_results_simp
  rw [L1_g_wf m ρ c, L1_g_x m ρ c, L1_g_bf m ρ c, L1_g_n m ρ c, L1_g_wi m ρ c, L1_g_bi m ρ c, L1_g_k m ρ c, L1_g_q m ρ c]
  rfl

theorem L1_h_krow : W3 m ρ c (Proc.devRef .tc main_v31) = rowOf (kA (P0 m c) (x0 m c)) := by
  show StableHlo.after hostOps1 (W2 m ρ c) (Proc.devRef .tc main_v31) = _
  after_results_simp
  rw [L1_g_k m ρ c]
  exact colToRow _

theorem L1_h_qrow : W3 m ρ c (Proc.devRef .tc main_v32) = rowOf (qA (P0 m c) (x0 m c)) := by
  show StableHlo.after hostOps1 (W2 m ρ c) (Proc.devRef .tc main_v32) = _
  after_results_simp
  rw [L1_g_q m ρ c]
  exact colToRow _

theorem L1_h_c : W3 m ρ c (Proc.devRef .tc main_arg1) = c0 m c :=
  calc W3 m ρ c (Proc.devRef .tc main_arg1)
    _ = W2 m ρ c (Proc.devRef .tc main_arg1) := (by host_keep)
    _ = W1 m ρ c (Proc.devRef .tc main_arg1) := (W2_of_ne m ρ c main_arg1 (by decide))
    _ = W0 m ρ c (Proc.devRef .tc main_arg1) := (by host_keep)
    _ = c0 m c := rfl

theorem L1_h_v : W3 m ρ c (Proc.devRef .tc main_v1_2) = vA (P0 m c) (x0 m c) :=
  calc W3 m ρ c (Proc.devRef .tc main_v1_2)
    _ = W2 m ρ c (Proc.devRef .tc main_v1_2) := (by host_keep)
    _ = vA (P0 m c) (x0 m c) := L1_g_v m ρ c

theorem L1_h_wo : W3 m ρ c (Proc.devRef .tc main_arg13) = A m c main_arg13 :=
  calc W3 m ρ c (Proc.devRef .tc main_arg13)
    _ = W2 m ρ c (Proc.devRef .tc main_arg13) := (by host_keep)
    _ = W1 m ρ c (Proc.devRef .tc main_arg13) := (W2_of_ne m ρ c main_arg13 (by decide))
    _ = W0 m ρ c (Proc.devRef .tc main_arg13) := (by host_keep)
    _ = A m c main_arg13 := rfl

theorem L1_h_bo : W3 m ρ c (Proc.devRef .tc main_arg14) = A m c main_arg14 :=
  calc W3 m ρ c (Proc.devRef .tc main_arg14)
    _ = W2 m ρ c (Proc.devRef .tc main_arg14) := (by host_keep)
    _ = W1 m ρ c (Proc.devRef .tc main_arg14) := (W2_of_ne m ρ c main_arg14 (by decide))
    _ = W0 m ρ c (Proc.devRef .tc main_arg14) := (by host_keep)
    _ = A m c main_arg14 := rfl

theorem L1_h_x : W3 m ρ c (Proc.devRef .tc main_v0) = rowOf (x0 m c) :=
  calc W3 m ρ c (Proc.devRef .tc main_v0)
    _ = W2 m ρ c (Proc.devRef .tc main_v0) := (by host_keep)
    _ = rowOf (x0 m c) := L1_g_x m ρ c

theorem L1_o_ct : W4 m ρ c (Proc.devRef .tc main_v33_0) = cMat (P0 m c) (x0 m c) (c0 m c) := by
  refine (W4_arr m ρ c 10).trans ((Cth1.final_ct (V3 m ρ) c).trans ?_)
  show ctArr (W3 m ρ c (Proc.devRef .tc main_arg1)) (W3 m ρ c (Proc.devRef .tc main_v1_2)) (W3 m ρ c (Proc.devRef .tc main_v31)) (W3 m ρ c (Proc.devRef .tc main_v7)) (W3 m ρ c (Proc.devRef .tc main_v18)) = _
  rw [L1_h_c m ρ c, L1_h_v m ρ c, L1_h_krow m ρ c, L1_h_i m ρ c, L1_h_f m ρ c]
  exact ct_eq _ _ _

theorem L1_o_h : W4 m ρ c (Proc.devRef .tc main_v33_1) = hCol (P0 m c) (x0 m c) (c0 m c) (n0 m c) := by
  refine (W4_arr m ρ c 11).trans ((Cth1.final_h (V3 m ρ) c).trans ?_)
  show hArr (W3 m ρ c (Proc.devRef .tc main_arg1)) (W3 m ρ c (Proc.devRef .tc main_v1_2)) (W3 m ρ c (Proc.devRef .tc main_v31)) (W3 m ρ c (Proc.devRef .tc main_arg13)) (W3 m ρ c (Proc.devRef .tc main_arg14)) (W3 m ρ c (Proc.devRef .tc main_v0)) (W3 m ρ c (Proc.devRef .tc main_v32)) (W3 m ρ c (Proc.devRef .tc main_v7)) (W3 m ρ c (Proc.devRef .tc main_v18)) (W3 m ρ c (Proc.devRef .tc main_v30)) = _
  rw [L1_h_c m ρ c, L1_h_v m ρ c, L1_h_krow m ρ c, L1_h_wo m ρ c, L1_h_bo m ρ c, L1_h_x m ρ c, L1_h_qrow m ρ c, L1_h_i m ρ c, L1_h_f m ρ c, L1_h_d m ρ c]
  exact h_eq _ _ _ _

/-- Layer 1's new vector state, as the cell's step gives it. -/
theorem L1_h_nt' : W3 m ρ c (Proc.devRef .tc main_v25) = n1 m c := (L1_h_nt m ρ c).trans (n_eq _ _ _)

/-! ## Layer 2's input row: layer 1's output column, read as a row -/

theorem L2_e_x : W5 m ρ c (Proc.devRef .tc main_v34) = rowOf (x1 m c) := by
  show StableHlo.after hostOps2 (W4 m ρ c) (Proc.devRef .tc main_v34) = _
  after_results
  rw [L1_o_h m ρ c]
  exact colToRow _

/-! ## Layer 2: the buffers at its four boundaries -/

theorem L2_e_wq : W5 m ρ c (Proc.devRef .tc main_arg15) = A m c main_arg15 :=
  calc W5 m ρ c (Proc.devRef .tc main_arg15)
    _ = W4 m ρ c (Proc.devRef .tc main_arg15) := (by host_keep)
    _ = W3 m ρ c (Proc.devRef .tc main_arg15) := (W4_of_ne m ρ c main_arg15 (by decide))
    _ = W2 m ρ c (Proc.devRef .tc main_arg15) := (by host_keep)
    _ = W1 m ρ c (Proc.devRef .tc main_arg15) := (W2_of_ne m ρ c main_arg15 (by decide))
    _ = W0 m ρ c (Proc.devRef .tc main_arg15) := (by host_keep)
    _ = A m c main_arg15 := rfl

theorem L2_e_bq : W5 m ρ c (Proc.devRef .tc main_arg16) = A m c main_arg16 :=
  calc W5 m ρ c (Proc.devRef .tc main_arg16)
    _ = W4 m ρ c (Proc.devRef .tc main_arg16) := (by host_keep)
    _ = W3 m ρ c (Proc.devRef .tc main_arg16) := (W4_of_ne m ρ c main_arg16 (by decide))
    _ = W2 m ρ c (Proc.devRef .tc main_arg16) := (by host_keep)
    _ = W1 m ρ c (Proc.devRef .tc main_arg16) := (W2_of_ne m ρ c main_arg16 (by decide))
    _ = W0 m ρ c (Proc.devRef .tc main_arg16) := (by host_keep)
    _ = A m c main_arg16 := rfl

theorem L2_e_wk : W5 m ρ c (Proc.devRef .tc main_arg17) = A m c main_arg17 :=
  calc W5 m ρ c (Proc.devRef .tc main_arg17)
    _ = W4 m ρ c (Proc.devRef .tc main_arg17) := (by host_keep)
    _ = W3 m ρ c (Proc.devRef .tc main_arg17) := (W4_of_ne m ρ c main_arg17 (by decide))
    _ = W2 m ρ c (Proc.devRef .tc main_arg17) := (by host_keep)
    _ = W1 m ρ c (Proc.devRef .tc main_arg17) := (W2_of_ne m ρ c main_arg17 (by decide))
    _ = W0 m ρ c (Proc.devRef .tc main_arg17) := (by host_keep)
    _ = A m c main_arg17 := rfl

theorem L2_e_bk : W5 m ρ c (Proc.devRef .tc main_arg18) = A m c main_arg18 :=
  calc W5 m ρ c (Proc.devRef .tc main_arg18)
    _ = W4 m ρ c (Proc.devRef .tc main_arg18) := (by host_keep)
    _ = W3 m ρ c (Proc.devRef .tc main_arg18) := (W4_of_ne m ρ c main_arg18 (by decide))
    _ = W2 m ρ c (Proc.devRef .tc main_arg18) := (by host_keep)
    _ = W1 m ρ c (Proc.devRef .tc main_arg18) := (W2_of_ne m ρ c main_arg18 (by decide))
    _ = W0 m ρ c (Proc.devRef .tc main_arg18) := (by host_keep)
    _ = A m c main_arg18 := rfl

theorem L2_e_wv : W5 m ρ c (Proc.devRef .tc main_arg19) = A m c main_arg19 :=
  calc W5 m ρ c (Proc.devRef .tc main_arg19)
    _ = W4 m ρ c (Proc.devRef .tc main_arg19) := (by host_keep)
    _ = W3 m ρ c (Proc.devRef .tc main_arg19) := (W4_of_ne m ρ c main_arg19 (by decide))
    _ = W2 m ρ c (Proc.devRef .tc main_arg19) := (by host_keep)
    _ = W1 m ρ c (Proc.devRef .tc main_arg19) := (W2_of_ne m ρ c main_arg19 (by decide))
    _ = W0 m ρ c (Proc.devRef .tc main_arg19) := (by host_keep)
    _ = A m c main_arg19 := rfl

theorem L2_e_bv : W5 m ρ c (Proc.devRef .tc main_arg20) = A m c main_arg20 :=
  calc W5 m ρ c (Proc.devRef .tc main_arg20)
    _ = W4 m ρ c (Proc.devRef .tc main_arg20) := (by host_keep)
    _ = W3 m ρ c (Proc.devRef .tc main_arg20) := (W4_of_ne m ρ c main_arg20 (by decide))
    _ = W2 m ρ c (Proc.devRef .tc main_arg20) := (by host_keep)
    _ = W1 m ρ c (Proc.devRef .tc main_arg20) := (W2_of_ne m ρ c main_arg20 (by decide))
    _ = W0 m ρ c (Proc.devRef .tc main_arg20) := (by host_keep)
    _ = A m c main_arg20 := rfl

theorem L2_g_q : W6 m ρ c (Proc.devRef .tc main_v35_0) = qA (P1 m c) (x1 m c) := by
  refine (W6_arr m ρ c 7).trans ((Gemv2.final7 (V5 m ρ) c).trans ?_)
  show rowsArr (W5 m ρ c (Proc.devRef .tc main_v34)) (W5 m ρ c (Proc.devRef .tc main_arg15)) (W5 m ρ c (Proc.devRef .tc main_arg16)) = _
  rw [L2_e_x m ρ c, L2_e_wq m ρ c, L2_e_bq m ρ c]
  rfl

theorem L2_g_k : W6 m ρ c (Proc.devRef .tc main_v35_1) = kA (P1 m c) (x1 m c) := by
  refine (W6_arr m ρ c 8).trans ((Gemv2.final8 (V5 m ρ) c).trans ?_)
  show rowsScaledArr (W5 m ρ c (Proc.devRef .tc main_v34)) (W5 m ρ c (Proc.devRef .tc main_arg17)) (W5 m ρ c (Proc.devRef .tc main_arg18)) = _
  rw [L2_e_x m ρ c, L2_e_wk m ρ c, L2_e_bk m ρ c]
  rfl

theorem L2_g_v : W6 m ρ c (Proc.devRef .tc main_v35_2) = vA (P1 m c) (x1 m c) := by
  refine (W6_arr m ρ c 9).trans ((Gemv2.final9 (V5 m ρ) c).trans ?_)
  show rowsArr (W5 m ρ c (Proc.devRef .tc main_v34)) (W5 m ρ c (Proc.devRef .tc main_arg19)) (W5 m ρ c (Proc.devRef .tc main_arg20)) = _
  rw [L2_e_x m ρ c, L2_e_wv m ρ c, L2_e_bv m ρ c]
  rfl

theorem L2_g_x : W6 m ρ c (Proc.devRef .tc main_v34) = rowOf (x1 m c) :=
  calc W6 m ρ c (Proc.devRef .tc main_v34)
    _ = W5 m ρ c (Proc.devRef .tc main_v34) := ((W6_arr m ρ c 0).trans (((dat2 (V5 m ρ) c).arrAt_in 0 rfl _).trans (A_eq2 (V5 m ρ) c 0)))
    _ = rowOf (x1 m c) := L2_e_x m ρ c

theorem L2_g_wi : W6 m ρ c (Proc.devRef .tc main_arg21) = A m c main_arg21 :=
  calc W6 m ρ c (Proc.devRef .tc main_arg21)
    _ = W5 m ρ c (Proc.devRef .tc main_arg21) := (W6_of_ne m ρ c main_arg21 (by decide))
    _ = W4 m ρ c (Proc.devRef .tc main_arg21) := (by host_keep)
    _ = W3 m ρ c (Proc.devRef .tc main_arg21) := (W4_of_ne m ρ c main_arg21 (by decide))
    _ = W2 m ρ c (Proc.devRef .tc main_arg21) := (by host_keep)
    _ = W1 m ρ c (Proc.devRef .tc main_arg21) := (W2_of_ne m ρ c main_arg21 (by decide))
    _ = W0 m ρ c (Proc.devRef .tc main_arg21) := (by host_keep)
    _ = A m c main_arg21 := rfl

theorem L2_g_bi : W6 m ρ c (Proc.devRef .tc main_arg22) = A m c main_arg22 :=
  calc W6 m ρ c (Proc.devRef .tc main_arg22)
    _ = W5 m ρ c (Proc.devRef .tc main_arg22) := (W6_of_ne m ρ c main_arg22 (by decide))
    _ = W4 m ρ c (Proc.devRef .tc main_arg22) := (by host_keep)
    _ = W3 m ρ c (Proc.devRef .tc main_arg22) := (W4_of_ne m ρ c main_arg22 (by decide))
    _ = W2 m ρ c (Proc.devRef .tc main_arg22) := (by host_keep)
    _ = W1 m ρ c (Proc.devRef .tc main_arg22) := (W2_of_ne m ρ c main_arg22 (by decide))
    _ = W0 m ρ c (Proc.devRef .tc main_arg22) := (by host_keep)
    _ = A m c main_arg22 := rfl

theorem L2_g_wf : W6 m ρ c (Proc.devRef .tc main_arg23) = A m c main_arg23 :=
  calc W6 m ρ c (Proc.devRef .tc main_arg23)
    _ = W5 m ρ c (Proc.devRef .tc main_arg23) := (W6_of_ne m ρ c main_arg23 (by decide))
    _ = W4 m ρ c (Proc.devRef .tc main_arg23) := (by host_keep)
    _ = W3 m ρ c (Proc.devRef .tc main_arg23) := (W4_of_ne m ρ c main_arg23 (by decide))
    _ = W2 m ρ c (Proc.devRef .tc main_arg23) := (by host_keep)
    _ = W1 m ρ c (Proc.devRef .tc main_arg23) := (W2_of_ne m ρ c main_arg23 (by decide))
    _ = W0 m ρ c (Proc.devRef .tc main_arg23) := (by host_keep)
    _ = A m c main_arg23 := rfl

theorem L2_g_bf : W6 m ρ c (Proc.devRef .tc main_arg24) = A m c main_arg24 :=
  calc W6 m ρ c (Proc.devRef .tc main_arg24)
    _ = W5 m ρ c (Proc.devRef .tc main_arg24) := (W6_of_ne m ρ c main_arg24 (by decide))
    _ = W4 m ρ c (Proc.devRef .tc main_arg24) := (by host_keep)
    _ = W3 m ρ c (Proc.devRef .tc main_arg24) := (W4_of_ne m ρ c main_arg24 (by decide))
    _ = W2 m ρ c (Proc.devRef .tc main_arg24) := (by host_keep)
    _ = W1 m ρ c (Proc.devRef .tc main_arg24) := (W2_of_ne m ρ c main_arg24 (by decide))
    _ = W0 m ρ c (Proc.devRef .tc main_arg24) := (by host_keep)
    _ = A m c main_arg24 := rfl

theorem L2_g_n : W6 m ρ c (Proc.devRef .tc main_v25) = n1 m c :=
  calc W6 m ρ c (Proc.devRef .tc main_v25)
    _ = W5 m ρ c (Proc.devRef .tc main_v25) := (W6_of_ne m ρ c main_v25 (by decide))
    _ = W4 m ρ c (Proc.devRef .tc main_v25) := (by host_keep)
    _ = W3 m ρ c (Proc.devRef .tc main_v25) := (W4_of_ne m ρ c main_v25 (by decide))
    _ = n1 m c := L1_h_nt' m ρ c

theorem L2_h_i : W7 m ρ c (Proc.devRef .tc main_v41) = iA (P1 m c) (x1 m c) := by
  show StableHlo.after hostOps3 (W6 m ρ c) (Proc.devRef .tc main_v41) = _
  after_results_simp
  rw [L2_g_wi m ρ c, L2_g_x m ρ c, L2_g_bi m ρ c]
  rfl

theorem L2_h_f : W7 m ρ c (Proc.devRef .tc main_v52) = fA (P1 m c) (x1 m c) := by
  show StableHlo.after hostOps3 (W6 m ρ c) (Proc.devRef .tc main_v52) = _
  after_results_simp
  rw [L2_g_wf m ρ c, L2_g_x m ρ c, L2_g_bf m ρ c]
  rfl

theorem L2_h_nt : W7 m ρ c (Proc.devRef .tc main_v59) = nA (P1 m c) (x1 m c) (n1 m c) := by
  show StableHlo.after hostOps3 (W6 m ρ c) (Proc.devRef .tc main_v59) = _
  after_results_simp
  rw [L2_g_wf m ρ c, L2_g_x m ρ c, L2_g_bf m ρ c, L2_g_n m ρ c, L2_g_wi m ρ c, L2_g_bi m ρ c, L2_g_k m ρ c]
  rfl

theorem L2_h_d : W7 m ρ c (Proc.devRef .tc main_v64) = dA (P1 m c) (x1 m c) (n1 m c) := by
  show StableHlo.after hostOps3 (W6 m ρ c) (Proc.devRef .tc main_v64) = _
  after_results_simp
  rw [L2_g_wf m ρ c, L2_g_x m ρ c, L2_g_bf m ρ c, L2_g_n m ρ c, L2_g_wi m ρ c, L2_g_bi m ρ c, L2_g_k m ρ c, L2_g_q m ρ c]
  rfl

theorem L2_h_krow : W7 m ρ c (Proc.devRef .tc main_v65) = rowOf (kA (P1 m c) (x1 m c)) := by
  show StableHlo.after hostOps3 (W6 m ρ c) (Proc.devRef .tc main_v65) = _
  after_results_simp
  rw [L2_g_k m ρ c]
  exact colToRow _

theorem L2_h_qrow : W7 m ρ c (Proc.devRef .tc main_v66) = rowOf (qA (P1 m c) (x1 m c)) := by
  show StableHlo.after hostOps3 (W6 m ρ c) (Proc.devRef .tc main_v66) = _
  after_results_simp
  rw [L2_g_q m ρ c]
  exact colToRow _

theorem L2_h_c : W7 m ρ c (Proc.devRef .tc main_v33_0) = c1 m c :=
  calc W7 m ρ c (Proc.devRef .tc main_v33_0)
    _ = W6 m ρ c (Proc.devRef .tc main_v33_0) := (by host_keep)
    _ = W5 m ρ c (Proc.devRef .tc main_v33_0) := (W6_of_ne m ρ c main_v33_0 (by decide))
    _ = W4 m ρ c (Proc.devRef .tc main_v33_0) := (by host_keep)
    _ = c1 m c := L1_o_ct m ρ c

theorem L2_h_v : W7 m ρ c (Proc.devRef .tc main_v35_2) = vA (P1 m c) (x1 m c) :=
  calc W7 m ρ c (Proc.devRef .tc main_v35_2)
    _ = W6 m ρ c (Proc.devRef .tc main_v35_2) := (by host_keep)
    _ = vA (P1 m c) (x1 m c) := L2_g_v m ρ c

theorem L2_h_wo : W7 m ρ c (Proc.devRef .tc main_arg25) = A m c main_arg25 :=
  calc W7 m ρ c (Proc.devRef .tc main_arg25)
    _ = W6 m ρ c (Proc.devRef .tc main_arg25) := (by host_keep)
    _ = W5 m ρ c (Proc.devRef .tc main_arg25) := (W6_of_ne m ρ c main_arg25 (by decide))
    _ = W4 m ρ c (Proc.devRef .tc main_arg25) := (by host_keep)
    _ = W3 m ρ c (Proc.devRef .tc main_arg25) := (W4_of_ne m ρ c main_arg25 (by decide))
    _ = W2 m ρ c (Proc.devRef .tc main_arg25) := (by host_keep)
    _ = W1 m ρ c (Proc.devRef .tc main_arg25) := (W2_of_ne m ρ c main_arg25 (by decide))
    _ = W0 m ρ c (Proc.devRef .tc main_arg25) := (by host_keep)
    _ = A m c main_arg25 := rfl

theorem L2_h_bo : W7 m ρ c (Proc.devRef .tc main_arg26) = A m c main_arg26 :=
  calc W7 m ρ c (Proc.devRef .tc main_arg26)
    _ = W6 m ρ c (Proc.devRef .tc main_arg26) := (by host_keep)
    _ = W5 m ρ c (Proc.devRef .tc main_arg26) := (W6_of_ne m ρ c main_arg26 (by decide))
    _ = W4 m ρ c (Proc.devRef .tc main_arg26) := (by host_keep)
    _ = W3 m ρ c (Proc.devRef .tc main_arg26) := (W4_of_ne m ρ c main_arg26 (by decide))
    _ = W2 m ρ c (Proc.devRef .tc main_arg26) := (by host_keep)
    _ = W1 m ρ c (Proc.devRef .tc main_arg26) := (W2_of_ne m ρ c main_arg26 (by decide))
    _ = W0 m ρ c (Proc.devRef .tc main_arg26) := (by host_keep)
    _ = A m c main_arg26 := rfl

theorem L2_h_x : W7 m ρ c (Proc.devRef .tc main_v34) = rowOf (x1 m c) :=
  calc W7 m ρ c (Proc.devRef .tc main_v34)
    _ = W6 m ρ c (Proc.devRef .tc main_v34) := (by host_keep)
    _ = rowOf (x1 m c) := L2_g_x m ρ c

theorem L2_o_ct : W8 m ρ c (Proc.devRef .tc main_v67_0) = cMat (P1 m c) (x1 m c) (c1 m c) := by
  refine (W8_arr m ρ c 10).trans ((Cth3.final_ct (V7 m ρ) c).trans ?_)
  show ctArr (W7 m ρ c (Proc.devRef .tc main_v33_0)) (W7 m ρ c (Proc.devRef .tc main_v35_2)) (W7 m ρ c (Proc.devRef .tc main_v65)) (W7 m ρ c (Proc.devRef .tc main_v41)) (W7 m ρ c (Proc.devRef .tc main_v52)) = _
  rw [L2_h_c m ρ c, L2_h_v m ρ c, L2_h_krow m ρ c, L2_h_i m ρ c, L2_h_f m ρ c]
  exact ct_eq _ _ _

theorem L2_o_h : W8 m ρ c (Proc.devRef .tc main_v67_1) = hCol (P1 m c) (x1 m c) (c1 m c) (n1 m c) := by
  refine (W8_arr m ρ c 11).trans ((Cth3.final_h (V7 m ρ) c).trans ?_)
  show hArr (W7 m ρ c (Proc.devRef .tc main_v33_0)) (W7 m ρ c (Proc.devRef .tc main_v35_2)) (W7 m ρ c (Proc.devRef .tc main_v65)) (W7 m ρ c (Proc.devRef .tc main_arg25)) (W7 m ρ c (Proc.devRef .tc main_arg26)) (W7 m ρ c (Proc.devRef .tc main_v34)) (W7 m ρ c (Proc.devRef .tc main_v66)) (W7 m ρ c (Proc.devRef .tc main_v41)) (W7 m ρ c (Proc.devRef .tc main_v52)) (W7 m ρ c (Proc.devRef .tc main_v64)) = _
  rw [L2_h_c m ρ c, L2_h_v m ρ c, L2_h_krow m ρ c, L2_h_wo m ρ c, L2_h_bo m ρ c, L2_h_x m ρ c, L2_h_qrow m ρ c, L2_h_i m ρ c, L2_h_f m ρ c, L2_h_d m ρ c]
  exact h_eq _ _ _ _

/-! ## The three results -/

theorem res_c : W9 m ρ c (Proc.devRef .tc main_v67_0) = cMat (P1 m c) (x1 m c) (c1 m c) :=
  calc W9 m ρ c (Proc.devRef .tc main_v67_0)
    _ = W8 m ρ c (Proc.devRef .tc main_v67_0) := (by host_keep)
    _ = cMat (P1 m c) (x1 m c) (c1 m c) := L2_o_ct m ρ c

theorem res_n : W9 m ρ c (Proc.devRef .tc main_v59) = nCol (P1 m c) (x1 m c) (n1 m c) :=
  calc W9 m ρ c (Proc.devRef .tc main_v59)
    _ = W8 m ρ c (Proc.devRef .tc main_v59) := (by host_keep)
    _ = W7 m ρ c (Proc.devRef .tc main_v59) := (W8_of_ne m ρ c main_v59 (by decide))
    _ = nCol (P1 m c) (x1 m c) (n1 m c) := (L2_h_nt m ρ c).trans (n_eq _ _ _)

theorem res_h : W9 m ρ c (Proc.devRef .tc main_v68) = hRow (P1 m c) (x1 m c) (c1 m c) (n1 m c) := by
  show StableHlo.after hostOps4 (W8 m ρ c) (Proc.devRef .tc main_v68) = _
  after_results
  rw [L2_o_h m ρ c]
  exact (colToRow _).trans rfl

end Cert.KernelIdeal.Chain

end
-- ==== Proof.RefSpec.lean ====
/-
  The reference program, stage by stage, is the cell of the specification.

  The reference computes one cell as a chain of whole-array operations: three affine maps of the input
  (query, key, value), two scalar gates, the new matrix state and the new vector state, the stabiliser,
  and the gated read-out.  Each lemma below reads one of these arrays at an index and finds there the
  quantity of the same name in `Cert.MLstm`.  The laws used are the definitions of the operations on the
  extended reals, the reading of a layout operation (broadcast, transpose, reshape) at an index, and
  the fact that a sum with one term is that term.  Nothing is assumed finite.

  The reference's second cell is the same chain of operations applied to the first cell's three results
  and to the second set of parameters, so each of its stages is, by definition, the first cell's stage
  function at other arguments; the two-cell statements are the one-cell statements used twice.
-/
import proofs.«164411_j62654982914536_2_alg».proof.Proof.Gen.ReferenceIdeal.Read
import proofs.«164411_j62654982914536_2_alg».proof.Proof.Spec
import Idealize.ShloMosaic.Lib.IdealHost

noncomputable section

open scoped BigOperators

namespace Cert.MLstm.Ref

open Idealize.ShloMosaic Idealize.ShloMosaic.ValueIdx Cert.ReferenceIdeal.Read Cert.MLstm

/-! ## One cell -/

section OneCell

variable (x : SCol.Idx → EReal) (c : SMat.Idx → EReal) (n : SCol.Idx → EReal)

/-- Two indices of a two-axis array with the same coordinates are the same index. -/
theorem idx2_ext {n0 n1 : Nat} (i j : (⟨2, ![n0, n1]⟩ : Shape).Idx) (h0 : i 0 = j 0) (h1 : i 1 = j 1) : i = j := by
  funext a
  match a with
  | ⟨0, _⟩ => exact h0
  | ⟨1, _⟩ => exact h1

/-- A column index is its row coordinate followed by the only possible column coordinate. -/
theorem col_idx (i : SCol.Idx) : ∃ r : Fin 4096, i = ix2 r (0 : Fin 1) :=
  ⟨i 0, idx2_ext _ _ rfl (Subsingleton.elim (α := Fin 1) _ _)⟩

/-- The only index of a one-by-one array. -/
theorem one_idx (i : (⟨2, ![1, 1]⟩ : Shape).Idx) : i = ix2 (0 : Fin 1) (0 : Fin 1) :=
  idx2_ext _ _ (Subsingleton.elim (α := Fin 1) _ _) (Subsingleton.elim (α := Fin 1) _ _)

/-- An affine map of the input, read at a row: the row of the matrix against the input, plus the bias. -/
theorem affine_apply (W : SMat.Idx → EReal) (b : SCol.Idx → EReal) (r : Fin 4096) :
    val_main_v1 (F := Ideal) x W b (ix2 r (0 : Fin 1)) = rowDot W x r + b (ix2 r (0 : Fin 1)) := by
  rw [val_main_v1_apply, val_main_v0_apply]
  exact congrArg (· + b (ix2 r (0 : Fin 1))) (Finset.sum_congr rfl fun k _ =>
    congrArg₂ (fun a d => W a * x d) (idx2_ext _ _ rfl rfl) (idx2_ext _ _ rfl rfl))

/-- The same, as an array. -/
theorem affine_eq (W : SMat.Idx → EReal) (b : SCol.Idx → EReal) :
    val_main_v1 (F := Ideal) x W b = fun i => rowDot W x (i 0) + b (ix2 (i 0) (0 : Fin 1)) := by
  funext i
  obtain ⟨r, rfl⟩ := col_idx i
  exact affine_apply x W b r

variable (p : Params)

/-- The query. -/
theorem ref_q : val_main_v1 (F := Ideal) x p.wq p.bq = fun i => q p x (i 0) := affine_eq x p.wq p.bq

/-- The value. -/
theorem ref_v : val_main_v7 (F := Ideal) x p.wv p.bv = fun i => v p x (i 0) := affine_eq x p.wv p.bv

/-- The array filled with the key's scale. -/
theorem scale_eq : val_main_v4 (F := Ideal) = fun _ => scale := by
  funext i
  rw [val_main_v4_apply, val_main_cst_apply]
  rfl

/-- The key: the affine map, scaled. -/
theorem ref_k : val_main_v5 (F := Ideal) x p.wk p.bk = fun i => k p x (i 0) := by
  funext i
  rw [val_main_v5_apply, scale_eq]
  show val_main_v1 (F := Ideal) x p.wk p.bk i * scale = _
  rw [affine_eq]
  rfl

/-- A gate before its activation: the gate row against the input, plus the gate's bias. -/
theorem gate_eq (w : SRow.Idx → EReal) (g : SOne.Idx → EReal) :
    val_main_v10 (F := Ideal) x w g = fun _ => vecDot w x + g (ix1 (0 : Fin 1)) := by
  funext i
  obtain rfl := one_idx i
  rw [val_main_v10_apply, val_main_v8_apply, val_main_v9_apply]
  exact congrArg₂ (· + ·)
    (Finset.sum_congr rfl fun k _ =>
      congrArg₂ (fun a d => w a * x d) (idx2_ext _ _ rfl rfl) (idx2_ext _ _ rfl rfl))
    (congrArg g (funext fun a => match a with | ⟨0, _⟩ => rfl))

/-- The input gate. -/
theorem ref_ig : val_main_v11 (F := Ideal) x p.wi p.bi = fun _ => ig p x := by
  funext i
  rw [val_main_v11_apply, gate_eq]
  rfl

/-- The arrays filled with the constant one. -/
theorem one17 : val_main_v17 (F := Ideal) = fun _ => 1 := by
  funext i; rw [val_main_v17_apply, val_main_cst_0_apply]; exact Ideal.ofBits_one_f32
theorem one19 : val_main_v19 (F := Ideal) = fun _ => 1 := by
  funext i; rw [val_main_v19_apply, val_main_cst_1_apply]; exact Ideal.ofBits_one_f32
theorem one36 : val_main_v36 (F := Ideal) = fun _ => 1 := by
  funext i; rw [val_main_v36_apply, val_main_cst_2_apply]; exact Ideal.ofBits_one_f32
theorem one45 : val_main_v45 (F := Ideal) = fun _ => 1 := by
  funext i; rw [val_main_v45_apply, val_main_cst_3_apply]; exact Ideal.ofBits_one_f32
theorem one47 : val_main_v47 (F := Ideal) = fun _ => 1 := by
  funext i; rw [val_main_v47_apply, val_main_cst_4_apply]; exact Ideal.ofBits_one_f32

/-- The forget gate: one over one plus the exponential of the negated pre-activation is the logistic function. -/
theorem ref_fg : val_main_v20 (F := Ideal) x p.wf p.bf = fun _ => fg p x := by
  funext i
  rw [val_main_v20_apply, val_main_v18_apply, val_main_v16_apply, val_main_v15_apply, one19, one17]
  show Ideal.div 1 (1 + Ideal.exp (-(val_main_v10 (F := Ideal) x p.wf p.bf i))) = _
  rw [gate_eq]
  rfl

/-- The next matrix state.  The outer product of the value and the key is a sum over an axis of one term. -/
theorem ref_cMat :
    val_main_v27 (F := Ideal) x c p.wk p.bk p.wv p.bv p.wi p.bi p.wf p.bf = cMat p x c := by
  funext i
  obtain ⟨r, j, rfl⟩ : ∃ (r j : Fin 4096), i = ix2 r j := ⟨i 0, i 1, eq_ix2 i⟩
  rw [val_main_v27_apply, val_main_v22_apply, val_main_v21_apply, val_main_v26_apply, val_main_v25_apply,
    val_main_v24_apply, Fin.sum_univ_one, val_main_v23_apply, ref_fg, ref_ig, ref_v, ref_k]
  rfl

/-- The next vector state. -/
theorem ref_nCol :
    val_main_v32 (F := Ideal) x n p.wk p.bk p.wi p.bi p.wf p.bf = nCol p x n := by
  funext i
  obtain ⟨r, rfl⟩ := col_idx i
  rw [val_main_v32_apply, val_main_v29_apply, val_main_v28_apply, val_main_v31_apply, val_main_v30_apply,
    ref_fg, ref_ig, ref_k]
  rfl

/-- The next vector state laid out as a row. -/
theorem ref_nRow :
    val_main_v33 (F := Ideal) x n p.wk p.bk p.wi p.bi p.wf p.bf = fun i => nNext p x n (i 1) := by
  funext i
  rw [val_main_v33_apply, ref_nCol]
  rfl

/-- The stabiliser. -/
theorem ref_den :
    val_main_v37 (F := Ideal) x n p.wq p.bq p.wk p.bk p.wi p.bi p.wf p.bf = fun _ => den p x n := by
  funext i
  rw [val_main_v37_apply, val_main_v35_apply, val_main_v34_apply, ref_nRow, ref_q, one36]
  rfl

/-- The output column. -/
theorem ref_hCol :
    val_main_v49 (F := Ideal) x c n p.wq p.bq p.wk p.bk p.wv p.bv p.wi p.bi p.wf p.bf p.wo p.bo = hCol p x c n := by
  funext i
  obtain ⟨r, rfl⟩ := col_idx i
  rw [val_main_v49_apply, val_main_v48_apply, val_main_v46_apply, val_main_v44_apply, val_main_v43_apply,
    one47, one45, val_main_v40_apply, val_main_v38_apply, val_main_v39_apply, ref_cMat, ref_q, ref_den]
  show Ideal.div 1 (1 + Ideal.exp (-(val_main_v1 (F := Ideal) x p.wo p.bo (ix2 r (0 : Fin 1))))) * _ = _
  rw [affine_apply]
  rfl

end OneCell

/-! ## Two cells -/

section TwoCells

variable (x0 : SCol.Idx → EReal) (x1 : SMat.Idx → EReal) (x2 : SCol.Idx → EReal) (P0 P1 : Params)

/-- The second cell's matrix state is the first cell's stage function at the first cell's results. -/
theorem ref_c_params :
    val_main_v77 (F := Ideal) x0 x1 x2 P0.wq P0.bq P0.wk P0.bk P0.wv P0.bv P0.wi P0.bi P0.wf P0.bf P0.wo P0.bo
      P1.wk P1.bk P1.wv P1.bv P1.wi P1.bi P1.wf P1.bf
      = cMat P1 (hCol P0 x0 x1 x2) (cMat P0 x0 x1) := by
  show val_main_v27 (F := Ideal)
      (val_main_v49 (F := Ideal) x0 x1 x2 P0.wq P0.bq P0.wk P0.bk P0.wv P0.bv P0.wi P0.bi P0.wf P0.bf P0.wo P0.bo)
      (val_main_v27 (F := Ideal) x0 x1 P0.wk P0.bk P0.wv P0.bv P0.wi P0.bi P0.wf P0.bf)
      P1.wk P1.bk P1.wv P1.bv P1.wi P1.bi P1.wf P1.bf = _
  rw [ref_hCol x0 x1 x2 P0, ref_cMat x0 x1 P0]
  exact ref_cMat _ _ P1

/-- The second cell's vector state. -/
theorem ref_n_params :
    val_main_v82 (F := Ideal) x0 x1 x2 P0.wq P0.bq P0.wk P0.bk P0.wv P0.bv P0.wi P0.bi P0.wf P0.bf P0.wo P0.bo
      P1.wk P1.bk P1.wi P1.bi P1.wf P1.bf
      = nCol P1 (hCol P0 x0 x1 x2) (nCol P0 x0 x2) := by
  show val_main_v32 (F := Ideal)
      (val_main_v49 (F := Ideal) x0 x1 x2 P0.wq P0.bq P0.wk P0.bk P0.wv P0.bv P0.wi P0.bi P0.wf P0.bf P0.wo P0.bo)
      (val_main_v32 (F := Ideal) x0 x2 P0.wk P0.bk P0.wi P0.bi P0.wf P0.bf)
      P1.wk P1.bk P1.wi P1.bi P1.wf P1.bf = _
  rw [ref_hCol x0 x1 x2 P0, ref_nCol x0 x2 P0]
  exact ref_nCol _ _ P1

/-- The second cell's output column. -/
theorem ref_h99_params :
    val_main_v99 (F := Ideal) x0 x1 x2 P0.wq P0.bq P0.wk P0.bk P0.wv P0.bv P0.wi P0.bi P0.wf P0.bf P0.wo P0.bo
      P1.wq P1.bq P1.wk P1.bk P1.wv P1.bv P1.wi P1.bi P1.wf P1.bf P1.wo P1.bo
      = hCol P1 (hCol P0 x0 x1 x2) (cMat P0 x0 x1) (nCol P0 x0 x2) := by
  show val_main_v49 (F := Ideal)
      (val_main_v49 (F := Ideal) x0 x1 x2 P0.wq P0.bq P0.wk P0.bk P0.wv P0.bv P0.wi P0.bi P0.wf P0.bf P0.wo P0.bo)
      (val_main_v27 (F := Ideal) x0 x1 P0.wk P0.bk P0.wv P0.bv P0.wi P0.bi P0.wf P0.bf)
      (val_main_v32 (F := Ideal) x0 x2 P0.wk P0.bk P0.wi P0.bi P0.wf P0.bf)
      P1.wq P1.bq P1.wk P1.bk P1.wv P1.bv P1.wi P1.bi P1.wf P1.bf P1.wo P1.bo = _
  rw [ref_hCol x0 x1 x2 P0, ref_cMat x0 x1 P0, ref_nCol x0 x2 P0]
  exact ref_hCol _ _ _ P1

/-- The program's first result: the second cell's output column reshaped into a row.  The reshape reads
    the row's entry `j` at the column's row `(0 * 4096 + j) / 1 = j`. -/
theorem ref_h_params :
    val_main_v100 (F := Ideal) x0 x1 x2 P0.wq P0.bq P0.wk P0.bk P0.wv P0.bv P0.wi P0.bi P0.wf P0.bf P0.wo P0.bo
      P1.wq P1.bq P1.wk P1.bk P1.wv P1.bv P1.wi P1.bi P1.wf P1.bf P1.wo P1.bo
      = hRow P1 (hCol P0 x0 x1 x2) (cMat P0 x0 x1) (nCol P0 x0 x2) := by
  funext i
  rw [val_main_v100_apply, ref_h99_params]
  show h P1 _ _ _ ((idx_main_v100 i) 0) = h P1 _ _ _ (i 1)
  congr 1
  apply Fin.ext
  have h0 : (i 0).val < 1 := (i 0).isLt
  show ((i 0).val * 4096 + (i 1).val) / 1 = (i 1).val
  omega

end TwoCells

/-! ## The program's three results, in its own arguments

  Arguments 3 to 14 are the first cell's parameters and arguments 15 to 26 the second cell's, each in
  the order of the fields of `Params`. -/

section Results

variable (x0 : SCol.Idx → EReal) (x1 : SMat.Idx → EReal) (x2 : SCol.Idx → EReal) (x3 : SMat.Idx → EReal) (x4 : SCol.Idx → EReal) (x5 : SMat.Idx → EReal) (x6 : SCol.Idx → EReal) (x7 : SMat.Idx → EReal) (x8 : SCol.Idx → EReal) (x9 : SRow.Idx → EReal) (x10 : SOne.Idx → EReal) (x11 : SRow.Idx → EReal) (x12 : SOne.Idx → EReal) (x13 : SMat.Idx → EReal) (x14 : SCol.Idx → EReal) (x15 : SMat.Idx → EReal) (x16 : SCol.Idx → EReal) (x17 : SMat.Idx → EReal) (x18 : SCol.Idx → EReal) (x19 : SMat.Idx → EReal) (x20 : SCol.Idx → EReal) (x21 : SRow.Idx → EReal) (x22 : SOne.Idx → EReal) (x23 : SRow.Idx → EReal) (x24 : SOne.Idx → EReal) (x25 : SMat.Idx → EReal) (x26 : SCol.Idx → EReal)

/-- The second result: the matrix state after two cells. -/
theorem ref_c :
    val_main_v77 (F := Ideal) x0 x1 x2 x3 x4 x5 x6 x7 x8 x9 x10 x11 x12 x13 x14 x17 x18 x19 x20 x21 x22 x23 x24
      = cMat ⟨x15, x16, x17, x18, x19, x20, x21, x22, x23, x24, x25, x26⟩
          (hCol ⟨x3, x4, x5, x6, x7, x8, x9, x10, x11, x12, x13, x14⟩ x0 x1 x2)
          (cMat ⟨x3, x4, x5, x6, x7, x8, x9, x10, x11, x12, x13, x14⟩ x0 x1) :=
  ref_c_params x0 x1 x2 ⟨x3, x4, x5, x6, x7, x8, x9, x10, x11, x12, x13, x14⟩ ⟨x15, x16, x17, x18, x19, x20, x21, x22, x23, x24, x25, x26⟩

/-- The third result: the vector state after two cells. -/
theorem ref_n :
    val_main_v82 (F := Ideal) x0 x1 x2 x3 x4 x5 x6 x7 x8 x9 x10 x11 x12 x13 x14 x17 x18 x21 x22 x23 x24
      = nCol ⟨x15, x16, x17, x18, x19, x20, x21, x22, x23, x24, x25, x26⟩
          (hCol ⟨x3, x4, x5, x6, x7, x8, x9, x10, x11, x12, x13, x14⟩ x0 x1 x2)
          (nCol ⟨x3, x4, x5, x6, x7, x8, x9, x10, x11, x12, x13, x14⟩ x0 x2) :=
  ref_n_params x0 x1 x2 ⟨x3, x4, x5, x6, x7, x8, x9, x10, x11, x12, x13, x14⟩ ⟨x15, x16, x17, x18, x19, x20, x21, x22, x23, x24, x25, x26⟩

/-- The first result: the output of the second cell, as a row. -/
theorem ref_h :
    val_main_v100 (F := Ideal) x0 x1 x2 x3 x4 x5 x6 x7 x8 x9 x10 x11 x12 x13 x14 x15 x16 x17 x18 x19 x20 x21 x22 x23 x24 x25 x26
      = hRow ⟨x15, x16, x17, x18, x19, x20, x21, x22, x23, x24, x25, x26⟩
          (hCol ⟨x3, x4, x5, x6, x7, x8, x9, x10, x11, x12, x13, x14⟩ x0 x1 x2)
          (cMat ⟨x3, x4, x5, x6, x7, x8, x9, x10, x11, x12, x13, x14⟩ x0 x1)
          (nCol ⟨x3, x4, x5, x6, x7, x8, x9, x10, x11, x12, x13, x14⟩ x0 x2) :=
  ref_h_params x0 x1 x2 ⟨x3, x4, x5, x6, x7, x8, x9, x10, x11, x12, x13, x14⟩ ⟨x15, x16, x17, x18, x19, x20, x21, x22, x23, x24, x25, x26⟩

end Results

end Cert.MLstm.Ref

end
-- ==== Proof.RefSide.lean ====
/-
  The reference program's run, stated in the cell's terms.

  Every run of the reference ends with its three results at the stage functions of its 27 argument arrays
  and the arguments unchanged.  The stage functions are two cells chained: the output row, the matrix state
  and the vector state of the second cell, taken at the first cell's results.  From a launch whose arrays
  agree with the kernel's, these are the same three terms over the kernel's arrays.
-/
import proofs.«164411_j62654982914536_2_alg».proof.Defs
import proofs.«164411_j62654982914536_2_alg».proof.Proof.Gen.ReferenceIdeal.Read
import proofs.«164411_j62654982914536_2_alg».proof.Proof.RefSpec
import proofs.«164411_j62654982914536_2_alg».proof.Proof.KBase

noncomputable section

namespace Cert.MLstm.RefSide

open Idealize.ShloMosaic Idealize.SL.Sem Cert.MLstm Cert.KernelIdeal.Chain Cert.ReferenceIdeal.Read

/-! ## The three results at arrays equal to given ones -/

section Transport

variable (a0 : SCol.Idx → EReal) (a1 : SMat.Idx → EReal) (a2 : SCol.Idx → EReal) (a3 : SMat.Idx → EReal) (a4 : SCol.Idx → EReal) (a5 : SMat.Idx → EReal) (a6 : SCol.Idx → EReal) (a7 : SMat.Idx → EReal) (a8 : SCol.Idx → EReal) (a9 : SRow.Idx → EReal) (a10 : SOne.Idx → EReal) (a11 : SRow.Idx → EReal) (a12 : SOne.Idx → EReal) (a13 : SMat.Idx → EReal) (a14 : SCol.Idx → EReal) (a15 : SMat.Idx → EReal) (a16 : SCol.Idx → EReal) (a17 : SMat.Idx → EReal) (a18 : SCol.Idx → EReal) (a19 : SMat.Idx → EReal) (a20 : SCol.Idx → EReal) (a21 : SRow.Idx → EReal) (a22 : SOne.Idx → EReal) (a23 : SRow.Idx → EReal) (a24 : SOne.Idx → EReal) (a25 : SMat.Idx → EReal) (a26 : SCol.Idx → EReal)
  (b0 : SCol.Idx → EReal) (b1 : SMat.Idx → EReal) (b2 : SCol.Idx → EReal) (b3 : SMat.Idx → EReal) (b4 : SCol.Idx → EReal) (b5 : SMat.Idx → EReal) (b6 : SCol.Idx → EReal) (b7 : SMat.Idx → EReal) (b8 : SCol.Idx → EReal) (b9 : SRow.Idx → EReal) (b10 : SOne.Idx → EReal) (b11 : SRow.Idx → EReal) (b12 : SOne.Idx → EReal) (b13 : SMat.Idx → EReal) (b14 : SCol.Idx → EReal) (b15 : SMat.Idx → EReal) (b16 : SCol.Idx → EReal) (b17 : SMat.Idx → EReal) (b18 : SCol.Idx → EReal) (b19 : SMat.Idx → EReal) (b20 : SCol.Idx → EReal) (b21 : SRow.Idx → EReal) (b22 : SOne.Idx → EReal) (b23 : SRow.Idx → EReal) (b24 : SOne.Idx → EReal) (b25 : SMat.Idx → EReal) (b26 : SCol.Idx → EReal)

/-- The output row, over arrays equal to the program's arguments. -/
theorem h_of_eq (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) (h24 : a24 = b24) (h25 : a25 = b25) (h26 : a26 = b26) :
    val_main_v100 (F := Ideal) a0 a1 a2 a3 a4 a5 a6 a7 a8 a9 a10 a11 a12 a13 a14 a15 a16 a17 a18 a19 a20 a21 a22 a23 a24 a25 a26
      = hRow ⟨b15, b16, b17, b18, b19, b20, b21, b22, b23, b24, b25, b26⟩ (hCol ⟨b3, b4, b5, b6, b7, b8, b9, b10, b11, b12, b13, b14⟩ b0 b1 b2) (cMat ⟨b3, b4, b5, b6, b7, b8, b9, b10, b11, b12, b13, b14⟩ b0 b1) (nCol ⟨b3, b4, b5, b6, b7, b8, b9, b10, b11, b12, b13, b14⟩ b0 b2) := by
  subst h0 h1 h2 h3 h4 h5 h6 h7 h8 h9 h10 h11 h12 h13 h14 h15 h16 h17 h18 h19 h20 h21 h22 h23 h24 h25 h26
  exact Cert.MLstm.Ref.ref_h a0 a1 a2 a3 a4 a5 a6 a7 a8 a9 a10 a11 a12 a13 a14 a15 a16 a17 a18 a19 a20 a21 a22 a23 a24 a25 a26

/-- The matrix state, over arrays equal to the program's arguments. -/
theorem c_of_eq (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) (h24 : a24 = b24) (h25 : a25 = b25) (h26 : a26 = b26) :
    val_main_v77 (F := Ideal) a0 a1 a2 a3 a4 a5 a6 a7 a8 a9 a10 a11 a12 a13 a14 a17 a18 a19 a20 a21 a22 a23 a24
      = cMat ⟨b15, b16, b17, b18, b19, b20, b21, b22, b23, b24, b25, b26⟩ (hCol ⟨b3, b4, b5, b6, b7, b8, b9, b10, b11, b12, b13, b14⟩ b0 b1 b2) (cMat ⟨b3, b4, b5, b6, b7, b8, b9, b10, b11, b12, b13, b14⟩ b0 b1) := by
  subst h0 h1 h2 h3 h4 h5 h6 h7 h8 h9 h10 h11 h12 h13 h14 h15 h16 h17 h18 h19 h20 h21 h22 h23 h24 h25 h26
  exact Cert.MLstm.Ref.ref_c a0 a1 a2 a3 a4 a5 a6 a7 a8 a9 a10 a11 a12 a13 a14 a15 a16 a17 a18 a19 a20 a21 a22 a23 a24 a25 a26

/-- The vector state, over arrays equal to the program's arguments. -/
theorem n_of_eq (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) (h24 : a24 = b24) (h25 : a25 = b25) (h26 : a26 = b26) :
    val_main_v82 (F := Ideal) a0 a1 a2 a3 a4 a5 a6 a7 a8 a9 a10 a11 a12 a13 a14 a17 a18 a21 a22 a23 a24
      = nCol ⟨b15, b16, b17, b18, b19, b20, b21, b22, b23, b24, b25, b26⟩ (hCol ⟨b3, b4, b5, b6, b7, b8, b9, b10, b11, b12, b13, b14⟩ b0 b1 b2) (nCol ⟨b3, b4, b5, b6, b7, b8, b9, b10, b11, b12, b13, b14⟩ b0 b2) := by
  subst h0 h1 h2 h3 h4 h5 h6 h7 h8 h9 h10 h11 h12 h13 h14 h15 h16 h17 h18 h19 h20 h21 h22 h23 h24 h25 h26
  exact Cert.MLstm.Ref.ref_n a0 a1 a2 a3 a4 a5 a6 a7 a8 a9 a10 a11 a12 a13 a14 a15 a16 a17 a18 a19 a20 a21 a22 a23 a24 a25 a26

end Transport

/-! ## The run -/

/-- From arrays that agree with the kernel's launch, every run of the reference ends with the second cell's
    output row, matrix state and vector state over the kernel's arrays, and its arguments unchanged. -/
theorem ref_side
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = hRow (P1 m c) (x1 m c) (c1 m c) (n1 m c)
          ∧ r.2.mem ((c.tc : Thread Cert.ReferenceIdeal.nD Cert.ReferenceIdeal.τ).loc Cert.ReferenceIdeal.main_v77) = cMat (P1 m c) (x1 m c) (c1 m c)
          ∧ r.2.mem ((c.tc : Thread Cert.ReferenceIdeal.nD Cert.ReferenceIdeal.τ).loc Cert.ReferenceIdeal.main_v82) = nCol (P1 m c) (x1 m c) (n1 m c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)) := by
  refine (θ_run Cert.ReferenceIdeal.defs _ _).mono (fun r h c => ?_) (Cert.ReferenceIdeal.Value.run (F := Ideal) m' g')
  obtain ⟨h100, h77, h82, hargs⟩ := h c
  obtain ⟨e0, e1, e2, e3, e4, e5, e6, e7, e8, e9, e10, e11, e12, e13, e14, e15, e16, e17, e18, e19, e20, e21, e22, e23, e24, e25, e26⟩ := hagree c
  refine ⟨h100.trans ?_, h77.trans ?_, h82.trans ?_, hargs⟩
  · refine (val_main_v100_eq m' c).trans ((h_of_eq _ _ _ _ _ _ _ _ _ _ _ _ _ _ _ _ _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18 e19 e20 e21 e22 e23 e24 e25 e26).trans ?_)
    rfl
  · refine (val_main_v77_eq m' c).trans ((c_of_eq _ _ _ _ _ _ _ _ _ _ _ _ _ _ _ _ _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18 e19 e20 e21 e22 e23 e24 e25 e26).trans ?_)
    rfl
  · refine (val_main_v82_eq m' c).trans ((n_of_eq _ _ _ _ _ _ _ _ _ _ _ _ _ _ _ _ _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18 e19 e20 e21 e22 e23 e24 e25 e26).trans ?_)
    rfl

end Cert.MLstm.RefSide

end
-- ==== Proof.lean ====
/-
  A two-layer matrix-memory recurrent cell: the pipelined kernel against the plain array program.

  Each layer is one step of the cell of `Proof/Spec.lean`.  The kernel computes a step in two pipelined calls over
  16 row tiles — the query, key and value columns; then the new matrix state and the output — with the two gates,
  the new vector state and the stabiliser computed between them by host operations; the reference computes the same
  step with whole-array contractions.  On the extended reals both are the step itself: every difference is a layout
  (a vector held as a row or as a column, a matrix by row tiles or whole), a reduction's zero starting value, or
  the logistic function written as one operation or as a negation, an exponential, a sum and a quotient.  No entry
  needs to be finite: no sum is re-associated across a product and nothing is cancelled.

  The three frames are the generated ones (the reference's is its generated run with the results dropped); the ideal
  pass rewrote no operation, so there is nothing to preserve; the two programs' results are the cell's second step
  of its first step, from memories that agree on the 27 arguments.
-/
import proofs.«164411_j62654982914536_2_alg».proof.Defs
import proofs.«164411_j62654982914536_2_alg».proof.Proof.Gen.Kernel
import proofs.«164411_j62654982914536_2_alg».proof.Proof.Gen.Kernel.Skeleton
import proofs.«164411_j62654982914536_2_alg».proof.Proof.Gen.Kernel.Launch
import proofs.«164411_j62654982914536_2_alg».proof.Proof.Gen.Kernel.Points
import proofs.«164411_j62654982914536_2_alg».proof.Proof.Gen.Kernel.Frame
import proofs.«164411_j62654982914536_2_alg».proof.Proof.Gen.KernelIdeal
import proofs.«164411_j62654982914536_2_alg».proof.Proof.Gen.KernelIdeal.Skeleton
import proofs.«164411_j62654982914536_2_alg».proof.Proof.Gen.KernelIdeal.Launch
import proofs.«164411_j62654982914536_2_alg».proof.Proof.Gen.KernelIdeal.Points
import proofs.«164411_j62654982914536_2_alg».proof.Proof.Gen.KernelIdeal.Frame
import proofs.«164411_j62654982914536_2_alg».proof.Proof.Gen.ReferenceIdeal
import proofs.«164411_j62654982914536_2_alg».proof.Proof.Gen.Pre_finite_inputs
import proofs.«164411_j62654982914536_2_alg».proof.Proof.Gen.ReferenceIdeal.Run
import proofs.«164411_j62654982914536_2_alg».proof.Proof.Gen.ReferenceIdeal.Read
import proofs.«164411_j62654982914536_2_alg».proof.Proof.KRun
import proofs.«164411_j62654982914536_2_alg».proof.Proof.KChain
import proofs.«164411_j62654982914536_2_alg».proof.Proof.RefSide
import Idealize.ShloMosaic.Adequacy
import Idealize.ShloMosaic.Init

noncomputable section

namespace Cert.Proof

open Idealize.ShloMosaic Idealize.SL.Sem Cert.MLstm Cert.KernelIdeal.Chain

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- Both programs end with the second step's output row, matrix state and vector state, computed from the first
    step's: the kernel by its run read through the nine segments, the reference by its run read one operation at a
    time, from memories that agree on the arguments. -/
theorem algebraic : Cert.algebraic_KernelIdeal_ReferenceIdeal := by
  intro m ρ m' ρ' _ hagree
  refine ⟨fun c => hRow (P1 m c) (x1 m c) (c1 m c) (n1 m c), fun c => cMat (P1 m c) (x1 m c) (c1 m c),
    fun c => nCol (P1 m c) (x1 m c) (n1 m c), ?_, Cert.MLstm.RefSide.ref_side m m' ρ' hagree⟩
  refine (θ_run Cert.KernelIdeal.defs _ _).mono (fun r h c => ?_) (Cert.KernelIdeal.KRun.run_values (F := Ideal) m ρ)
  exact ⟨(h c).1.trans (res_h m ρ c), (h c).2.1.trans (res_c m ρ c), (h c).2.2.1.trans (res_n m ρ c), (h c).2.2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
